-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v39_0)) (v1 : (c : Dev Cert.KernelIdeal.nD) → Buf (Elt Ideal) ((c.tc : Thread Cert.KernelIdeal.nD Cert.KernelIdeal.τ).loc Cert.KernelIdeal.main_v39_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39_0) = v0 c
          ∧ r.2.mem ((c.tc : Thread Cert.KernelIdeal.nD Cert.KernelIdeal.τ).loc Cert.KernelIdeal.main_v39_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_v114) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x128x128 : Shape := ⟨4, ![8, 128, 128, 128]⟩
abbrev S72x128 : Shape := ⟨2, ![72, 128]⟩
abbrev S72x72 : Shape := ⟨2, ![72, 72]⟩
abbrev S72 : Shape := ⟨1, ![72]⟩
abbrev S_ : Shape := ⟨0, ![]⟩

class Facts : Prop where
  bcast_S_S8x128x128x128 : S_.BroadcastsInDim S8x128x128x128 (![] : Fin 0 → Fin S8x128x128x128.rank)
  reducesTo_S8x128x128x128_S_d0_1_2_3 : S8x128x128x128.ReducesTo [0, 1, 2, 3] S_
  h_S_ : 0 < S_.numel
  bcast_S_S72x128 : S_.BroadcastsInDim S72x128 (![] : Fin 0 → Fin S72x128.rank)
  reducesTo_S72x128_S_d0_1 : S72x128.ReducesTo [0, 1] S_
  bcast_S_S72x72 : S_.BroadcastsInDim S72x72 (![] : Fin 0 → Fin S72x72.rank)
  reducesTo_S72x72_S_d0_1 : S72x72.ReducesTo [0, 1] S_
  bcast_S_S72 : S_.BroadcastsInDim S72 (![] : Fin 0 → Fin S72.rank)
  reducesTo_S72_S_d0 : S72.ReducesTo [0] S_

variable [Facts]

def fn_part1 {F : FTy → Type} [FloatOps F] (main_arg4 : FVec F S72 .f32) (main_arg5 : FVec F S72 .f32) (main_arg6 : FVec F S72 .f32) (main_v13 : IVec S_ 1) (main_v16 : IVec S72 1) : IVec S_ 1 :=
  let main_c_5 : IVec S_ 1 := constantI S_ 1 1#1
  let main_v17 : IVec S_ 1 := (fun x v => Host.reduce IntOp.andi x v reducesTo_S72_S_d0 h_S_) main_v16 main_c_5
  let main_v18 : IVec S_ 1 := andi main_v13 main_v17
  let main_v19 : FVec F S72 .f32 := Host.absf main_arg4
  let main_cst_6 : FVec F S_ .f32 := constant S_ .f32 0x7F800000#32
  let main_v20 : FVec F S72 .f32 := broadcastInDim S72 ![] bcast_S_S72 main_cst_6
  let main_v21 : IVec S72 1 := cmpf .olt main_v19 main_v20
  let main_c_7 : IVec S_ 1 := constantI S_ 1 1#1
  let main_v22 : IVec S_ 1 := (fun x v => Host.reduce IntOp.andi x v reducesTo_S72_S_d0 h_S_) main_v21 main_c_7
  let main_v23 : IVec S_ 1 := andi main_v18 main_v22
  let main_v24 : FVec F S72 .f32 := Host.absf main_arg5
  let main_cst_8 : FVec F S_ .f32 := constant S_ .f32 0x7F800000#32
  let main_v25 : FVec F S72 .f32 := broadcastInDim S72 ![] bcast_S_S72 main_cst_8
  let main_v26 : IVec S72 1 := cmpf .olt main_v24 main_v25
  let main_c_9 : IVec S_ 1 := constantI S_ 1 1#1
  let main_v27 : IVec S_ 1 := (fun x v => Host.reduce IntOp.andi x v reducesTo_S72_S_d0 h_S_) main_v26 main_c_9
  let main_v28 : IVec S_ 1 := andi main_v23 main_v27
  let main_v29 : FVec F S72 .f32 := Host.absf main_arg6
  let main_cst_10 : FVec F S_ .f32 := constant S_ .f32 0x7F800000#32
  let main_v30 : FVec F S72 .f32 := broadcastInDim S72 ![] bcast_S_S72 main_cst_10
  let main_v31 : IVec S72 1 := cmpf .olt main_v29 main_v30
  let main_c_11 : IVec S_ 1 := constantI S_ 1 1#1
  let main_v32 : IVec S_ 1 := (fun x v => Host.reduce IntOp.andi x v reducesTo_S72_S_d0 h_S_) main_v31 main_c_11
  let main_v33 : IVec S_ 1 := andi main_v28 main_v32
  main_v33

def fn {F : FTy → Type} [FloatOps F] (main_arg0 : FVec F S8x128x128x128 .f32) (main_arg1 : FVec F S72x128 .f32) (main_arg2 : FVec F S72x72 .f32) (main_arg3 : FVec F S72 .f32) (main_arg4 : FVec F S72 .f32) (main_arg5 : FVec F S72 .f32) (main_arg6 : FVec F S72 .f32) : IVec S_ 1 :=
  let main_v0 : FVec F S8x128x128x128 .f32 := Host.absf main_arg0
  let main_cst : FVec F S_ .f32 := constant S_ .f32 0x7F800000#32
  let main_v1 : FVec F S8x128x128x128 .f32 := broadcastInDim S8x128x128x128 ![] bcast_S_S8x128x128x128 main_cst
  let main_v2 : IVec S8x128x128x128 1 := cmpf .olt main_v0 main_v1
  let main_c : IVec S_ 1 := constantI S_ 1 1#1
  let main_v3 : IVec S_ 1 := (fun x v => Host.reduce IntOp.andi x v reducesTo_S8x128x128x128_S_d0_1_2_3 h_S_) main_v2 main_c
  let main_v4 : FVec F S72x128 .f32 := Host.absf main_arg1
  let main_cst_0 : FVec F S_ .f32 := constant S_ .f32 0x7F800000#32
  let main_v5 : FVec F S72x128 .f32 := broadcastInDim S72x128 ![] bcast_S_S72x128 main_cst_0
  let main_v6 : IVec S72x128 1 := cmpf .olt main_v4 main_v5
  let main_c_1 : IVec S_ 1 := constantI S_ 1 1#1
  let main_v7 : IVec S_ 1 := (fun x v => Host.reduce IntOp.andi x v reducesTo_S72x128_S_d0_1 h_S_) main_v6 main_c_1
  let main_v8 : IVec S_ 1 := andi main_v3 main_v7
  let main_v9 : FVec F S72x72 .f32 := Host.absf main_arg2
  let main_cst_2 : FVec F S_ .f32 := constant S_ .f32 0x7F800000#32
  let main_v10 : FVec F S72x72 .f32 := broadcastInDim S72x72 ![] bcast_S_S72x72 main_cst_2
  let main_v11 : IVec S72x72 1 := cmpf .olt main_v9 main_v10
  let main_c_3 : IVec S_ 1 := constantI S_ 1 1#1
  let main_v12 : IVec S_ 1 := (fun x v => Host.reduce IntOp.andi x v reducesTo_S72x72_S_d0_1 h_S_) main_v11 main_c_3
  let main_v13 : IVec S_ 1 := andi main_v8 main_v12
  let main_v14 : FVec F S72 .f32 := Host.absf main_arg3
  let main_cst_4 : FVec F S_ .f32 := constant S_ .f32 0x7F800000#32
  let main_v15 : FVec F S72 .f32 := broadcastInDim S72 ![] bcast_S_S72 main_cst_4
  let main_v16 : IVec S72 1 := cmpf .olt main_v14 main_v15
  fn_part1 (F := F) main_arg4 main_arg5 main_arg6 main_v13 main_v16
-- ==== Kernel.lean ====
abbrev S8x128x128x128 : Shape := ⟨4, ![8, 128, 128, 128]⟩
abbrev S72x128 : Shape := ⟨2, ![72, 128]⟩
abbrev S72x72 : Shape := ⟨2, ![72, 72]⟩
abbrev S72 : Shape := ⟨1, ![72]⟩
abbrev S128x8 : Shape := ⟨2, ![128, 8]⟩
abbrev S8x16x128x128 : Shape := ⟨4, ![8, 16, 128, 128]⟩
abbrev S16x8 : Shape := ⟨2, ![16, 8]⟩
abbrev S8x16x128 : Shape := ⟨3, ![8, 16, 128]⟩
abbrev S8x16 : Shape := ⟨2, ![8, 16]⟩
abbrev S8x128 : Shape := ⟨2, ![8, 128]⟩
abbrev S8x72 : Shape := ⟨2, ![8, 72]⟩
abbrev S_ : Shape := ⟨0, ![]⟩
abbrev S1x72 : Shape := ⟨2, ![1, 72]⟩
abbrev S8x8x9 : Shape := ⟨3, ![8, 8, 9]⟩
abbrev S8x8 : Shape := ⟨2, ![8, 8]⟩
abbrev S8x8x1 : Shape := ⟨3, ![8, 8, 1]⟩
abbrev S8x2x1x36 : Shape := ⟨4, ![8, 2, 1, 36]⟩
abbrev S1x64x128x128 : Shape := ⟨4, ![1, 64, 128, 128]⟩
abbrev S1x1x1x36 : Shape := ⟨4, ![1, 1, 1, 36]⟩
abbrev S16x128x128 : Shape := ⟨3, ![16, 128, 128]⟩
abbrev S36 : Shape := ⟨1, ![36]⟩
abbrev S1x16x128x128 : Shape := ⟨4, ![1, 16, 128, 128]⟩
abbrev S9 : Shape := ⟨1, ![9]⟩
abbrev S16x1x128 : Shape := ⟨3, ![16, 1, 128]⟩
abbrev S16x128x1 : Shape := ⟨3, ![16, 128, 1]⟩
abbrev S1 : Shape := ⟨1, ![1]⟩

abbrev nBuf : Space → Nat
  | .hbm => 54
  | .vmem => 12
  | .smem => 0
  | _ => 0

abbrev bufTy : (tb : Table) → Fin (tcTables nBuf tb) → BufTy
  | .hbm, ⟨0, _⟩ => ⟨S8x128x128x128, .f32⟩
  | .hbm, ⟨1, _⟩ => ⟨S72x128, .f32⟩
  | .hbm, ⟨2, _⟩ => ⟨S72x72, .f32⟩
  | .hbm, ⟨3, _⟩ => ⟨S72, .f32⟩
  | .hbm, ⟨4, _⟩ => ⟨S72, .f32⟩
  | .hbm, ⟨5, _⟩ => ⟨S72, .f32⟩
  | .hbm, ⟨6, _⟩ => ⟨S72, .f32⟩
  | .hbm, ⟨7, _⟩ => ⟨S128x8, .f32⟩
  | .hbm, ⟨8, _⟩ => ⟨S8x128, .f32⟩
  | .hbm, ⟨9, _⟩ => ⟨S8x72, .f32⟩
  | .hbm, ⟨10, _⟩ => ⟨S8x72, .f32⟩
  | .hbm, ⟨11, _⟩ => ⟨S8x72, .f32⟩
  | .hbm, ⟨12, _⟩ => ⟨S8x72, .f32⟩
  | .hbm, ⟨13, _⟩ => ⟨S_, .f32⟩
  | .hbm, ⟨14, _⟩ => ⟨S8x72, .f32⟩
  | .hbm, ⟨15, _⟩ => ⟨S8x72, .f32⟩
  | .hbm, ⟨16, _⟩ => ⟨S_, .f32⟩
  | .hbm, ⟨17, _⟩ => ⟨S8x72, .f32⟩
  | .hbm, ⟨18, _⟩ => ⟨S8x72, .f32⟩
  | .hbm, ⟨19, _⟩ => ⟨S8x72, .f32⟩
  | .hbm, ⟨20, _⟩ => ⟨S1x72, .f32⟩
  | .hbm, ⟨21, _⟩ => ⟨S8x72, .f32⟩
  | .hbm, ⟨22, _⟩ => ⟨S8x72, .f32⟩
  | .hbm, ⟨23, _⟩ => ⟨S_, .f32⟩
  | .hbm, ⟨24, _⟩ => ⟨S72, .f32⟩
  | .hbm, ⟨25, _⟩ => ⟨S72, .f32⟩
  | .hbm, ⟨26, _⟩ => ⟨S72, .f32⟩
  | .hbm, ⟨27, _⟩ => ⟨S1x72, .f32⟩
  | .hbm, ⟨28, _⟩ => ⟨S8x72, .f32⟩
  | .hbm, ⟨29, _⟩ => ⟨S8x72, .f32⟩
  | .hbm, ⟨30, _⟩ => ⟨S1x72, .f32⟩
  | .hbm, ⟨31, _⟩ => ⟨S8x72, .f32⟩
  | .hbm, ⟨32, _⟩ => ⟨S8x72, .f32⟩
  | .hbm, ⟨33, _⟩ => ⟨S1x72, .f32⟩
  | .hbm, ⟨34, _⟩ => ⟨S8x72, .f32⟩
  | .hbm, ⟨35, _⟩ => ⟨S8x72, .f32⟩
  | .hbm, ⟨36, _⟩ => ⟨S8x8x9, .f32⟩
  | .hbm, ⟨37, _⟩ => ⟨S_, .f32⟩
  | .hbm, ⟨38, _⟩ => ⟨S8x8, .f32⟩
  | .hbm, ⟨39, _⟩ => ⟨S_, .f32⟩
  | .hbm, ⟨40, _⟩ => ⟨S8x8, .f32⟩
  | .hbm, ⟨41, _⟩ => ⟨S8x8, .f32⟩
  | .hbm, ⟨42, _⟩ => ⟨S8x8x1, .f32⟩
  | .hbm, ⟨43, _⟩ => ⟨S8x8x9, .f32⟩
  | .hbm, ⟨44, _⟩ => ⟨S8x8x9, .f32⟩
  | .hbm, ⟨45, _⟩ => ⟨S8x8x9, .f32⟩
  | .hbm, ⟨46, _⟩ => ⟨S_, .f32⟩
  | .hbm, ⟨47, _⟩ => ⟨S8x8, .f32⟩
  | .hbm, ⟨48, _⟩ => ⟨S8x8x1, .f32⟩
  | .hbm, ⟨49, _⟩ => ⟨S8x8x9, .f32⟩
  | .hbm, ⟨50, _⟩ => ⟨S8x8x9, .f32⟩
  | .hbm, ⟨51, _⟩ => ⟨S8x2x1x36, .f32⟩
  | .hbm, ⟨52, _⟩ => ⟨S8x128x128x128, .f32⟩
  | .hbm, ⟨53, _⟩ => ⟨S8x128x128x128, .f32⟩
  | .local _ .vmem, ⟨0, _⟩ => ⟨S8x16x128x128, .f32⟩
  | .local _ .vmem, ⟨1, _⟩ => ⟨S8x16x128x128, .f32⟩
  | .local _ .vmem, ⟨2, _⟩ => ⟨S16x8, .f32⟩
  | .local _ .vmem, ⟨3, _⟩ => ⟨S16x8, .f32⟩
  | .local _ .vmem, ⟨4, _⟩ => ⟨S1x64x128x128, .f32⟩
  | .local _ .vmem, ⟨5, _⟩ => ⟨S1x64x128x128, .f32⟩
  | .local _ .vmem, ⟨6, _⟩ => ⟨S1x1x1x36, .f32⟩
  | .local _ .vmem, ⟨7, _⟩ => ⟨S1x1x1x36, .f32⟩
  | .local _ .vmem, ⟨8, _⟩ => ⟨S1x64x128x128, .f32⟩
  | .local _ .vmem, ⟨9, _⟩ => ⟨S1x64x128x128, .f32⟩
  | .local _ .vmem, ⟨10, _⟩ => ⟨S1x64x128x128, .f32⟩
  | .local _ .vmem, ⟨11, _⟩ => ⟨S1x64x128x128, .f32⟩
  | _, _ => ⟨S8x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39_0 : Ref sig .tc := ⟨.hbm, 52, rfl⟩
abbrev main_v39_1 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x16x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 2], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x64x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x1x36 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x64x128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x64x128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S8x16x128x128_S8x16x128x128_0_0_0_0 : ∀ a, (![0, 0, 0, 0] : Fin 4 → Nat) a + S8x16x128x128.size a ≤ S8x16x128x128.size a
  h_S8x16x128x128 : 0 < S8x16x128x128.numel
  reduces_S8x16x128x128_S8x16x128 : S8x16x128x128.Reduces [3] S8x16x128
  reduces_S8x16x128_S8x16 : S8x16x128.Reduces [2] S8x16
  transposes_S8x16_p1_0_S16x8 : S8x16.Transposes [1, 0] S16x8
  inb_S16x8_S16x8_0_0 : ∀ a, (![0, 0] : Fin 2 → Nat) a + S16x8.size a ≤ S16x8.size a
  h_S16x8 : 0 < S16x8.numel
  transposes_S128x8_S8x128_1_0 : S128x8.Transposes [1, 0] S8x128
  bcast_S_S8x72 : S_.BroadcastsInDim S8x72 (![] : Fin 0 → Fin S8x72.rank)
  bcast_S72_S1x72_1 : S72.BroadcastsInDim S1x72 (![1] : Fin 1 → Fin S1x72.rank)
  bcast_S1x72_S8x72_0_1 : S1x72.BroadcastsInDim S8x72 (![0, 1] : Fin 2 → Fin S8x72.rank)
  bcast_S_S72 : S_.BroadcastsInDim S72 (![] : Fin 0 → Fin S72.rank)
  shapeCasts_S8x72_S8x8x9 : S8x72.ShapeCasts S8x8x9
  reducesTo_S8x8x9_S8x8_d2 : S8x8x9.ReducesTo [2] S8x8
  h_S_ : 0 < S_.numel
  bcast_S_S8x8 : S_.BroadcastsInDim S8x8 (![] : Fin 0 → Fin S8x8.rank)
  bcast_S8x8_S8x8x1_0_1 : S8x8.BroadcastsInDim S8x8x1 (![0, 1] : Fin 2 → Fin S8x8x1.rank)
  bcast_S8x8x1_S8x8x9_0_1_2 : S8x8x1.BroadcastsInDim S8x8x9 (![0, 1, 2] : Fin 3 → Fin S8x8x9.rank)
  shapeCasts_S8x8x9_S8x2x1x36 : S8x8x9.ShapeCasts S8x2x1x36
  iota_S16x128x128_d1_w32 : S16x128x128.Iotas .tc 32 [1]
  iota_S16x128x128_d2_w32 : S16x128x128.Iotas .tc 32 [2]
  inb_S1x1x1x36_S1x1x1x36_0_0_0_0 : ∀ a, (![0, 0, 0, 0] : Fin 4 → Nat) a + S1x1x1x36.size a ≤ S1x1x1x36.size a
  h_S1x1x1x36 : 0 < S1x1x1x36.numel
  shapeCasts_S1x1x1x36_S36 : S1x1x1x36.ShapeCasts S36
  inb_S1x64x128x128_S1x16x128x128_0_0_0_0 : ∀ a, (![0, 0, 0, 0] : Fin 4 → Nat) a + S1x16x128x128.size a ≤ S1x64x128x128.size a
  h_S1x16x128x128 : 0 < S1x16x128x128.numel
  shapeCasts_S1x16x128x128_S16x128x128 : S1x16x128x128.ShapeCasts S16x128x128
  slices_S36_o0_S9 : S36.Slices ![0] S9
  rotates_S16x128x128_d1 : S16x128x128.Rotates 1 none
  slices_S16x128x128_o0_1_0_S16x1x128 : S16x128x128.Slices ![0, 1, 0] S16x1x128
  shapeCasts_S16x1x128_S16x1x128 : S16x1x128.ShapeCasts S16x1x128
  broadcasts_S16x1x128_S16x128x128 : S16x1x128.Broadcasts S16x128x128
  rotates_S16x128x128_d2 : S16x128x128.Rotates 2 none
  slices_S16x128x128_o0_0_1_S16x128x1 : S16x128x128.Slices ![0, 0, 1] S16x128x1
  shapeCasts_S16x128x1_S16x128x1 : S16x128x1.ShapeCasts S16x128x1
  broadcasts_S16x128x1_S16x128x128 : S16x128x1.Broadcasts S16x128x128
  slices_S9_o0_S1 : S9.Slices ![0] S1
  inpos_S1_p0 : ∀ a, (![0] : Fin 1 → Nat) a < S1.size a
  slices_S9_o1_S1 : S9.Slices ![1] S1
  slices_S16x128x128_o0_0_126_S16x128x1 : S16x128x128.Slices ![0, 0, 126] S16x128x1
  slices_S9_o2_S1 : S9.Slices ![2] S1
  slices_S9_o3_S1 : S9.Slices ![3] S1
  slices_S9_o4_S1 : S9.Slices ![4] S1
  slices_S9_o5_S1 : S9.Slices ![5] S1
  slices_S16x128x128_o0_126_0_S16x1x128 : S16x128x128.Slices ![0, 126, 0] S16x1x128
  slices_S9_o6_S1 : S9.Slices ![6] S1
  slices_S9_o7_S1 : S9.Slices ![7] S1
  slices_S9_o8_S1 : S9.Slices ![8] S1
  shapeCasts_S16x128x128_S1x16x128x128 : S16x128x128.ShapeCasts S1x16x128x128
  inb_S1x64x128x128_S1x16x128x128_0_16_0_0 : ∀ a, (![0, 16, 0, 0] : Fin 4 → Nat) a + S1x16x128x128.size a ≤ S1x64x128x128.size a
  slices_S36_o9_S9 : S36.Slices ![9] S9
  inb_S1x64x128x128_S1x16x128x128_0_32_0_0 : ∀ a, (![0, 32, 0, 0] : Fin 4 → Nat) a + S1x16x128x128.size a ≤ S1x64x128x128.size a
  slices_S36_o18_S9 : S36.Slices ![18] S9
  inb_S1x64x128x128_S1x16x128x128_0_48_0_0 : ∀ a, (![0, 48, 0, 0] : Fin 4 → Nat) a + S1x16x128x128.size a ≤ S1x64x128x128.size a
  slices_S36_o27_S9 : S36.Slices ![27] S9
  dot_S8x128_S72x128_S8x72_1_1_0_0_n_n_wf : DotDims.WF S8x128 S72x128 S8x72 [1] [1] [0] [0] [] []
  dot_S8x72_S72x72_S8x72_1_1_0_0_n_n_wf : DotDims.WF S8x72 S72x72 S8x72 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x16x128x128.size a ≤ S8x128x128x128.size a
  hwx0_0 : ∀ i : grid0.Coords, EltTy.bits .f32 = 32 ∨ (Rect.block (s := S8x128x128x128) S8x16x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x8.size a ≤ S128x8.size a
  hwx0_1 : ∀ i : grid0.Coords, EltTy.bits .f32 = 32 ∨ (Rect.block (s := S128x8) S16x8.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x128x128.size a ≤ S8x128x128x128.size a
  hwx1_0 : ∀ i : grid1.Coords, EltTy.bits .f32 = 32 ∨ (Rect.block (s := S8x128x128x128) S1x64x128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x1x36.size a ≤ S8x2x1x36.size a
  hwx1_1 : ∀ i : grid1.Coords, EltTy.bits .f32 = 32 ∨ (Rect.block (s := S8x2x1x36) S1x1x1x36.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x64x128x128.size a ≤ S8x128x128x128.size a
  hwx1_2 : ∀ i : grid1.Coords, EltTy.bits .f32 = 32 ∨ (Rect.block (s := S8x128x128x128) S1x64x128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x64x128x128.size a ≤ S8x128x128x128.size a
  hwx1_3 : ∀ i : grid1.Coords, EltTy.bits .f32 = 32 ∨ (Rect.block (s := S8x128x128x128) S1x64x128x128.size (cc1_transform_3 i) (hinb1_3 i)).WholeWords (EltTy.packing .f32)

variable [Facts₀]

def dot_S8x128_S72x128_S8x72_1_1_0_0_n_n : DotDims S8x128 S72x128 S8x72 where
  lhsContracting := [1]
  rhsContracting := [1]
  lhsNonContracting := [0]
  rhsNonContracting := [0]
  lhsBatch := []
  rhsBatch := []
  wf := dot_S8x128_S72x128_S8x72_1_1_0_0_n_n_wf
def dot_S8x72_S72x72_S8x72_1_1_0_0_n_n : DotDims S8x72 S72x72 S8x72 where
  lhsContracting := [1]
  rhsContracting := [1]
  lhsNonContracting := [0]
  rhsNonContracting := [0]
  lhsBatch := []
  rhsBatch := []
  wf := dot_S8x72_S72x72_S8x72_1_1_0_0_n_n_wf

abbrev win0_0 : Pipeline.Window sig grid0 :=
  Pipeline.Window.ofSpec (Memref.whole main_arg0) S8x16x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x8.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1x64x128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S1x1x1x36.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39_0) S1x64x128x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v39_1) S1x64x128x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x128x128x128 : Shape := ⟨4, ![8, 128, 128, 128]⟩
abbrev S72x128 : Shape := ⟨2, ![72, 128]⟩
abbrev S72x72 : Shape := ⟨2, ![72, 72]⟩
abbrev S72 : Shape := ⟨1, ![72]⟩
abbrev S_ : Shape := ⟨0, ![]⟩
abbrev S8x128 : Shape := ⟨2, ![8, 128]⟩
abbrev S8x72 : Shape := ⟨2, ![8, 72]⟩
abbrev S1x72 : Shape := ⟨2, ![1, 72]⟩
abbrev S8x8x9 : Shape := ⟨3, ![8, 8, 9]⟩
abbrev S8x8 : Shape := ⟨2, ![8, 8]⟩
abbrev S8x8x1 : Shape := ⟨3, ![8, 8, 1]⟩
abbrev S8x128x1x128 : Shape := ⟨4, ![8, 128, 1, 128]⟩
abbrev S8x128x129x128 : Shape := ⟨4, ![8, 128, 129, 128]⟩
abbrev S8x128x130x128 : Shape := ⟨4, ![8, 128, 130, 128]⟩
abbrev S8x128x130x1 : Shape := ⟨4, ![8, 128, 130, 1]⟩
abbrev S8x128x130x129 : Shape := ⟨4, ![8, 128, 130, 129]⟩
abbrev S8x128x130x130 : Shape := ⟨4, ![8, 128, 130, 130]⟩
abbrev S8x8x16x128x128 : Shape := ⟨5, ![8, 8, 16, 128, 128]⟩
abbrev S8x8x1x1x1 : Shape := ⟨5, ![8, 8, 1, 1, 1]⟩

abbrev nBuf : Space → Nat
  | .hbm => 147
  | .vmem => 0
  | .smem => 0
  | _ => 0

abbrev hbmTy0_0 (i : Nat) : BufTy := match i % 128 with
  | 0 => ⟨S8x128x128x128, .f32⟩
  | 1 => ⟨S72x128, .f32⟩
  | 2 => ⟨S72x72, .f32⟩
  | 3 => ⟨S72, .f32⟩
  | 4 => ⟨S72, .f32⟩
  | 5 => ⟨S72, .f32⟩
  | 6 => ⟨S72, .f32⟩
  | 7 => ⟨S_, .f32⟩
  | 8 => ⟨S8x128, .f32⟩
  | 9 => ⟨S_, .f32⟩
  | 10 => ⟨S8x128, .f32⟩
  | 11 => ⟨S8x128, .f32⟩
  | 12 => ⟨S8x72, .f32⟩
  | 13 => ⟨S8x72, .f32⟩
  | 14 => ⟨S8x72, .f32⟩
  | 15 => ⟨S8x72, .f32⟩
  | 16 => ⟨S_, .f32⟩
  | 17 => ⟨S8x72, .f32⟩
  | 18 => ⟨S8x72, .f32⟩
  | 19 => ⟨S_, .f32⟩
  | 20 => ⟨S8x72, .f32⟩
  | 21 => ⟨S8x72, .f32⟩
  | 22 => ⟨S8x72, .f32⟩
  | 23 => ⟨S1x72, .f32⟩
  | 24 => ⟨S8x72, .f32⟩
  | 25 => ⟨S8x72, .f32⟩
  | 26 => ⟨S_, .f32⟩
  | 27 => ⟨S72, .f32⟩
  | 28 => ⟨S72, .f32⟩
  | 29 => ⟨S72, .f32⟩
  | 30 => ⟨S1x72, .f32⟩
  | 31 => ⟨S8x72, .f32⟩
  | 32 => ⟨S8x72, .f32⟩
  | 33 => ⟨S1x72, .f32⟩
  | 34 => ⟨S8x72, .f32⟩
  | 35 => ⟨S8x72, .f32⟩
  | 36 => ⟨S1x72, .f32⟩
  | 37 => ⟨S8x72, .f32⟩
  | 38 => ⟨S8x72, .f32⟩
  | 39 => ⟨S8x8x9, .f32⟩
  | 40 => ⟨S_, .f32⟩
  | 41 => ⟨S8x8, .f32⟩
  | 42 => ⟨S_, .f32⟩
  | 43 => ⟨S8x8, .f32⟩
  | 44 => ⟨S8x8, .f32⟩
  | 45 => ⟨S8x8x1, .f32⟩
  | 46 => ⟨S8x8x9, .f32⟩
  | 47 => ⟨S8x8x9, .f32⟩
  | 48 => ⟨S8x8x9, .f32⟩
  | 49 => ⟨S_, .f32⟩
  | 50 => ⟨S8x8, .f32⟩
  | 51 => ⟨S8x8x1, .f32⟩
  | 52 => ⟨S8x8x9, .f32⟩
  | 53 => ⟨S8x8x9, .f32⟩
  | 54 => ⟨S_, .i32⟩
  | 55 => ⟨S8x128x1x128, .f32⟩
  | 56 => ⟨S8x128x1x128, .f32⟩
  | 57 => ⟨S8x128x1x128, .f32⟩
  | 58 => ⟨S8x128x129x128, .f32⟩
  | 59 => ⟨S8x128x1x128, .f32⟩
  | 60 => ⟨S8x128x1x128, .f32⟩
  | 61 => ⟨S8x128x1x128, .f32⟩
  | 62 => ⟨S8x128x130x128, .f32⟩
  | 63 => ⟨S8x128x130x1, .f32⟩
  | 64 => ⟨S8x128x130x1, .f32⟩
  | 65 => ⟨S8x128x130x1, .f32⟩
  | 66 => ⟨S8x128x130x129, .f32⟩
  | 67 => ⟨S8x128x130x1, .f32⟩
  | 68 => ⟨S8x128x130x1, .f32⟩
  | 69 => ⟨S8x128x130x1, .f32⟩
  | 70 => ⟨S8x128x130x130, .f32⟩
  | 71 => ⟨S_, .f32⟩
  | 72 => ⟨S8x8x16x128x128, .f32⟩
  | 73 => ⟨S8x128x128x128, .f32⟩
  | 74 => ⟨S8x8x16x128x128, .f32⟩
  | 75 => ⟨S8x8x1, .f32⟩
  | 76 => ⟨S8x8, .f32⟩
  | 77 => ⟨S8x8x1x1x1, .f32⟩
  | 78 => ⟨S8x8x16x128x128, .f32⟩
  | 79 => ⟨S8x8x16x128x128, .f32⟩
  | 80 => ⟨S8x8x16x128x128, .f32⟩
  | 81 => ⟨S8x128x128x128, .f32⟩
  | 82 => ⟨S8x8x16x128x128, .f32⟩
  | 83 => ⟨S8x8x1, .f32⟩
  | 84 => ⟨S8x8, .f32⟩
  | 85 => ⟨S8x8x1x1x1, .f32⟩
  | 86 => ⟨S8x8x16x128x128, .f32⟩
  | 87 => ⟨S8x8x16x128x128, .f32⟩
  | 88 => ⟨S8x8x16x128x128, .f32⟩
  | 89 => ⟨S8x128x128x128, .f32⟩
  | 90 => ⟨S8x8x16x128x128, .f32⟩
  | 91 => ⟨S8x8x1, .f32⟩
  | 92 => ⟨S8x8, .f32⟩
  | 93 => ⟨S8x8x1x1x1, .f32⟩
  | 94 => ⟨S8x8x16x128x128, .f32⟩
  | 95 => ⟨S8x8x16x128x128, .f32⟩
  | 96 => ⟨S8x8x16x128x128, .f32⟩
  | 97 => ⟨S8x128x128x128, .f32⟩
  | 98 => ⟨S8x8x16x128x128, .f32⟩
  | 99 => ⟨S8x8x1, .f32⟩
  | 100 => ⟨S8x8, .f32⟩
  | 101 => ⟨S8x8x1x1x1, .f32⟩
  | 102 => ⟨S8x8x16x128x128, .f32⟩
  | 103 => ⟨S8x8x16x128x128, .f32⟩
  | 104 => ⟨S8x8x16x128x128, .f32⟩
  | 105 => ⟨S8x128x128x128, .f32⟩
  | 106 => ⟨S8x8x16x128x128, .f32⟩
  | 107 => ⟨S8x8x1, .f32⟩
  | 108 => ⟨S8x8, .f32⟩
  | 109 => ⟨S8x8x1x1x1, .f32⟩
  | 110 => ⟨S8x8x16x128x128, .f32⟩
  | 111 => ⟨S8x8x16x128x128, .f32⟩
  | 112 => ⟨S8x8x16x128x128, .f32⟩
  | 113 => ⟨S8x128x128x128, .f32⟩
  | 114 => ⟨S8x8x16x128x128, .f32⟩
  | 115 => ⟨S8x8x1, .f32⟩
  | 116 => ⟨S8x8, .f32⟩
  | 117 => ⟨S8x8x1x1x1, .f32⟩
  | 118 => ⟨S8x8x16x128x128, .f32⟩
  | 119 => ⟨S8x8x16x128x128, .f32⟩
  | 120 => ⟨S8x8x16x128x128, .f32⟩
  | 121 => ⟨S8x128x128x128, .f32⟩
  | 122 => ⟨S8x8x16x128x128, .f32⟩
  | 123 => ⟨S8x8x1, .f32⟩
  | 124 => ⟨S8x8, .f32⟩
  | 125 => ⟨S8x8x1x1x1, .f32⟩
  | 126 => ⟨S8x8x16x128x128, .f32⟩
  | 127 => ⟨S8x8x16x128x128, .f32⟩
  | _ => ⟨S8x128x128x128, .f32⟩

abbrev hbmTy0_1 (i : Nat) : BufTy := match i % 128 with
  | 0 => ⟨S8x8x16x128x128, .f32⟩
  | 1 => ⟨S8x128x128x128, .f32⟩
  | 2 => ⟨S8x8x16x128x128, .f32⟩
  | 3 => ⟨S8x8x1, .f32⟩
  | 4 => ⟨S8x8, .f32⟩
  | 5 => ⟨S8x8x1x1x1, .f32⟩
  | 6 => ⟨S8x8x16x128x128, .f32⟩
  | 7 => ⟨S8x8x16x128x128, .f32⟩
  | 8 => ⟨S8x8x16x128x128, .f32⟩
  | 9 => ⟨S8x128x128x128, .f32⟩
  | 10 => ⟨S8x8x16x128x128, .f32⟩
  | 11 => ⟨S8x8x1, .f32⟩
  | 12 => ⟨S8x8, .f32⟩
  | 13 => ⟨S8x8x1x1x1, .f32⟩
  | 14 => ⟨S8x8x16x128x128, .f32⟩
  | 15 => ⟨S8x8x16x128x128, .f32⟩
  | 16 => ⟨S8x8x16x128x128, .f32⟩
  | 17 => ⟨S8x128x128x128, .f32⟩
  | 18 => ⟨S8x128x128x128, .f32⟩
  | _ => ⟨S8x128x128x128, .f32⟩

abbrev hbmTy (i : Nat) : BufTy := match i / 128 with
  | 0 => hbmTy0_0 i
  | 1 => hbmTy0_1 i
  | _ => ⟨S8x128x128x128, .f32⟩

abbrev bufTy : (tb : Table) → Fin (tcTables nBuf tb) → BufTy
  | .hbm, ⟨i, _⟩ => hbmTy i
  | _, _ => ⟨S8x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_v5 : Ref sig .tc := ⟨.hbm, 60, rfl⟩
abbrev main_call0_v6 : Ref sig .tc := ⟨.hbm, 61, rfl⟩
abbrev main_call0_v7 : Ref sig .tc := ⟨.hbm, 62, rfl⟩
abbrev main_call0_v8 : Ref sig .tc := ⟨.hbm, 63, rfl⟩
abbrev main_call0_v9 : Ref sig .tc := ⟨.hbm, 64, rfl⟩
abbrev main_call0_v10 : Ref sig .tc := ⟨.hbm, 65, rfl⟩
abbrev main_call0_v11 : Ref sig .tc := ⟨.hbm, 66, rfl⟩
abbrev main_call0_v12 : Ref sig .tc := ⟨.hbm, 67, rfl⟩
abbrev main_call0_v13 : Ref sig .tc := ⟨.hbm, 68, rfl⟩
abbrev main_call0_v14 : Ref sig .tc := ⟨.hbm, 69, rfl⟩
abbrev main_v39 : Ref sig .tc := ⟨.hbm, 70, rfl⟩
abbrev main_cst_7 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩

abbrev nD : Nat := 1
abbrev τ : Topo := Topo.v7x

variable {F : FTy → Type} [FloatOps F]

class Facts₀ : Prop where
  reducesTo_S8x128x128x128_S8x128_d2_3 : S8x128x128x128.ReducesTo [2, 3] S8x128
  h_S_ : 0 < S_.numel
  bcast_S_S8x128 : S_.BroadcastsInDim S8x128 (![] : Fin 0 → Fin S8x128.rank)
  bcast_S_S8x72 : S_.BroadcastsInDim S8x72 (![] : Fin 0 → Fin S8x72.rank)
  bcast_S72_S1x72_1 : S72.BroadcastsInDim S1x72 (![1] : Fin 1 → Fin S1x72.rank)
  bcast_S1x72_S8x72_0_1 : S1x72.BroadcastsInDim S8x72 (![0, 1] : Fin 2 → Fin S8x72.rank)
  bcast_S_S72 : S_.BroadcastsInDim S72 (![] : Fin 0 → Fin S72.rank)
  shapeCasts_S8x72_S8x8x9 : S8x72.ShapeCasts S8x8x9
  reducesTo_S8x8x9_S8x8_d2 : S8x8x9.ReducesTo [2] S8x8
  bcast_S_S8x8 : S_.BroadcastsInDim S8x8 (![] : Fin 0 → Fin S8x8.rank)
  bcast_S8x8_S8x8x1_0_1 : S8x8.BroadcastsInDim S8x8x1 (![0, 1] : Fin 2 → Fin S8x8x1.rank)
  bcast_S8x8x1_S8x8x9_0_1_2 : S8x8x1.BroadcastsInDim S8x8x9 (![0, 1, 2] : Fin 3 → Fin S8x8x9.rank)
  slices_S8x128x128x128_S8x128x1x128_0_0_0_0 : S8x128x128x128.Slices ![0, 0, 0, 0] S8x128x1x128
  slices_S8x128x128x128_S8x128x1x128_0_0_1_0 : S8x128x128x128.Slices ![0, 0, 1, 0] S8x128x1x128
  concatenates_S8x128x1x128_S8x128x128x128_S8x128x129x128_d2 : Shape.Concatenates [S8x128x1x128, S8x128x128x128] S8x128x129x128 2
  slices_S8x128x129x128_S8x128x1x128_0_0_128_0 : S8x128x129x128.Slices ![0, 0, 128, 0] S8x128x1x128
  slices_S8x128x129x128_S8x128x1x128_0_0_127_0 : S8x128x129x128.Slices ![0, 0, 127, 0] S8x128x1x128
  concatenates_S8x128x129x128_S8x128x1x128_S8x128x130x128_d2 : Shape.Concatenates [S8x128x129x128, S8x128x1x128] S8x128x130x128 2
  slices_S8x128x130x128_S8x128x130x1_0_0_0_0 : S8x128x130x128.Slices ![0, 0, 0, 0] S8x128x130x1
  slices_S8x128x130x128_S8x128x130x1_0_0_0_1 : S8x128x130x128.Slices ![0, 0, 0, 1] S8x128x130x1
  concatenates_S8x128x130x1_S8x128x130x128_S8x128x130x129_d3 : Shape.Concatenates [S8x128x130x1, S8x128x130x128] S8x128x130x129 3
  slices_S8x128x130x129_S8x128x130x1_0_0_0_128 : S8x128x130x129.Slices ![0, 0, 0, 128] S8x128x130x1
  slices_S8x128x130x129_S8x128x130x1_0_0_0_127 : S8x128x130x129.Slices ![0, 0, 0, 127] S8x128x130x1
  concatenates_S8x128x130x129_S8x128x130x1_S8x128x130x130_d3 : Shape.Concatenates [S8x128x130x129, S8x128x130x1] S8x128x130x130 3
  bcast_S_S8x8x16x128x128 : S_.BroadcastsInDim S8x8x16x128x128 (![] : Fin 0 → Fin S8x8x16x128x128.rank)
  slices_S8x128x130x130_S8x128x128x128_0_0_0_0 : S8x128x130x130.Slices ![0, 0, 0, 0] S8x128x128x128
  shapeCasts_S8x128x128x128_S8x8x16x128x128 : S8x128x128x128.ShapeCasts S8x8x16x128x128
  slices_S8x8x9_S8x8x1_0_0_0 : S8x8x9.Slices ![0, 0, 0] S8x8x1
  shapeCasts_S8x8x1_S8x8 : S8x8x1.ShapeCasts S8x8
  bcast_S8x8_S8x8x1x1x1_0_1 : S8x8.BroadcastsInDim S8x8x1x1x1 (![0, 1] : Fin 2 → Fin S8x8x1x1x1.rank)
  bcast_S8x8x1x1x1_S8x8x16x128x128_0_1_2_3_4 : S8x8x1x1x1.BroadcastsInDim S8x8x16x128x128 (![0, 1, 2, 3, 4] : Fin 5 → Fin S8x8x16x128x128.rank)
  slices_S8x128x130x130_S8x128x128x128_0_0_0_1 : S8x128x130x130.Slices ![0, 0, 0, 1] S8x128x128x128
  slices_S8x8x9_S8x8x1_0_0_1 : S8x8x9.Slices ![0, 0, 1] S8x8x1
  slices_S8x128x130x130_S8x128x128x128_0_0_0_2 : S8x128x130x130.Slices ![0, 0, 0, 2] S8x128x128x128
  slices_S8x8x9_S8x8x1_0_0_2 : S8x8x9.Slices ![0, 0, 2] S8x8x1
  slices_S8x128x130x130_S8x128x128x128_0_0_1_0 : S8x128x130x130.Slices ![0, 0, 1, 0] S8x128x128x128
  slices_S8x8x9_S8x8x1_0_0_3 : S8x8x9.Slices ![0, 0, 3] S8x8x1
  slices_S8x128x130x130_S8x128x128x128_0_0_1_1 : S8x128x130x130.Slices ![0, 0, 1, 1] S8x128x128x128
  slices_S8x8x9_S8x8x1_0_0_4 : S8x8x9.Slices ![0, 0, 4] S8x8x1
  slices_S8x128x130x130_S8x128x128x128_0_0_1_2 : S8x128x130x130.Slices ![0, 0, 1, 2] S8x128x128x128
  slices_S8x8x9_S8x8x1_0_0_5 : S8x8x9.Slices ![0, 0, 5] S8x8x1
  slices_S8x128x130x130_S8x128x128x128_0_0_2_0 : S8x128x130x130.Slices ![0, 0, 2, 0] S8x128x128x128
  slices_S8x8x9_S8x8x1_0_0_6 : S8x8x9.Slices ![0, 0, 6] S8x8x1
  slices_S8x128x130x130_S8x128x128x128_0_0_2_1 : S8x128x130x130.Slices ![0, 0, 2, 1] S8x128x128x128
  slices_S8x8x9_S8x8x1_0_0_7 : S8x8x9.Slices ![0, 0, 7] S8x8x1
  slices_S8x128x130x130_S8x128x128x128_0_0_2_2 : S8x128x130x130.Slices ![0, 0, 2, 2] S8x128x128x128
  slices_S8x8x9_S8x8x1_0_0_8 : S8x8x9.Slices ![0, 0, 8] S8x8x1
  shapeCasts_S8x8x16x128x128_S8x128x128x128 : S8x8x16x128x128.ShapeCasts S8x128x128x128
  dot_S8x128_S72x128_S8x72_1_1_0_0_n_n_wf : DotDims.WF S8x128 S72x128 S8x72 [1] [1] [0] [0] [] []
  dot_S8x72_S72x72_S8x72_1_1_0_0_n_n_wf : DotDims.WF S8x72 S72x72 S8x72 [1] [1] [0] [0] [] []

variable [Facts₀]

def dot_S8x128_S72x128_S8x72_1_1_0_0_n_n : DotDims S8x128 S72x128 S8x72 where
  lhsContracting := [1]
  rhsContracting := [1]
  lhsNonContracting := [0]
  rhsNonContracting := [0]
  lhsBatch := []
  rhsBatch := []
  wf := dot_S8x128_S72x128_S8x72_1_1_0_0_n_n_wf
def dot_S8x72_S72x72_S8x72_1_1_0_0_n_n : DotDims S8x72 S72x72 S8x72 where
  lhsContracting := [1]
  rhsContracting := [1]
  lhsNonContracting := [0]
  rhsNonContracting := [0]
  lhsBatch := []
  rhsBatch := []
  wf := dot_S8x72_S72x72_S8x72_1_1_0_0_n_n_wf

class Facts : Prop extends Facts₀ where

variable [Facts]
-- ==== Proof.KernelRun.lean ====
/-
  The idealized kernel's run with its two result arrays named.

  Every weakly fair execution of the kernel program terminates without a fault; at the end the seven argument
  arrays are as launched, and each result array holds what the second pipeline's write-backs leave in it
  (the contents at the last segment boundary): the first pipeline's arrays at what its write-backs leave,
  then the host operations between the two pipelines applied, then the second pipeline's write-backs.
-/
import proofs.«121505_j26018911879615_2_alg».proof.Proof.Gen.KernelIdeal.Frame

set_option maxRecDepth 16384

noncomputable section

namespace Cert.KernelIdeal.RunNamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: termination, no fault, the two results at the last boundary's contents, the arguments unchanged. -/
theorem run_named : θ_run defs (onTc (τ := τ) (main (F := F))) ⟨m, fun _ => 0, ρ⟩ (fun r => ∀ c : Dev nD,
      r.2.mem ((c.tc : Thread nD τ).loc main_v39_0) = W3 m ρ c (Proc.devRef .tc main_v39_0)
      ∧ r.2.mem ((c.tc : Thread nD τ).loc main_v39_1) = W3 m ρ c (Proc.devRef .tc main_v39_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v39_0 (by decide)), h c _ (mem_uc main_v39_1 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)

end Cert.KernelIdeal.RunNamed

end
-- ==== Proof.Pool.lean ====
/-
  The first pipeline (the pooling kernel) as one whole-array function.

  At grid point t the kernel loads channels 16·t … 16·t + 15 of every batch entry, adds each 128×128 plane
  up (first along the lanes, then along the rows), scales the sum by the constant 2⁻¹⁴ and stores the 8×16
  result transposed. The 8 blocks tile the [128, 8] result, so it ends holding, at (C, n), the sum of plane
  (n, C) of the input times that constant.
-/
import proofs.«121505_j26018911879615_2_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

namespace Cert.KernelIdeal.Pool

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The sum of one 128×128 plane times the kernel's scale constant. -/
def planeMean (x : S8x128x128x128.Idx → EReal) (n : Fin 8) (C : Fin 128) : EReal :=
  (∑ r : Fin 128, ∑ q : Fin 128, x (ix4 n C r q)) * Ideal.ofBits .f32 0x38800000#32

/-- The first pipeline's result array: entry (C, n) is the scaled sum of plane (n, C). -/
def pooledT (x : S8x128x128x128.Idx → EReal) : S128x8.Idx → EReal :=
  fun i => planeMean x (i 1) (i 0)

theorem pooledT_ix2 (x : S8x128x128x128.Idx → EReal) (C : Fin 128) (n : Fin 8) :
    pooledT x (ix2 C n) = planeMean x n C := rfl

/-- The lane sum of the loaded block at (n, p, r). -/
theorem lane_sum (x0 : Vec Ideal S8x16x128x128 .f32) (n : Fin 8) (p : Fin 16) (r : Fin 128) :
    multiReduction (F := Ideal) .add [3] S8x16x128 x0 0x00000000#32 Facts₀.reduces_S8x16x128x128_S8x16x128 (.inl rfl) rfl (ix3 n p r)
      = ∑ q : Fin 128, x0 (ix4 n p r q) :=
  (Ideal.multiReduction_add_single x0 0x00000000#32 Facts₀.reduces_S8x16x128x128_S8x16x128 (.inl rfl) rfl (ix3 n p r)).trans
    (Finset.sum_congr rfl fun q _ => congrArg x0 (funext fun a => by
      match a with | ⟨0, _⟩ => rfl | ⟨1, _⟩ => rfl | ⟨2, _⟩ => rfl | ⟨3, _⟩ => rfl))

/-- The row sum of a [8, 16, 128] array at (n, p). -/
theorem row_sum (v1 : FVec Ideal S8x16x128 .f32) (n : Fin 8) (p : Fin 16) :
    multiReduction (F := Ideal) .add [2] S8x16 v1 0x00000000#32 Facts₀.reduces_S8x16x128_S8x16 (.inl rfl) rfl (ix2 n p)
      = ∑ r : Fin 128, v1 (ix3 n p r) :=
  (Ideal.multiReduction_add_single v1 0x00000000#32 Facts₀.reduces_S8x16x128_S8x16 (.inl rfl) rfl (ix2 n p)).trans
    (Finset.sum_congr rfl fun r _ => congrArg v1 (funext fun a => by
      match a with | ⟨0, _⟩ => rfl | ⟨1, _⟩ => rfl | ⟨2, _⟩ => rfl))

/-- The body's stored value at (p, n): the plane sum of the loaded block's plane (n, p), scaled. -/
theorem pay_apply (x0 : Vec Ideal S8x16x128x128 .f32) (p : Fin 16) (n : Fin 8) :
    k0_pay1 (F := Ideal) x0 (ix2 p n)
      = (∑ r : Fin 128, ∑ q : Fin 128, x0 (ix4 n p r q)) * Ideal.ofBits .f32 0x38800000#32 := by
  unfold k0_pay1
  refine (transpose_apply [1, 0] _ Facts₀.transposes_S8x16_p1_0_S16x8 (ix2 p n) (ix2 n p) ?_).trans ?_
  · intro b; match b with | ⟨0, _⟩ => rfl | ⟨1, _⟩ => rfl
  refine congrArg (· * Ideal.ofBits .f32 0x38800000#32) ?_
  refine (row_sum _ n p).trans (Finset.sum_congr rfl fun r _ => lane_sum x0 n p r)

/-! ## From the blocks to the array -/

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The printed index maps over the grid: point t reads channel block t and writes row block t. -/
theorem idx_facts : ∀ t : Fin cfg0.N, win0_0.index t (0 : Fin 4) = 0 ∧ win0_0.index t (1 : Fin 4) = t.val
    ∧ win0_0.index t (2 : Fin 4) = 0 ∧ win0_0.index t (3 : Fin 4) = 0
    ∧ win0_1.index t (0 : Fin 2) = t.val ∧ win0_1.index t (1 : Fin 2) = 0 :=
  (by decide +kernel : ∀ t : Fin grid0.N, _)

/-- The stored value of a block whose plane (n, p) is plane (n, 16·t + p) of the array `X`, at an entry
    of the result that sits at row 16·t + (its row in the block): the scaled plane sum of `X`. -/
theorem pay_block (x0 : Vec Ideal S8x16x128x128 .f32) (X : S8x128x128x128.Idx → EReal) (tv : Nat) (ht : tv < 8)
    (hx : ∀ (n : Fin 8) (p : Fin 16) (r q : Fin 128),
      x0 (ix4 n p r q) = X (ix4 n (⟨tv * 16 + p.val, by have := p.isLt; omega⟩ : Fin 128) r q))
    (j : S16x8.Idx) (i : S128x8.Idx) (hi0 : (i 0).val = tv * 16 + (j 0).val) (hi1 : (i 1).val = (j 1).val) :
    k0_pay1 (F := Ideal) x0 j = pooledT X i := by
  obtain ⟨p, n, rfl⟩ : ∃ (p : Fin 16) (n : Fin 8), j = ix2 p n := ⟨j 0, j 1, eq_ix2 j⟩
  rw [pay_apply]
  unfold pooledT planeMean
  refine congrArg (· * Ideal.ofBits .f32 0x38800000#32) ?_
  refine Finset.sum_congr rfl fun r _ => Finset.sum_congr rfl fun q _ => (hx n p r q).trans (congrArg X ?_)
  funext a
  apply Fin.ext
  match a with
  | ⟨0, _⟩ => exact hi1.symm
  | ⟨1, _⟩ => exact hi0.symm
  | ⟨2, _⟩ => rfl
  | ⟨3, _⟩ => rfl

section Blocks

variable (V : (c : Dev nD) → (b : Ref sig .tc) → Buf (Elt Ideal) ((c : Thread nD τ).loc b))

/-- What point t writes back is block t of `pooledT` of the input array as the pipeline finds it. -/
theorem flushed_eq (c : Dev nD) (t : Fin cfg0.N) :
    (dat0 V c).flushed 1 t = ((cfg0.win 1).blk t).view.read (Elt Ideal) (pooledT (V c main_arg0)) := by
  show (cfg0.win 1).cut (grid0.coords t) ((dat0 V c).after 1 t) = _
  rw [after0_1]
  unfold out0_1
  rw [View.canon_unit_zero hz2]
  simp only [View.ld_unit_zero (S := S8x16x128x128) hz4]
  obtain ⟨e0, e1, e2, e3, e4, e5⟩ := idx_facts t
  have ht : t.val < 8 := by have := t.isLt; have h8 : cfg0.N = 8 := N_0; omega
  funext j
  refine pay_block (iblk0 V c 0 t) (V c main_arg0) t.val ht ?_ j _ ?_ ?_
  · intro n p r q
    show V c main_arg0 (((cfg0.win 0).blk t).view.emb (ix4 n p r q)) = _
    refine congrArg _ (funext fun a => Fin.ext ?_)
    match a with
    | ⟨0, _⟩ => show win0_0.index t (0 : Fin 4) * 8 + 1 * n.val = n.val; omega
    | ⟨1, _⟩ => show win0_0.index t (1 : Fin 4) * 16 + 1 * p.val = t.val * 16 + p.val; omega
    | ⟨2, _⟩ => show win0_0.index t (2 : Fin 4) * 128 + 1 * r.val = r.val; omega
    | ⟨3, _⟩ => show win0_0.index t (3 : Fin 4) * 128 + 1 * q.val = q.val; omega
  · show win0_1.index t (0 : Fin 2) * 16 + 1 * (j 0).val = t.val * 16 + (j 0).val; omega
  · show win0_1.index t (1 : Fin 2) * 8 + 1 * (j 1).val = (j 1).val; omega

/-- An index of the result is in point t's block iff each coordinate is in the block's range on its axis. -/
theorem mem_blk (t : Fin cfg0.N) (i : S128x8.Idx) :
    i ∈ ((cfg0.win 1).blk t).view.set ↔ ∀ a : Fin 2, win0_1.index t a * S16x8.size a ≤ (i a).val ∧ (i a).val < win0_1.index t a * S16x8.size a + S16x8.size a := by
  show i ∈ ((View.whole main_v0).slice (win0_1.rect t)).set ↔ _
  rw [View.set_slice_whole, Rect.mem_set_unit]
  exact Iff.rfl

/-- Every entry of the result is in the block of the point its row block names. -/
theorem cover (i : S128x8.Idx) : ∃ t : Fin cfg0.N, (cfg0.win 1).flush t = true ∧ i ∈ ((cfg0.win 1).blk t).view.set := by
  have hi0 : (i 0).val < 128 := (i 0).isLt
  have hi1 : (i 1).val < 8 := (i 1).isLt
  have h8 : cfg0.N = 8 := N_0
  refine ⟨⟨(i 0).val / 16, by omega⟩, flush0_1 _, ?_⟩
  rw [mem_blk]
  obtain ⟨e0, e1, e2, e3, e4, e5⟩ := idx_facts ⟨(i 0).val / 16, by omega⟩
  intro a
  match a with
  | ⟨0, _⟩ => show win0_1.index _ (0 : Fin 2) * 16 ≤ (i 0).val ∧ (i 0).val < win0_1.index _ (0 : Fin 2) * 16 + 16; simp only at e4; omega
  | ⟨1, _⟩ => show win0_1.index _ (1 : Fin 2) * 8 ≤ (i 1).val ∧ (i 1).val < win0_1.index _ (1 : Fin 2) * 8 + 8; omega

/-- The first pipeline's result array after its run. -/
theorem final (c : Dev nD) : (dat0 V c).arrAt 1 cfg0.N = pooledT (V c main_arg0) :=
  (dat0 V c).arrAt_eq_of_cover 1 (pooledT (V c main_arg0)) (fun t _ => flushed_eq V c t) (cover)

end Blocks

end Cert.KernelIdeal.Pool

end
-- ==== Proof.Mid.lean ====
/-
  The host operations between the two pipelines, as one function.

  They transpose the pooled [128, 8] array to [8, 128], apply the two small matrix products, the sigmoid gate,
  the batch normalisation and the softmax over each group's nine taps (`filtK`: the filter weights as an
  [8, 8, 9] array, a function of the pooled means and the six parameter arrays), and recast the weights to
  [8, 2, 1, 36] for the second pipeline's weight window.
-/
import proofs.«121505_j26018911879615_2_alg».proof.Proof.Gen.KernelIdeal.Frame
import Idealize.ShloMosaic.Lib.StableHlo.Run
import Idealize.ShloMosaic.PureOps.Ideal

set_option maxRecDepth 16384

noncomputable section

namespace Cert.KernelIdeal.Mid

open Cert.KernelIdeal Cert.KernelIdeal.Facts₀ Cert.KernelIdeal.Facts
open Idealize.ShloMosaic Idealize.ShloMosaic.TcCoe Idealize.SL.Sem

/-- The filter weights [8, 8, 9] from the pooled means `P` [8, 128] and the parameter arrays: the host
    operations from the first matrix product to the softmax's quotient, composed. -/
def filtK (P : FVec Ideal S8x128 .f32) (a1 : FVec Ideal S72x128 .f32) (a2 : FVec Ideal S72x72 .f32)
    (a3 a4 a5 a6 : FVec Ideal S72 .f32) : FVec Ideal S8x8x9 .f32 :=
  (Host.divf (Host.exp (subf (shapeCast S8x8x9 (addf (mulf (mulf (subf (mulf ((fun l r => Host.dotGeneral dot_S8x128_S72x128_S8x72_1_1_0_0_n_n none l r) P a1) (Host.divf (broadcastInDim S8x72 ![] bcast_S_S8x72 (constant (F := Ideal) S_ .f32 0x3F800000#32)) (addf (broadcastInDim S8x72 ![] bcast_S_S8x72 (constant (F := Ideal) S_ .f32 0x3F800000#32)) (Host.exp (Host.negf ((fun l r => Host.dotGeneral dot_S8x72_S72x72_S8x72_1_1_0_0_n_n none l r) ((fun l r => Host.dotGeneral dot_S8x128_S72x128_S8x72_1_1_0_0_n_n none l r) P a1) a2)))))) (broadcastInDim S8x72 ![0, 1] bcast_S1x72_S8x72_0_1 (broadcastInDim S1x72 ![1] bcast_S72_S1x72_1 a5))) (broadcastInDim S8x72 ![0, 1] bcast_S1x72_S8x72_0_1 (broadcastInDim S1x72 ![1] bcast_S72_S1x72_1 (Host.rsqrt (addf a6 (broadcastInDim S72 ![] bcast_S_S72 (constant (F := Ideal) S_ .f32 0x3727C5AC#32))))))) (broadcastInDim S8x72 ![0, 1] bcast_S1x72_S8x72_0_1 (broadcastInDim S1x72 ![1] bcast_S72_S1x72_1 a3))) (broadcastInDim S8x72 ![0, 1] bcast_S1x72_S8x72_0_1 (broadcastInDim S1x72 ![1] bcast_S72_S1x72_1 a4))) shapeCasts_S8x72_S8x8x9) (broadcastInDim S8x8x9 ![0, 1, 2] bcast_S8x8x1_S8x8x9_0_1_2 (broadcastInDim S8x8x1 ![0, 1] bcast_S8x8_S8x8x1_0_1 (maximumf (broadcastInDim S8x8 ![] bcast_S_S8x8 (constant (F := Ideal) S_ .f32 0xFF800000#32)) ((fun x v => Host.reduce FloatOps.maximumf x v reducesTo_S8x8x9_S8x8_d2 h_S_) (shapeCast S8x8x9 (addf (mulf (mulf (subf (mulf ((fun l r => Host.dotGeneral dot_S8x128_S72x128_S8x72_1_1_0_0_n_n none l r) P a1) (Host.divf (broadcastInDim S8x72 ![] bcast_S_S8x72 (constant (F := Ideal) S_ .f32 0x3F800000#32)) (addf (broadcastInDim S8x72 ![] bcast_S_S8x72 (constant (F := Ideal) S_ .f32 0x3F800000#32)) (Host.exp (Host.negf ((fun l r => Host.dotGeneral dot_S8x72_S72x72_S8x72_1_1_0_0_n_n none l r) ((fun l r => Host.dotGeneral dot_S8x128_S72x128_S8x72_1_1_0_0_n_n none l r) P a1) a2)))))) (broadcastInDim S8x72 ![0, 1] bcast_S1x72_S8x72_0_1 (broadcastInDim S1x72 ![1] bcast_S72_S1x72_1 a5))) (broadcastInDim S8x72 ![0, 1] bcast_S1x72_S8x72_0_1 (broadcastInDim S1x72 ![1] bcast_S72_S1x72_1 (Host.rsqrt (addf a6 (broadcastInDim S72 ![] bcast_S_S72 (constant (F := Ideal) S_ .f32 0x3727C5AC#32))))))) (broadcastInDim S8x72 ![0, 1] bcast_S1x72_S8x72_0_1 (broadcastInDim S1x72 ![1] bcast_S72_S1x72_1 a3))) (broadcastInDim S8x72 ![0, 1] bcast_S1x72_S8x72_0_1 (broadcastInDim S1x72 ![1] bcast_S72_S1x72_1 a4))) shapeCasts_S8x72_S8x8x9) (constant (F := Ideal) S_ .f32 0xFF800000#32))))))) (broadcastInDim S8x8x9 ![0, 1, 2] bcast_S8x8x1_S8x8x9_0_1_2 (broadcastInDim S8x8x1 ![0, 1] bcast_S8x8_S8x8x1_0_1 ((fun x v => Host.reduceAdd x v reducesTo_S8x8x9_S8x8_d2 h_S_) (Host.exp (subf (shapeCast S8x8x9 (addf (mulf (mulf (subf (mulf ((fun l r => Host.dotGeneral dot_S8x128_S72x128_S8x72_1_1_0_0_n_n none l r) P a1) (Host.divf (broadcastInDim S8x72 ![] bcast_S_S8x72 (constant (F := Ideal) S_ .f32 0x3F800000#32)) (addf (broadcastInDim S8x72 ![] bcast_S_S8x72 (constant (F := Ideal) S_ .f32 0x3F800000#32)) (Host.exp (Host.negf ((fun l r => Host.dotGeneral dot_S8x72_S72x72_S8x72_1_1_0_0_n_n none l r) ((fun l r => Host.dotGeneral dot_S8x128_S72x128_S8x72_1_1_0_0_n_n none l r) P a1) a2)))))) (broadcastInDim S8x72 ![0, 1] bcast_S1x72_S8x72_0_1 (broadcastInDim S1x72 ![1] bcast_S72_S1x72_1 a5))) (broadcastInDim S8x72 ![0, 1] bcast_S1x72_S8x72_0_1 (broadcastInDim S1x72 ![1] bcast_S72_S1x72_1 (Host.rsqrt (addf a6 (broadcastInDim S72 ![] bcast_S_S72 (constant (F := Ideal) S_ .f32 0x3727C5AC#32))))))) (broadcastInDim S8x72 ![0, 1] bcast_S1x72_S8x72_0_1 (broadcastInDim S1x72 ![1] bcast_S72_S1x72_1 a3))) (broadcastInDim S8x72 ![0, 1] bcast_S1x72_S8x72_0_1 (broadcastInDim S1x72 ![1] bcast_S72_S1x72_1 a4))) shapeCasts_S8x72_S8x8x9) (broadcastInDim S8x8x9 ![0, 1, 2] bcast_S8x8x1_S8x8x9_0_1_2 (broadcastInDim S8x8x1 ![0, 1] bcast_S8x8_S8x8x1_0_1 (maximumf (broadcastInDim S8x8 ![] bcast_S_S8x8 (constant (F := Ideal) S_ .f32 0xFF800000#32)) ((fun x v => Host.reduce FloatOps.maximumf x v reducesTo_S8x8x9_S8x8_d2 h_S_) (shapeCast S8x8x9 (addf (mulf (mulf (subf (mulf ((fun l r => Host.dotGeneral dot_S8x128_S72x128_S8x72_1_1_0_0_n_n none l r) P a1) (Host.divf (broadcastInDim S8x72 ![] bcast_S_S8x72 (constant (F := Ideal) S_ .f32 0x3F800000#32)) (addf (broadcastInDim S8x72 ![] bcast_S_S8x72 (constant (F := Ideal) S_ .f32 0x3F800000#32)) (Host.exp (Host.negf ((fun l r => Host.dotGeneral dot_S8x72_S72x72_S8x72_1_1_0_0_n_n none l r) ((fun l r => Host.dotGeneral dot_S8x128_S72x128_S8x72_1_1_0_0_n_n none l r) P a1) a2)))))) (broadcastInDim S8x72 ![0, 1] bcast_S1x72_S8x72_0_1 (broadcastInDim S1x72 ![1] bcast_S72_S1x72_1 a5))) (broadcastInDim S8x72 ![0, 1] bcast_S1x72_S8x72_0_1 (broadcastInDim S1x72 ![1] bcast_S72_S1x72_1 (Host.rsqrt (addf a6 (broadcastInDim S72 ![] bcast_S_S72 (constant (F := Ideal) S_ .f32 0x3727C5AC#32))))))) (broadcastInDim S8x72 ![0, 1] bcast_S1x72_S8x72_0_1 (broadcastInDim S1x72 ![1] bcast_S72_S1x72_1 a3))) (broadcastInDim S8x72 ![0, 1] bcast_S1x72_S8x72_0_1 (broadcastInDim S1x72 ![1] bcast_S72_S1x72_1 a4))) shapeCasts_S8x72_S8x8x9) (constant (F := Ideal) S_ .f32 0xFF800000#32))))))) (constant (F := Ideal) S_ .f32 0x00000000#32)))))

/-- The weight window's array when the second pipeline is entered, from any contents `W` before the host
    operations: the recast filter weights of the transposed pooled array. -/
theorem after_v38 (W : Valuation τ sig (Elt Ideal)) :
    StableHlo.after (Gen.hostOps1 (F := Ideal)) W (Proc.devRef .tc main_v38)
      = shapeCast S8x2x1x36 (filtK (transpose S8x128 [1, 0] (W (Proc.devRef .tc main_v0)) transposes_S128x8_S8x128_1_0)
          (W (Proc.devRef .tc main_arg1)) (W (Proc.devRef .tc main_arg2)) (W (Proc.devRef .tc main_arg3))
          (W (Proc.devRef .tc main_arg4)) (W (Proc.devRef .tc main_arg5)) (W (Proc.devRef .tc main_arg6)))
          shapeCasts_S8x8x9_S8x2x1x36 := by
  after_results_simp
  rfl

end Cert.KernelIdeal.Mid

end
-- ==== Proof.Spec.lean ====
/-
  The mathematics both programs compute, stated once, over plain coordinates.

  A 3×3 filter is applied to every 128×128 plane of the input with REFLECT padding: the tap in row offset
  i ∈ {0,1,2} and column offset j ∈ {0,1,2} of the output pixel (r, q) reads the input pixel
  (nb i r, nb j q), where `nb 0` steps back one place (place 0 reflects to place 1), `nb 1` stays, and
  `nb 2` steps forward one place (place 127 reflects to place 126). The nine products are added to zero in
  the order of the taps, k = 3·i + j = 0, …, 8. Channel C of batch n uses the nine weights of its group
  C / 16. The second result is the input minus the first.
-/
import Idealize.ShloMosaic.PureOps.Ideal
import Idealize.ShloMosaic.Lib.ValueIdx

noncomputable section

namespace Cert.Spec

open Idealize.ShloMosaic Idealize.ShloMosaic.ValueIdx

/-- The place a tap reads along one axis of extent 128, as a natural number. -/
def nbv (i r : Nat) : Nat :=
  if i = 0 then (if r = 0 then 1 else r - 1) else if i = 1 then r else (if r = 127 then 126 else r + 1)

theorem nbv_lt (i r : Nat) (hr : r < 128) : nbv i r < 128 := by
  unfold nbv; split_ifs <;> omega

/-- The place a tap reads along one axis of extent 128. -/
def nb (i : Fin 3) (r : Fin 128) : Fin 128 := ⟨nbv i.val r.val, nbv_lt _ _ r.isLt⟩

@[simp] theorem nb_val (i : Fin 3) (r : Fin 128) : (nb i r).val = nbv i.val r.val := rfl

theorem nb_one (r : Fin 128) : nb 1 r = r := Fin.ext (by simp [nbv])

/-- One plane filtered at one pixel: zero plus the nine products, in the order of the taps. -/
def low9 (x : Fin 128 → Fin 128 → EReal) (f : Fin 9 → EReal) (r q : Fin 128) : EReal :=
  0 + x (nb 0 r) (nb 0 q) * f 0 + x (nb 0 r) (nb 1 q) * f 1 + x (nb 0 r) (nb 2 q) * f 2
    + x (nb 1 r) (nb 0 q) * f 3 + x (nb 1 r) (nb 1 q) * f 4 + x (nb 1 r) (nb 2 q) * f 5
    + x (nb 2 r) (nb 0 q) * f 6 + x (nb 2 r) (nb 1 q) * f 7 + x (nb 2 r) (nb 2 q) * f 8

/-- The group of a channel: sixteen channels share a filter. -/
def grp (C : Fin 128) : Fin 8 := ⟨C.val / 16, by have := C.isLt; omega⟩

@[simp] theorem grp_val (C : Fin 128) : (grp C).val = C.val / 16 := rfl

/-- The first result: every plane filtered with its group's nine weights. -/
def low (X : Fin 8 → Fin 128 → Fin 128 → Fin 128 → EReal) (Fl : Fin 8 → Fin 8 → Fin 9 → EReal)
    (n : Fin 8) (C r q : Fin 128) : EReal :=
  low9 (X n C) (Fl n (grp C)) r q

/-- The second result: the input minus the first result. -/
def high (X : Fin 8 → Fin 128 → Fin 128 → Fin 128 → EReal) (Fl : Fin 8 → Fin 8 → Fin 9 → EReal)
    (n : Fin 8) (C r q : Fin 128) : EReal :=
  X n C r q - low X Fl n C r q

/-- A function of four coordinates as an array of shape [8, 128, 128, 128]. -/
def arr4 (G : Fin 8 → Fin 128 → Fin 128 → Fin 128 → EReal) : (⟨4, ![8, 128, 128, 128]⟩ : Shape).Idx → EReal :=
  fun i => G (i 0) (i 1) (i 2) (i 3)

theorem arr4_ix4 (G : Fin 8 → Fin 128 → Fin 128 → Fin 128 → EReal) (n : Fin 8) (C r q : Fin 128) :
    arr4 G (ix4 n C r q) = G n C r q := rfl

/-- An array of shape [8, 128, 128, 128] as a function of four coordinates. -/
def fn4 (x : (⟨4, ![8, 128, 128, 128]⟩ : Shape).Idx → EReal) : Fin 8 → Fin 128 → Fin 128 → Fin 128 → EReal :=
  fun n C r q => x (ix4 n C r q)

/-- An array of shape [8, 8, 9] as a function of three coordinates. -/
def fn3 (f : (⟨3, ![8, 8, 9]⟩ : Shape).Idx → EReal) : Fin 8 → Fin 8 → Fin 9 → EReal :=
  fun n g k => f (ix3 n g k)

end Cert.Spec

end
-- ==== Proof.ConvBlocks.lean ====
/-
  The second pipeline (the filtering kernel) as two whole-array functions.

  Grid point t = (n, b) loads the 64 channels 64·b … 64·b + 63 of batch entry n and the 36 weights
  (4 groups × 9 taps) of that entry's group block b, and writes, for every channel, the filtered plane to
  the first result's block and the input minus it to the second's. Channel C = 64·b + cc lies in group
  C / 16 = 4·b + cc / 16, whose weights sit at positions 9·(cc / 16) … of the weight block. The 16 blocks
  tile each [8, 128, 128, 128] result, so the results end at `low` and `high` of the input array and
  the weights read as an [8, 8, 9] table.

  What one grid point's body stores at a block index is taken as a hypothesis here (`BodyLow`,
  `BodyHigh`): the index-by-index reading of the body is a module of its own.
-/
import proofs.«121505_j26018911879615_2_alg».proof.Proof.Gen.KernelIdeal.Frame
import proofs.«121505_j26018911879615_2_alg».proof.Proof.Spec
import Idealize.ShloMosaic.Lib.ValueIdx
import Idealize.ShloMosaic.Lib.Pipeline.Value
import Idealize.ShloMosaic.PureOps.Ideal

set_option maxRecDepth 16384

noncomputable section

namespace Cert.KernelIdeal.ConvBlocks

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Spec

/-- The nine weights of channel cc's group within a weight block. -/
def wOf (x1 : Vec Ideal S1x1x1x36 .f32) (cc : Fin 64) : Fin 9 → EReal :=
  fun k => x1 (ix4 (0 : Fin 1) (0 : Fin 1) (0 : Fin 1) (⟨(cc.val / 16) * 9 + k.val, by have := cc.isLt; have := k.isLt; omega⟩ : Fin 36))

/-- The body's first output at a block index: the filtered plane. -/
def BodyLow : Prop := ∀ (x0 : Vec Ideal S1x64x128x128 .f32) (x1 : Vec Ideal S1x1x1x36 .f32) (cc : Fin 64) (r q : Fin 128),
  out1_2 (F := Ideal) x0 x1 (ix4 (0 : Fin 1) cc r q)
    = low9 (fun r' q' => x0 (ix4 (0 : Fin 1) cc r' q')) (wOf x1 cc) r q

/-- The body's second output at a block index: the input minus the filtered plane. -/
def BodyHigh : Prop := ∀ (x0 : Vec Ideal S1x64x128x128 .f32) (x1 : Vec Ideal S1x1x1x36 .f32) (cc : Fin 64) (r q : Fin 128),
  out1_3 (F := Ideal) x0 x1 (ix4 (0 : Fin 1) cc r q)
    = x0 (ix4 (0 : Fin 1) cc r q) - low9 (fun r' q' => x0 (ix4 (0 : Fin 1) cc r' q')) (wOf x1 cc) r q

/-- The [8, 2, 1, 36] weight array read as an [8, 8, 9] table: group G of entry n is positions
    9·(G mod 4) … of block G / 4. -/
def tbl (w : S8x2x1x36.Idx → EReal) : Fin 8 → Fin 8 → Fin 9 → EReal :=
  fun n G k => w (ix4 n (⟨G.val / 4, by have := G.isLt; omega⟩ : Fin 2) (0 : Fin 1)
    (⟨(G.val % 4) * 9 + k.val, by have := k.isLt; omega⟩ : Fin 36))

/-- One block's planes and weights against the arrays they were cut from. -/
theorem plane_eq (x0 : Vec Ideal S1x64x128x128 .f32) (x1 : Vec Ideal S1x1x1x36 .f32)
    (X : S8x128x128x128.Idx → EReal) (w : S8x2x1x36.Idx → EReal) (n : Fin 8) (b : Fin 2)
    (hx : ∀ (cc : Fin 64) (r q : Fin 128),
      x0 (ix4 (0 : Fin 1) cc r q) = X (ix4 n (⟨b.val * 64 + cc.val, by have := b.isLt; have := cc.isLt; omega⟩ : Fin 128) r q))
    (hw : ∀ k : Fin 36, x1 (ix4 (0 : Fin 1) (0 : Fin 1) (0 : Fin 1) k) = w (ix4 n b (0 : Fin 1) k))
    (cc : Fin 64) (r q : Fin 128) :
    low9 (fun r' q' => x0 (ix4 (0 : Fin 1) cc r' q')) (wOf x1 cc) r q
      = low (fn4 X) (tbl w) n (⟨b.val * 64 + cc.val, by have := b.isLt; have := cc.isLt; omega⟩ : Fin 128) r q := by
  unfold low
  have e1 : (fun r' q' => x0 (ix4 (0 : Fin 1) cc r' q'))
      = fn4 X n (⟨b.val * 64 + cc.val, by have := b.isLt; have := cc.isLt; omega⟩ : Fin 128) :=
    funext fun r' => funext fun q' => hx cc r' q'
  have e2 : wOf x1 cc = tbl w n (grp (⟨b.val * 64 + cc.val, by have := b.isLt; have := cc.isLt; omega⟩ : Fin 128)) := by
    funext k
    unfold wOf tbl
    rw [hw]
    refine congrArg w (funext fun a => Fin.ext ?_)
    have hb := b.isLt; have hc := cc.isLt; have hk := k.isLt
    match a with
    | ⟨0, _⟩ => rfl
    | ⟨1, _⟩ => show b.val = (b.val * 64 + cc.val) / 16 / 4; omega
    | ⟨2, _⟩ => rfl
    | ⟨3, _⟩ => show cc.val / 16 * 9 + k.val = (b.val * 64 + cc.val) / 16 % 4 * 9 + k.val; omega
  rw [e1, e2]

/-! ## From the blocks to the arrays -/

theorem hz4 : (![0, 0, 0, 0] : Fin 4 → Nat) = fun _ => 0 := funext fun a => by fin_cases a <;> rfl

/-- The printed index maps over the grid: point t = 2·n + b has batch entry n = t / 2 and block b = t mod 2
    on every window. -/
theorem idx_facts : ∀ t : Fin cfg1.N,
    win1_0.index t (0 : Fin 4) = t.val / 2 ∧ win1_0.index t (1 : Fin 4) = t.val % 2 ∧ win1_0.index t (2 : Fin 4) = 0 ∧ win1_0.index t (3 : Fin 4) = 0
    ∧ win1_1.index t (0 : Fin 4) = t.val / 2 ∧ win1_1.index t (1 : Fin 4) = t.val % 2 ∧ win1_1.index t (2 : Fin 4) = 0 ∧ win1_1.index t (3 : Fin 4) = 0
    ∧ win1_2.index t (0 : Fin 4) = t.val / 2 ∧ win1_2.index t (1 : Fin 4) = t.val % 2 ∧ win1_2.index t (2 : Fin 4) = 0 ∧ win1_2.index t (3 : Fin 4) = 0
    ∧ win1_3.index t (0 : Fin 4) = t.val / 2 ∧ win1_3.index t (1 : Fin 4) = t.val % 2 ∧ win1_3.index t (2 : Fin 4) = 0 ∧ win1_3.index t (3 : Fin 4) = 0 :=
  (by decide +kernel : ∀ t : Fin grid1.N, _)

theorem N1 : cfg1.N = 16 := by decide

/-- A block index against the array index it is embedded at. -/
theorem low_block (hL : BodyLow) (x0 : Vec Ideal S1x64x128x128 .f32) (x1 : Vec Ideal S1x1x1x36 .f32)
    (X : S8x128x128x128.Idx → EReal) (w : S8x2x1x36.Idx → EReal) (n : Fin 8) (b : Fin 2)
    (hx : ∀ (cc : Fin 64) (r q : Fin 128),
      x0 (ix4 (0 : Fin 1) cc r q) = X (ix4 n (⟨b.val * 64 + cc.val, by have := b.isLt; have := cc.isLt; omega⟩ : Fin 128) r q))
    (hw : ∀ k : Fin 36, x1 (ix4 (0 : Fin 1) (0 : Fin 1) (0 : Fin 1) k) = w (ix4 n b (0 : Fin 1) k))
    (j : S1x64x128x128.Idx) (i : S8x128x128x128.Idx)
    (hi0 : (i 0).val = n.val) (hi1 : (i 1).val = b.val * 64 + (j 1).val) (hi2 : (i 2).val = (j 2).val) (hi3 : (i 3).val = (j 3).val) :
    out1_2 (F := Ideal) x0 x1 j = arr4 (low (fn4 X) (tbl w)) i := by
  obtain ⟨z, cc, r, q, rfl⟩ : ∃ (z : Fin 1) (cc : Fin 64) (r q : Fin 128), j = ix4 z cc r q := ⟨j 0, j 1, j 2, j 3, eq_ix4 j⟩
  obtain rfl : z = 0 := Subsingleton.elim _ _
  have hi : i = ix4 n (⟨b.val * 64 + cc.val, by have := b.isLt; have := cc.isLt; omega⟩ : Fin 128) r q := by
    funext a; apply Fin.ext
    match a with
    | ⟨0, _⟩ => exact hi0
    | ⟨1, _⟩ => exact hi1
    | ⟨2, _⟩ => exact hi2
    | ⟨3, _⟩ => exact hi3
  rw [hL, hi, arr4_ix4]
  exact plane_eq x0 x1 X w n b hx hw cc r q

theorem high_block (hH : BodyHigh) (x0 : Vec Ideal S1x64x128x128 .f32) (x1 : Vec Ideal S1x1x1x36 .f32)
    (X : S8x128x128x128.Idx → EReal) (w : S8x2x1x36.Idx → EReal) (n : Fin 8) (b : Fin 2)
    (hx : ∀ (cc : Fin 64) (r q : Fin 128),
      x0 (ix4 (0 : Fin 1) cc r q) = X (ix4 n (⟨b.val * 64 + cc.val, by have := b.isLt; have := cc.isLt; omega⟩ : Fin 128) r q))
    (hw : ∀ k : Fin 36, x1 (ix4 (0 : Fin 1) (0 : Fin 1) (0 : Fin 1) k) = w (ix4 n b (0 : Fin 1) k))
    (j : S1x64x128x128.Idx) (i : S8x128x128x128.Idx)
    (hi0 : (i 0).val = n.val) (hi1 : (i 1).val = b.val * 64 + (j 1).val) (hi2 : (i 2).val = (j 2).val) (hi3 : (i 3).val = (j 3).val) :
    out1_3 (F := Ideal) x0 x1 j = arr4 (high (fn4 X) (tbl w)) i := by
  obtain ⟨z, cc, r, q, rfl⟩ : ∃ (z : Fin 1) (cc : Fin 64) (r q : Fin 128), j = ix4 z cc r q := ⟨j 0, j 1, j 2, j 3, eq_ix4 j⟩
  obtain rfl : z = 0 := Subsingleton.elim _ _
  have hi : i = ix4 n (⟨b.val * 64 + cc.val, by have := b.isLt; have := cc.isLt; omega⟩ : Fin 128) r q := by
    funext a; apply Fin.ext
    match a with
    | ⟨0, _⟩ => exact hi0
    | ⟨1, _⟩ => exact hi1
    | ⟨2, _⟩ => exact hi2
    | ⟨3, _⟩ => exact hi3
  rw [hH, hi, arr4_ix4]
  unfold high
  rw [plane_eq x0 x1 X w n b hx hw cc r q, hx cc r q]
  rfl

section Blocks

variable (V : (c : Dev nD) → (b : Ref sig .tc) → Buf (Elt Ideal) ((c : Thread nD τ).loc b))

/-- The input block of point t: channel cc of the block is channel 64·(t mod 2) + cc of entry t / 2. -/
theorem iblk_x (c : Dev nD) (t : Fin cfg1.N) (cc : Fin 64) (r q : Fin 128) :
    iblk1 V c 0 t (ix4 (0 : Fin 1) cc r q)
      = V c main_arg0 (ix4 (⟨t.val / 2, by have := t.isLt; have := N1; omega⟩ : Fin 8)
          (⟨(⟨t.val % 2, by omega⟩ : Fin 2).val * 64 + cc.val, by have := cc.isLt; show t.val % 2 * 64 + cc.val < 128; omega⟩ : Fin 128) r q) := by
  obtain ⟨e0, e1, e2, e3, -⟩ := idx_facts t
  show V c main_arg0 (((cfg1.win 0).blk t).view.emb (ix4 (0 : Fin 1) cc r q)) = _
  refine congrArg _ (funext fun a => Fin.ext ?_)
  match a with
  | ⟨0, _⟩ => show win1_0.index t (0 : Fin 4) * 1 + 1 * 0 = t.val / 2; omega
  | ⟨1, _⟩ => show win1_0.index t (1 : Fin 4) * 64 + 1 * cc.val = t.val % 2 * 64 + cc.val; omega
  | ⟨2, _⟩ => show win1_0.index t (2 : Fin 4) * 128 + 1 * r.val = r.val; omega
  | ⟨3, _⟩ => show win1_0.index t (3 : Fin 4) * 128 + 1 * q.val = q.val; omega

/-- The weight block of point t: the 36 weights of entry t / 2, group block t mod 2. -/
theorem iblk_w (c : Dev nD) (t : Fin cfg1.N) (k : Fin 36) :
    iblk1 V c 1 t (ix4 (0 : Fin 1) (0 : Fin 1) (0 : Fin 1) k)
      = V c main_v38 (ix4 (⟨t.val / 2, by have := t.isLt; have := N1; omega⟩ : Fin 8) (⟨t.val % 2, by omega⟩ : Fin 2) (0 : Fin 1) k) := by
  obtain ⟨-, -, -, -, e0, e1, e2, e3, -⟩ := idx_facts t
  show V c main_v38 (((cfg1.win 1).blk t).view.emb (ix4 (0 : Fin 1) (0 : Fin 1) (0 : Fin 1) k)) = _
  refine congrArg _ (funext fun a => Fin.ext ?_)
  match a with
  | ⟨0, _⟩ => show win1_1.index t (0 : Fin 4) * 1 + 1 * 0 = t.val / 2; omega
  | ⟨1, _⟩ => show win1_1.index t (1 : Fin 4) * 1 + 1 * 0 = t.val % 2; omega
  | ⟨2, _⟩ => show win1_1.index t (2 : Fin 4) * 1 + 1 * 0 = 0; omega
  | ⟨3, _⟩ => show win1_1.index t (3 : Fin 4) * 36 + 1 * k.val = k.val; omega

/-- What point t writes back to the first result is block t of `low`. -/
theorem flushed2_eq (hL : BodyLow) (c : Dev nD) (t : Fin cfg1.N) :
    (dat1 V c).flushed 2 t = ((cfg1.win 2).blk t).view.read (Elt Ideal)
      (arr4 (low (fn4 (V c main_arg0)) (tbl (V c main_v38)))) := by
  show (cfg1.win 2).cut (grid1.coords t) ((dat1 V c).after 2 t) = _
  rw [after1_2]
  obtain ⟨-, -, -, -, -, -, -, -, e0, e1, e2, e3, -⟩ := idx_facts t
  funext j
  refine low_block hL (iblk1 V c 0 t) (iblk1 V c 1 t) (V c main_arg0) (V c main_v38)
    (⟨t.val / 2, by have := t.isLt; have := N1; omega⟩ : Fin 8) (⟨t.val % 2, by omega⟩ : Fin 2)
    (fun cc r q => iblk_x V c t cc r q) (fun k => iblk_w V c t k) j _ ?_ ?_ ?_ ?_
  · show win1_2.index t (0 : Fin 4) * 1 + 1 * (j 0).val = t.val / 2; have hj0 : (j 0).val < 1 := (j 0).isLt; omega
  · show win1_2.index t (1 : Fin 4) * 64 + 1 * (j 1).val = t.val % 2 * 64 + (j 1).val; omega
  · show win1_2.index t (2 : Fin 4) * 128 + 1 * (j 2).val = (j 2).val; omega
  · show win1_2.index t (3 : Fin 4) * 128 + 1 * (j 3).val = (j 3).val; omega

/-- What point t writes back to the second result is block t of `high`. -/
theorem flushed3_eq (hH : BodyHigh) (c : Dev nD) (t : Fin cfg1.N) :
    (dat1 V c).flushed 3 t = ((cfg1.win 3).blk t).view.read (Elt Ideal)
      (arr4 (high (fn4 (V c main_arg0)) (tbl (V c main_v38)))) := by
  show (cfg1.win 3).cut (grid1.coords t) ((dat1 V c).after 3 t) = _
  rw [after1_3]
  obtain ⟨-, -, -, -, -, -, -, -, -, -, -, -, e0, e1, e2, e3⟩ := idx_facts t
  funext j
  refine high_block hH (iblk1 V c 0 t) (iblk1 V c 1 t) (V c main_arg0) (V c main_v38)
    (⟨t.val / 2, by have := t.isLt; have := N1; omega⟩ : Fin 8) (⟨t.val % 2, by omega⟩ : Fin 2)
    (fun cc r q => iblk_x V c t cc r q) (fun k => iblk_w V c t k) j _ ?_ ?_ ?_ ?_
  · show win1_3.index t (0 : Fin 4) * 1 + 1 * (j 0).val = t.val / 2; have hj0 : (j 0).val < 1 := (j 0).isLt; omega
  · show win1_3.index t (1 : Fin 4) * 64 + 1 * (j 1).val = t.val % 2 * 64 + (j 1).val; omega
  · show win1_3.index t (2 : Fin 4) * 128 + 1 * (j 2).val = (j 2).val; omega
  · show win1_3.index t (3 : Fin 4) * 128 + 1 * (j 3).val = (j 3).val; omega

theorem mem_blk2 (t : Fin cfg1.N) (i : S8x128x128x128.Idx) :
    i ∈ ((cfg1.win 2).blk t).view.set ↔ ∀ a : Fin 4, win1_2.index t a * S1x64x128x128.size a ≤ (i a).val ∧ (i a).val < win1_2.index t a * S1x64x128x128.size a + S1x64x128x128.size a := by
  show i ∈ ((View.whole main_v39_0).slice (win1_2.rect t)).set ↔ _
  rw [View.set_slice_whole, Rect.mem_set_unit]
  exact Iff.rfl

theorem mem_blk3 (t : Fin cfg1.N) (i : S8x128x128x128.Idx) :
    i ∈ ((cfg1.win 3).blk t).view.set ↔ ∀ a : Fin 4, win1_3.index t a * S1x64x128x128.size a ≤ (i a).val ∧ (i a).val < win1_3.index t a * S1x64x128x128.size a + S1x64x128x128.size a := by
  show i ∈ ((View.whole main_v39_1).slice (win1_3.rect t)).set ↔ _
  rw [View.set_slice_whole, Rect.mem_set_unit]
  exact Iff.rfl

/-- Every entry of the first result is in the block of point 2·n + C / 64. -/
theorem cover2 (i : S8x128x128x128.Idx) : ∃ t : Fin cfg1.N, (cfg1.win 2).flush t = true ∧ i ∈ ((cfg1.win 2).blk t).view.set := by
  have hi0 : (i 0).val < 8 := (i 0).isLt
  have hi1 : (i 1).val < 128 := (i 1).isLt
  have hi2 : (i 2).val < 128 := (i 2).isLt
  have hi3 : (i 3).val < 128 := (i 3).isLt
  have h16 := N1
  refine ⟨⟨(i 0).val * 2 + (i 1).val / 64, by omega⟩, flush1_2 _, ?_⟩
  rw [mem_blk2]
  obtain ⟨-, -, -, -, -, -, -, -, e0, e1, e2, e3, -⟩ := idx_facts ⟨(i 0).val * 2 + (i 1).val / 64, by omega⟩
  simp only at e0 e1 e2 e3
  intro a
  match a with
  | ⟨0, _⟩ => show win1_2.index _ (0 : Fin 4) * 1 ≤ (i 0).val ∧ (i 0).val < win1_2.index _ (0 : Fin 4) * 1 + 1; omega
  | ⟨1, _⟩ => show win1_2.index _ (1 : Fin 4) * 64 ≤ (i 1).val ∧ (i 1).val < win1_2.index _ (1 : Fin 4) * 64 + 64; omega
  | ⟨2, _⟩ => show win1_2.index _ (2 : Fin 4) * 128 ≤ (i 2).val ∧ (i 2).val < win1_2.index _ (2 : Fin 4) * 128 + 128; omega
  | ⟨3, _⟩ => show win1_2.index _ (3 : Fin 4) * 128 ≤ (i 3).val ∧ (i 3).val < win1_2.index _ (3 : Fin 4) * 128 + 128; omega

/-- Every entry of the second result is in the block of point 2·n + C / 64. -/
theorem cover3 (i : S8x128x128x128.Idx) : ∃ t : Fin cfg1.N, (cfg1.win 3).flush t = true ∧ i ∈ ((cfg1.win 3).blk t).view.set := by
  have hi0 : (i 0).val < 8 := (i 0).isLt
  have hi1 : (i 1).val < 128 := (i 1).isLt
  have hi2 : (i 2).val < 128 := (i 2).isLt
  have hi3 : (i 3).val < 128 := (i 3).isLt
  have h16 := N1
  refine ⟨⟨(i 0).val * 2 + (i 1).val / 64, by omega⟩, flush1_3 _, ?_⟩
  rw [mem_blk3]
  obtain ⟨-, -, -, -, -, -, -, -, -, -, -, -, e0, e1, e2, e3⟩ := idx_facts ⟨(i 0).val * 2 + (i 1).val / 64, by omega⟩
  simp only at e0 e1 e2 e3
  intro a
  match a with
  | ⟨0, _⟩ => show win1_3.index _ (0 : Fin 4) * 1 ≤ (i 0).val ∧ (i 0).val < win1_3.index _ (0 : Fin 4) * 1 + 1; omega
  | ⟨1, _⟩ => show win1_3.index _ (1 : Fin 4) * 64 ≤ (i 1).val ∧ (i 1).val < win1_3.index _ (1 : Fin 4) * 64 + 64; omega
  | ⟨2, _⟩ => show win1_3.index _ (2 : Fin 4) * 128 ≤ (i 2).val ∧ (i 2).val < win1_3.index _ (2 : Fin 4) * 128 + 128; omega
  | ⟨3, _⟩ => show win1_3.index _ (3 : Fin 4) * 128 ≤ (i 3).val ∧ (i 3).val < win1_3.index _ (3 : Fin 4) * 128 + 128; omega

/-- The two result arrays after the second pipeline's run. -/
theorem final2 (hL : BodyLow) (c : Dev nD) :
    (dat1 V c).arrAt 2 cfg1.N = arr4 (low (fn4 (V c main_arg0)) (tbl (V c main_v38))) :=
  (dat1 V c).arrAt_eq_of_cover 2 _ (fun t _ => flushed2_eq V hL c t) cover2

theorem final3 (hH : BodyHigh) (c : Dev nD) :
    (dat1 V c).arrAt 3 cfg1.N = arr4 (high (fn4 (V c main_arg0)) (tbl (V c main_v38))) :=
  (dat1 V c).arrAt_eq_of_cover 3 _ (fun t _ => flushed3_eq V hH c t) cover3

end Blocks

end Cert.KernelIdeal.ConvBlocks

end
-- ==== Proof.KernelValue.lean ====
/-
  The idealized kernel's two results as functions of its arguments.

  The first pipeline leaves the scaled plane sums (transposed); the host operations between the pipelines turn
  them into the filter weights and recast these to [8, 2, 1, 36]; the second pipeline reads the input array
  (unchanged) and those weights. Reading the recast weights back as an [8, 8, 9] table gives the weights
  themselves: position 36·b + 9·g + k of an entry's 72 weights is tap k of group 4·b + g.
-/
import proofs.«121505_j26018911879615_2_alg».proof.Proof.KernelRun
import proofs.«121505_j26018911879615_2_alg».proof.Proof.Pool
import proofs.«121505_j26018911879615_2_alg».proof.Proof.Mid
import proofs.«121505_j26018911879615_2_alg».proof.Proof.ConvBlocks

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Cert.Spec Cert.KernelIdeal.ConvBlocks Cert.KernelIdeal.Pool Cert.KernelIdeal.Mid

/-- The [8, 8, 9] weights recast to [8, 2, 1, 36] and read back as a table are the weights. -/
theorem tbl_cast (f : FVec Ideal S8x8x9 .f32) :
    tbl (shapeCast S8x2x1x36 f Facts₀.shapeCasts_S8x8x9_S8x2x1x36) = fn3 f := by
  funext n G k
  unfold tbl fn3
  refine shapeCast_apply f _ _ (ix3 n G k) ?_
  rw [Shape.rowMajor_val_three, Shape.rowMajor_val_four]
  have hG := G.isLt; have hk := k.isLt
  show (n.val * 8 + G.val) * 9 + k.val = ((n.val * 2 + G.val / 4) * 1 + 0) * 36 + (G.val % 4 * 9 + k.val)
  omega

variable (m : (ℓ : Loc nD τ sig) → Buf (Elt Ideal) ℓ) (ρ : Dev nD → PrngReg)

/-- The kernel's pooled means [8, 128] of the launch memory's input array. -/
def pooled (c : Dev nD) : FVec Ideal S8x128 .f32 :=
  transpose S8x128 [1, 0] (pooledT (m ((c : Thread nD τ).loc main_arg0))) Facts₀.transposes_S128x8_S8x128_1_0

/-- The kernel's filter weights [8, 8, 9] of the launch memory's arrays. -/
def weights (c : Dev nD) : FVec Ideal S8x8x9 .f32 :=
  filtK (pooled m c) (m ((c : Thread nD τ).loc main_arg1)) (m ((c : Thread nD τ).loc main_arg2))
    (m ((c : Thread nD τ).loc main_arg3)) (m ((c : Thread nD τ).loc main_arg4))
    (m ((c : Thread nD τ).loc main_arg5)) (m ((c : Thread nD τ).loc main_arg6))

/-- The input array when the second pipeline is entered is the launch memory's. -/
theorem V2_arg0 (c : Dev nD) : V2 m ρ c main_arg0 = m ((c : Thread nD τ).loc main_arg0) :=
  ((W3_arr m ρ c 0).trans (((dat1 (V2 m ρ) c).arrAt_in 0 rfl _).trans (A_eq1 (V2 m ρ) c 0))).symm.trans (W3_main_arg0 m ρ c)

/-- The weight array when the second pipeline is entered is the recast filter weights. -/
theorem V2_v38 (c : Dev nD) :
    V2 m ρ c main_v38 = shapeCast S8x2x1x36 (weights m c) Facts₀.shapeCasts_S8x8x9_S8x2x1x36 := by
  show StableHlo.after hostOps1 (W1 m ρ c) (Proc.devRef .tc main_v38) = _
  rw [after_v38]
  rw [show W1 m ρ c (Proc.devRef .tc main_v0) = pooledT (m ((c : Thread nD τ).loc main_arg0)) from
    (W1_arr m ρ c 1).trans (Pool.final (V0 m ρ) c)]
  rw [W1_of_ne m ρ c main_arg1 (by decide), W1_of_ne m ρ c main_arg2 (by decide), W1_of_ne m ρ c main_arg3 (by decide),
    W1_of_ne m ρ c main_arg4 (by decide), W1_of_ne m ρ c main_arg5 (by decide), W1_of_ne m ρ c main_arg6 (by decide)]
  rfl

theorem res0 (hL : BodyLow) (c : Dev nD) :
    W3 m ρ c (Proc.devRef .tc main_v39_0)
      = arr4 (low (fn4 (m ((c : Thread nD τ).loc main_arg0))) (fn3 (weights m c))) := by
  refine (W3_arr m ρ c 2).trans ((final2 (V2 m ρ) hL c).trans ?_)
  rw [V2_arg0, V2_v38, tbl_cast]

theorem res1 (hH : BodyHigh) (c : Dev nD) :
    W3 m ρ c (Proc.devRef .tc main_v39_1)
      = arr4 (high (fn4 (m ((c : Thread nD τ).loc main_arg0))) (fn3 (weights m c))) := by
  refine (W3_arr m ρ c 3).trans ((final3 (V2 m ρ) hH c).trans ?_)
  rw [V2_arg0, V2_v38, tbl_cast]

/-- The run: both results at their functions of the arguments, the arguments unchanged. -/
theorem run (hL : BodyLow) (hH : BodyHigh) :
    θ_run defs (onTc (τ := τ) (main (F := Ideal))) ⟨m, fun _ => 0, ρ⟩ (fun r => ∀ c : Dev nD,
      r.2.mem ((c.tc : Thread nD τ).loc main_v39_0) = arr4 (low (fn4 (m ((c : Thread nD τ).loc main_arg0))) (fn3 (weights m c)))
      ∧ r.2.mem ((c.tc : Thread nD τ).loc main_v39_1) = arr4 (high (fn4 (m ((c : Thread nD τ).loc main_arg0))) (fn3 (weights m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (res0 m ρ hL c), (h c).2.1.trans (res1 m ρ hH c), (h c).2.2⟩)
    (Cert.KernelIdeal.RunNamed.run_named m ρ)

end Cert.KernelIdeal.Whole

end
-- ==== Proof.MeanBridge.lean ====
/-
  The two programs' pooled means are one array.

  The kernel adds each 128×128 plane along the lanes and then along the rows and multiplies by the constant
  2⁻¹⁴; the reference adds zero and the plane's 16384 entries in one reduction over both axes and divides by
  16384. A finite sum of extended reals does not depend on the order or grouping of its terms, and dividing by
  the real number 16384 is multiplying by the real number 1/16384 at every extended real, infinities
  included: so the two [8, 128] arrays are equal, with no condition on the input.
-/
import proofs.«121505_j26018911879615_2_alg».proof.ReferenceIdeal
import proofs.«121505_j26018911879615_2_alg».proof.Proof.Gen.ReferenceIdeal
import proofs.«121505_j26018911879615_2_alg».proof.Proof.Pool
import Idealize.ShloMosaic.Lib.IdealHost

set_option maxRecDepth 16384

noncomputable section

namespace Cert.MeanBridge

open Idealize.ShloMosaic Idealize.ShloMosaic.ValueIdx
open Cert.ReferenceIdeal Cert.ReferenceIdeal.Facts₀ Cert.ReferenceIdeal.Facts

/-- The reference's mean over each plane: zero plus the plane's entries, divided by 16384. -/
def meanR (x : FVec Ideal S8x128x128x128 .f32) : FVec Ideal S8x128 .f32 :=
  Host.divf (Host.reduceAdd x (constant (F := Ideal) S_ .f32 0x00000000#32) reducesTo_S8x128x128x128_S8x128_d2_3 h_S_)
    (broadcastInDim S8x128 ![] bcast_S_S8x128 (constant (F := Ideal) S_ .f32 0x46800000#32))

/-- The word 0x46800000 denotes the real number 16384. -/
theorem ofBits_16384 : Ideal.ofBits .f32 0x46800000#32 = ((16384 : ℝ) : EReal) := by
  simp [Ideal.ofBits, Ideal.ieee, -EReal.coe_mul]; norm_num

/-- The word 0x38800000 denotes the real number 1/16384. -/
theorem ofBits_inv_16384 : Ideal.ofBits .f32 0x38800000#32 = (((1 : ℝ) / 16384 : ℝ) : EReal) := by
  simp [Ideal.ofBits, Ideal.ieee, -EReal.coe_mul]; norm_num

/-- The entries of the input that a reduction over the last two axes sends to (n, C) are plane (n, C):
    their sum is the double sum over the plane's rows and lanes. -/
theorem plane_sum (x : S8x128x128x128.Idx → EReal) (n : Fin 8) (C : Fin 128) :
    ∑ i ∈ Finset.univ.filter (fun i => reducesTo_S8x128x128x128_S8x128_d2_3.drop i = ix2 n C), x i
      = ∑ r : Fin 128, ∑ q : Fin 128, x (ix4 n C r q) := by
  rw [← Finset.sum_product' (s := Finset.univ) (t := Finset.univ) (f := fun r q => x (ix4 n C r q))]
  refine Finset.sum_nbij' (fun i => ((i 2 : Fin 128), (i 3 : Fin 128))) (fun p => ix4 n C p.1 p.2) ?_ ?_ ?_ ?_ ?_
  · intro i _; exact Finset.mem_product.mpr ⟨Finset.mem_univ _, Finset.mem_univ _⟩
  · intro p _
    refine Finset.mem_filter.mpr ⟨Finset.mem_univ _, ?_⟩
    funext b; apply Fin.ext
    match b with
    | ⟨0, _⟩ => rfl
    | ⟨1, _⟩ => rfl
  · intro i hi
    have hd := (Finset.mem_filter.mp hi).2
    have h0 : (i 0).val = n.val := congrArg (fun j => (j 0).val) hd
    have h1 : (i 1).val = C.val := congrArg (fun j => (j 1).val) hd
    funext a; apply Fin.ext
    match a with
    | ⟨0, _⟩ => exact h0.symm
    | ⟨1, _⟩ => exact h1.symm
    | ⟨2, _⟩ => rfl
    | ⟨3, _⟩ => rfl
  · intro p _; rfl
  · intro i hi
    have hd := (Finset.mem_filter.mp hi).2
    have h0 : (i 0).val = n.val := congrArg (fun j => (j 0).val) hd
    have h1 : (i 1).val = C.val := congrArg (fun j => (j 1).val) hd
    refine congrArg x ?_
    funext a; apply Fin.ext
    match a with
    | ⟨0, _⟩ => exact h0
    | ⟨1, _⟩ => exact h1
    | ⟨2, _⟩ => rfl
    | ⟨3, _⟩ => rfl

/-- The kernel's pooled array, transposed, is the reference's mean. -/
theorem pooled_eq (x : FVec Ideal S8x128x128x128 .f32) :
    transpose Cert.KernelIdeal.S8x128 [1, 0] (Cert.KernelIdeal.Pool.pooledT x) Cert.KernelIdeal.Facts₀.transposes_S128x8_S8x128_1_0
      = meanR x := by
  funext i
  obtain ⟨n, C, rfl⟩ : ∃ (n : Fin 8) (C : Fin 128), i = ix2 n C := ⟨i 0, i 1, eq_ix2 i⟩
  refine (transpose_apply [1, 0] _ Cert.KernelIdeal.Facts₀.transposes_S128x8_S8x128_1_0 (ix2 n C) (ix2 C n) ?_).trans ?_
  · intro b; match b with | ⟨0, _⟩ => rfl | ⟨1, _⟩ => rfl
  rw [Cert.KernelIdeal.Pool.pooledT_ix2]
  unfold Cert.KernelIdeal.Pool.planeMean meanR
  rw [hostDivf_apply, hostReduceAdd_apply, broadcastInDim_scalar_apply, constant_apply, constant_apply]
  unfold Ideal.hostReduceAdd
  rw [Ideal.ofBits_zero_f32, zero_add, plane_sum, ofBits_16384, ofBits_inv_16384,
    Ideal.div_coe (by norm_num : (16384 : ℝ) ≠ 0)]

end Cert.MeanBridge

end
-- ==== Proof.ConvShift.lean ====
/-
  One axis of the 3×3 filter with REFLECT padding, read at an index.

  A [16, 128, 128] array is moved one place along its rows (axis 1) or its lanes (axis 2) by a rotation, and the one
  row (lane) the rotation wraps around is replaced by the reflected row (lane): moved back, place 0 reads place 1
  and every other place r reads r − 1; moved forward, place 127 reads place 126 and every other place r reads r + 1.
  These are the functions nb 0 and nb 2 of the specification. Then: the scalar weight number k of a group's nine,
  the nine weights of a group among the thirty-six, and the casts and loads that drop or add the leading unit axes.
-/
import Idealize.ShloMosaic.Lib.ValueIdx
import Idealize.ShloMosaic.Lib.ValueLayout
import Idealize.ShloMosaic.Lib.Pipeline.Value
import Idealize.ShloMosaic.Lib.Pipeline.FrameBody
import Idealize.ShloMosaic.Lib.KernelVsHost
import Idealize.ShloMosaic.PureOps.Ideal.Laws
import proofs.«121505_j26018911879615_2_alg».proof.Proof.Spec

noncomputable section

namespace Cert.KerConv

open Idealize.ShloMosaic Idealize.ShloMosaic.ValueIdx Cert.Spec

/-- The shape of one group's sixteen planes. -/
abbrev T3 : Shape := ⟨3, ![16, 128, 128]⟩
/-- One row of each plane. -/
abbrev Trow : Shape := ⟨3, ![16, 1, 128]⟩
/-- One lane of each plane. -/
abbrev Tcol : Shape := ⟨3, ![16, 128, 1]⟩

/-! ## Words: the comparison of two places -/

/-- A place compared with itself. -/
theorem cmpi_eq_self (n : Nat) : IntOp.cmpi .eq (BitVec.ofNat 32 n) (BitVec.ofNat 32 n) = 1#1 := by
  simp [IntOp.cmpi]

/-- Two different places below 128 compare unequal as 32-bit words. -/
theorem cmpi_eq_ne (n m : Nat) (hn : n < 128) (hm : m < 128) (h : n ≠ m) :
    IntOp.cmpi .eq (BitVec.ofNat 32 n) (BitVec.ofNat 32 m) = 0#1 := by
  have hne : BitVec.ofNat 32 n ≠ BitVec.ofNat 32 m := by
    intro e
    have e' := congrArg BitVec.toNat e
    rw [BitVec.toNat_ofNat, BitVec.toNat_ofNat] at e'
    omega
  have hb : (BitVec.ofNat 32 n == BitVec.ofNat 32 m) = false := beq_eq_false_iff_ne.mpr hne
  unfold IntOp.cmpi
  rw [hb]
  rfl

/-- A rotation amount below 128 read as a natural number. -/
theorem toNat_amount (n : Nat) (hn : n < 128) : (BitVec.ofNat 32 n).toNat = n := by
  rw [BitVec.toNat_ofNat]; omega

variable {α : Type}

/-! ## The patched rotation along the rows -/

/-- Rotated by n along the rows, with row c replaced by row o: place r reads o at r = c, and (r + 128 − n) mod 128
    elsewhere. -/
theorem rowPatch (a : T3.Idx → α) (c n o : Nat) (hc : c < 128) (hn : n < 128) (ho : o < 128)
    (hi : T3.Iotas .tc 32 [1]) (hs : T3.Slices ![0, o, 0] Trow) (hcs : Trow.ShapeCasts Trow)
    (hb : Trow.Broadcasts T3) (hr : T3.Rotates 1 none) (p : Fin 16) (r q : Fin 128) :
    select (cmpi .eq (iota .tc T3 32 [1] hi) (broadcast T3 (BitVec.ofNat 32 c)))
        (broadcastTo T3 (shapeCast Trow (extractStridedSlice Trow ![0, o, 0] a hs) hcs) hb)
        (dynamicRotate 1 (BitVec.ofNat 32 n) none a hr) (ix3 p r q)
      = a (ix3 p (if r.val = c then ⟨o, ho⟩ else ⟨(r.val + 128 - n) % 128, Nat.mod_lt _ (by omega)⟩) q) := by
  rw [select_apply]
  show Scalar.select (IntOp.cmpi .eq (iota .tc T3 32 [1] hi (ix3 p r q)) (BitVec.ofNat 32 c)) _ _ = _
  rw [iota_single_apply]
  show Scalar.select (IntOp.cmpi .eq (BitVec.ofNat 32 r.val) (BitVec.ofNat 32 c)) _ _ = _
  by_cases h : r.val = c
  · have e : IntOp.cmpi .eq (BitVec.ofNat 32 r.val) (BitVec.ofNat 32 c) = 1#1 := by rw [h]; exact cmpi_eq_self c
    rw [e, select_one, if_pos h]
    refine (broadcastTo_apply _ hb _ (ix3 p (0 : Fin 1) q)
      (fun b => match b with | ⟨0, _⟩ => rfl | ⟨1, _⟩ => rfl | ⟨2, _⟩ => rfl)).trans ?_
    rw [shapeCast_self]
    exact extractStridedSlice_apply _ a hs _ (ix3 p ⟨o, ho⟩ q) (fun b => match b with
      | ⟨0, _⟩ => by show p.val = 0 + p.val; omega
      | ⟨1, _⟩ => by show o = o + 0; omega
      | ⟨2, _⟩ => by show q.val = 0 + q.val; omega)
  · rw [cmpi_eq_ne _ _ r.isLt hc h, select_zero, if_neg h]
    exact dynamicRotate_apply 1 _ a hr _ _ (fun b => match b with
      | ⟨0, _⟩ => rfl
      | ⟨1, _⟩ => by
        show (r.val + 128 - n) % 128 = (r.val + 128 - (BitVec.ofNat 32 n).toNat % 128) % 128
        rw [toNat_amount n hn, Nat.mod_eq_of_lt hn]
      | ⟨2, _⟩ => rfl)

/-- Moved back one row with the first row reflected: row r reads row nb 0 r. -/
theorem rowBack (a : T3.Idx → α)
    (hi : T3.Iotas .tc 32 [1]) (hs : T3.Slices ![0, 1, 0] Trow) (hcs : Trow.ShapeCasts Trow)
    (hb : Trow.Broadcasts T3) (hr : T3.Rotates 1 none) (p : Fin 16) (r q : Fin 128) :
    select (cmpi .eq (iota .tc T3 32 [1] hi) (broadcast T3 0#32))
        (broadcastTo T3 (shapeCast Trow (extractStridedSlice Trow ![0, 1, 0] a hs) hcs) hb)
        (dynamicRotate 1 1#32 none a hr) (ix3 p r q)
      = a (ix3 p (nb 0 r) q) := by
  refine (rowPatch a 0 1 1 (by omega) (by omega) (by omega) hi hs hcs hb hr p r q).trans ?_
  congr 2
  refine Fin.ext ?_
  have := r.isLt
  by_cases h : r.val = 0
  · rw [if_pos h]; simp [nbv, h]
  · rw [if_neg h]; simp [nbv, h]; omega

/-- Moved forward one row with the last row reflected: row r reads row nb 2 r. -/
theorem rowFwd (a : T3.Idx → α)
    (hi : T3.Iotas .tc 32 [1]) (hs : T3.Slices ![0, 126, 0] Trow) (hcs : Trow.ShapeCasts Trow)
    (hb : Trow.Broadcasts T3) (hr : T3.Rotates 1 none) (p : Fin 16) (r q : Fin 128) :
    select (cmpi .eq (iota .tc T3 32 [1] hi) (broadcast T3 127#32))
        (broadcastTo T3 (shapeCast Trow (extractStridedSlice Trow ![0, 126, 0] a hs) hcs) hb)
        (dynamicRotate 1 127#32 none a hr) (ix3 p r q)
      = a (ix3 p (nb 2 r) q) := by
  refine (rowPatch a 127 127 126 (by omega) (by omega) (by omega) hi hs hcs hb hr p r q).trans ?_
  congr 2
  refine Fin.ext ?_
  have := r.isLt
  by_cases h : r.val = 127
  · rw [if_pos h]; simp [nbv, h]
  · rw [if_neg h]; simp [nbv, h]; omega

/-! ## The patched rotation along the lanes -/

/-- Rotated by n along the lanes, with lane c replaced by lane o: place q reads o at q = c, and (q + 128 − n) mod 128
    elsewhere. -/
theorem lanePatch (a : T3.Idx → α) (c n o : Nat) (hc : c < 128) (hn : n < 128) (ho : o < 128)
    (hi : T3.Iotas .tc 32 [2]) (hs : T3.Slices ![0, 0, o] Tcol) (hcs : Tcol.ShapeCasts Tcol)
    (hb : Tcol.Broadcasts T3) (hr : T3.Rotates 2 none) (p : Fin 16) (r q : Fin 128) :
    select (cmpi .eq (iota .tc T3 32 [2] hi) (broadcast T3 (BitVec.ofNat 32 c)))
        (broadcastTo T3 (shapeCast Tcol (extractStridedSlice Tcol ![0, 0, o] a hs) hcs) hb)
        (dynamicRotate 2 (BitVec.ofNat 32 n) none a hr) (ix3 p r q)
      = a (ix3 p r (if q.val = c then ⟨o, ho⟩ else ⟨(q.val + 128 - n) % 128, Nat.mod_lt _ (by omega)⟩)) := by
  rw [select_apply]
  show Scalar.select (IntOp.cmpi .eq (iota .tc T3 32 [2] hi (ix3 p r q)) (BitVec.ofNat 32 c)) _ _ = _
  rw [iota_single_apply]
  show Scalar.select (IntOp.cmpi .eq (BitVec.ofNat 32 q.val) (BitVec.ofNat 32 c)) _ _ = _
  by_cases h : q.val = c
  · have e : IntOp.cmpi .eq (BitVec.ofNat 32 q.val) (BitVec.ofNat 32 c) = 1#1 := by rw [h]; exact cmpi_eq_self c
    rw [e, select_one, if_pos h]
    refine (broadcastTo_apply _ hb _ (ix3 p r (0 : Fin 1))
      (fun b => match b with | ⟨0, _⟩ => rfl | ⟨1, _⟩ => rfl | ⟨2, _⟩ => rfl)).trans ?_
    rw [shapeCast_self]
    exact extractStridedSlice_apply _ a hs _ (ix3 p r ⟨o, ho⟩) (fun b => match b with
      | ⟨0, _⟩ => by show p.val = 0 + p.val; omega
      | ⟨1, _⟩ => by show r.val = 0 + r.val; omega
      | ⟨2, _⟩ => by show o = o + 0; omega)
  · rw [cmpi_eq_ne _ _ q.isLt hc h, select_zero, if_neg h]
    exact dynamicRotate_apply 2 _ a hr _ _ (fun b => match b with
      | ⟨0, _⟩ => rfl
      | ⟨1, _⟩ => rfl
      | ⟨2, _⟩ => by
        show (q.val + 128 - n) % 128 = (q.val + 128 - (BitVec.ofNat 32 n).toNat % 128) % 128
        rw [toNat_amount n hn, Nat.mod_eq_of_lt hn])

/-- Moved back one lane with the first lane reflected: lane q reads lane nb 0 q. -/
theorem laneBack (a : T3.Idx → α)
    (hi : T3.Iotas .tc 32 [2]) (hs : T3.Slices ![0, 0, 1] Tcol) (hcs : Tcol.ShapeCasts Tcol)
    (hb : Tcol.Broadcasts T3) (hr : T3.Rotates 2 none) (p : Fin 16) (r q : Fin 128) :
    select (cmpi .eq (iota .tc T3 32 [2] hi) (broadcast T3 0#32))
        (broadcastTo T3 (shapeCast Tcol (extractStridedSlice Tcol ![0, 0, 1] a hs) hcs) hb)
        (dynamicRotate 2 1#32 none a hr) (ix3 p r q)
      = a (ix3 p r (nb 0 q)) := by
  refine (lanePatch a 0 1 1 (by omega) (by omega) (by omega) hi hs hcs hb hr p r q).trans ?_
  congr 2
  refine Fin.ext ?_
  have := q.isLt
  by_cases h : q.val = 0
  · rw [if_pos h]; simp [nbv, h]
  · rw [if_neg h]; simp [nbv, h]; omega

/-- Moved forward one lane with the last lane reflected: lane q reads lane nb 2 q. -/
theorem laneFwd (a : T3.Idx → α)
    (hi : T3.Iotas .tc 32 [2]) (hs : T3.Slices ![0, 0, 126] Tcol) (hcs : Tcol.ShapeCasts Tcol)
    (hb : Tcol.Broadcasts T3) (hr : T3.Rotates 2 none) (p : Fin 16) (r q : Fin 128) :
    select (cmpi .eq (iota .tc T3 32 [2] hi) (broadcast T3 127#32))
        (broadcastTo T3 (shapeCast Tcol (extractStridedSlice Tcol ![0, 0, 126] a hs) hcs) hb)
        (dynamicRotate 2 127#32 none a hr) (ix3 p r q)
      = a (ix3 p r (nb 2 q)) := by
  refine (lanePatch a 127 127 126 (by omega) (by omega) (by omega) hi hs hcs hb hr p r q).trans ?_
  congr 2
  refine Fin.ext ?_
  have := q.isLt
  by_cases h : q.val = 127
  · rw [if_pos h]; simp [nbv, h]
  · rw [if_neg h]; simp [nbv, h]; omega

/-! ## The weights -/

/-- Weight number k of nine, taken out as a one-element slice and read as a scalar. -/
theorem weight_apply (f : (⟨1, ![9]⟩ : Shape).Idx → α) (k : Nat) (hk : k < 9)
    (hs : (⟨1, ![9]⟩ : Shape).Slices ![k] ⟨1, ![1]⟩) (hp : ∀ b, (![0] : Fin 1 → Nat) b < (⟨1, ![1]⟩ : Shape).size b) :
    extractAt ![0] (extractStridedSlice ⟨1, ![1]⟩ ![k] f hs) hp = f (ix1 ⟨k, hk⟩) := by
  unfold extractAt
  exact extractStridedSlice_apply _ f hs _ (ix1 ⟨k, hk⟩) (fun b => match b with
    | ⟨0, _⟩ => by show k = k + 0; omega)

/-- The nine weights of the group that starts at place o among the thirty-six. -/
theorem group_weights_apply (f : (⟨1, ![36]⟩ : Shape).Idx → α) (o : Nat) (ho : o + 9 ≤ 36)
    (hs : (⟨1, ![36]⟩ : Shape).Slices ![o] ⟨1, ![9]⟩) (k : Fin 9) :
    extractStridedSlice ⟨1, ![9]⟩ ![o] f hs (ix1 k) = f (ix1 ⟨o + k.val, by have := k.isLt; omega⟩) :=
  extractStridedSlice_apply _ f hs _ _ (fun b => match b with | ⟨0, _⟩ => rfl)

/-- The thirty-six weights of a [1, 1, 1, 36] block as a vector. -/
theorem weights_cast_apply (x : (⟨4, ![1, 1, 1, 36]⟩ : Shape).Idx → α)
    (h : (⟨4, ![1, 1, 1, 36]⟩ : Shape).ShapeCasts ⟨1, ![36]⟩) (k : Fin 36) :
    shapeCast ⟨1, ![36]⟩ x h (ix1 k) = x (ix4 (0 : Fin 1) (0 : Fin 1) (0 : Fin 1) k) :=
  shapeCast_apply x h _ _ (by
    rw [Shape.rowMajor_val_four, Shape.rowMajor_val_one]
    show ((0 * 1 + 0) * 1 + 0) * 36 + k.val = k.val
    omega)

/-! ## The sixteen channels of a group in the block of sixty-four -/

/-- A load of sixteen channels from channel o of a [1, 64, 128, 128] block. -/
theorem ld_channels_apply {Val : EltTy → Type} {e : EltTy} (x : (⟨4, ![1, 64, 128, 128]⟩ : Shape).Idx → Val e) (o : Nat)
    (ho : o + 16 ≤ 64)
    (inb : ∀ b, (![0, o, 0, 0] : Fin 4 → Nat) b + (⟨4, ![1, 16, 128, 128]⟩ : Shape).size b ≤ (⟨4, ![1, 64, 128, 128]⟩ : Shape).size b)
    (u : Fin 1) (p : Fin 16) (r q : Fin 128) :
    View.ld x (Rect.unit (s := ⟨4, ![1, 64, 128, 128]⟩) ![0, o, 0, 0] (⟨4, ![1, 16, 128, 128]⟩ : Shape).size inb) (ix4 u p r q)
      = x (ix4 (0 : Fin 1) ⟨o + p.val, by have := p.isLt; omega⟩ r q) := by
  show x _ = x _
  refine congrArg x (funext fun b => Fin.ext ?_)
  have hu : u.val = 0 := by omega
  match b with
  | ⟨0, _⟩ => show 0 + 1 * u.val = 0; omega
  | ⟨1, _⟩ => show o + 1 * p.val = o + p.val; omega
  | ⟨2, _⟩ => show 0 + 1 * r.val = r.val; omega
  | ⟨3, _⟩ => show 0 + 1 * q.val = q.val; omega

end Cert.KerConv

end
-- ==== Proof.ConvBody.lean ====
/-
  The filter kernel's body, read at an index.

  For each of the four groups of sixteen channels the body forms, from the group's planes and its nine weights, the
  nine shifted copies of the planes (three row positions nb 0, nb 1, nb 2, and for each three lane positions), multiplies
  each by its weight and adds the products to zero in the order of the taps: at channel p, row r, lane q of the group
  this is the specification's low9 of plane p with the group's weights. It stores that sum and the plane minus that
  sum at the group's sixteen channels of the two results. The four stores of each result tile its sixty-four channels,
  so each result is, at channel cc, the value of the group cc / 16.
-/
import proofs.«121505_j26018911879615_2_alg».proof.Proof.Gen.KernelIdeal.Frame
import proofs.«121505_j26018911879615_2_alg».proof.Proof.Spec
import proofs.«121505_j26018911879615_2_alg».proof.Proof.ConvShift

noncomputable section

namespace Cert.KerConv

open Idealize.ShloMosaic Idealize.ShloMosaic.ValueIdx Cert.Spec Cert.KernelIdeal Cert.KernelIdeal.Gen

variable [Cert.KernelIdeal.Facts]

/-- The accumulated sum read at an index: the elementwise operations read through, each shifted copy reads its
    neighbour, each weight is its entry of the block, and zero plus the nine products is low9. -/
local macro "nine_taps" : tactic => `(tactic| (
  simp only [addf_apply, mulf_apply, broadcast_apply]
  repeat rw [laneBack]
  repeat rw [laneFwd]
  repeat rw [rowBack]
  repeat rw [rowFwd]
  rw [weight_apply _ 0 (by omega), weight_apply _ 1 (by omega), weight_apply _ 2 (by omega),
    weight_apply _ 3 (by omega), weight_apply _ 4 (by omega), weight_apply _ 5 (by omega),
    weight_apply _ 6 (by omega), weight_apply _ 7 (by omega), weight_apply _ 8 (by omega)]
  repeat rw [group_weights_apply _ _ (by omega)]
  repeat rw [weights_cast_apply]
  repeat rw [shapeCast_1abc_abc_apply]
  rw [show (FloatOps.ofBits FTy.f32 0#32 : Ideal .f32) = 0 from Ideal.ofBits_zero_f32]
  unfold low9
  simp only [nb_one]
  rfl))

/-! ## The four groups: the sum, what is stored in the first result, what is stored in the second -/

/-- Group 1: the sum of the nine products at channel p, row r, lane q. -/
theorem core1 (W : Vec Ideal S1x1x1x36 .f32) (A : Vec Ideal S1x16x128x128 .f32) (p : Fin 16) (r q : Fin 128) :
    k1_pay13 (F := Ideal) (iota .tc S16x128x128 32 [2] iota_S16x128x128_d2_w32) (k1_pay6 W) (k1_pay10 (iota .tc S16x128x128 32 [1] iota_S16x128x128_d1_w32) (k1_pay5 A)) (k1_pay11 (iota .tc S16x128x128 32 [1] iota_S16x128x128_d1_w32) (iota .tc S16x128x128 32 [2] iota_S16x128x128_d2_w32) (k1_pay5 A) (k1_pay6 W) (k1_pay8 W A) (k1_pay9 W A)) (k1_pay12 (k1_pay6 W)) (ix3 p r q)
      = low9 (fun r' q' => A (ix4 (0 : Fin 1) p r' q')) (fun k => W (ix4 (0 : Fin 1) (0 : Fin 1) (0 : Fin 1) ⟨0 + k.val, by have := k.isLt; omega⟩)) r q := by
  unfold k1_pay13 k1_pay12 k1_pay11 k1_pay10 k1_pay9 k1_pay8 k1_pay7 k1_pay6 k1_pay5 k1_pay4
  nine_taps

/-- Group 1: the block stored in the first result is that sum. -/
theorem low1 (W : Vec Ideal S1x1x1x36 .f32) (A : Vec Ideal S1x16x128x128 .f32) (u : Fin 1) (p : Fin 16) (r q : Fin 128) :
    k1_pay14 (F := Ideal) (iota .tc S16x128x128 32 [2] iota_S16x128x128_d2_w32) (k1_pay6 W) (k1_pay10 (iota .tc S16x128x128 32 [1] iota_S16x128x128_d1_w32) (k1_pay5 A)) (k1_pay11 (iota .tc S16x128x128 32 [1] iota_S16x128x128_d1_w32) (iota .tc S16x128x128 32 [2] iota_S16x128x128_d2_w32) (k1_pay5 A) (k1_pay6 W) (k1_pay8 W A) (k1_pay9 W A)) (k1_pay12 (k1_pay6 W)) (ix4 u p r q)
      = low9 (fun r' q' => A (ix4 (0 : Fin 1) p r' q')) (fun k => W (ix4 (0 : Fin 1) (0 : Fin 1) (0 : Fin 1) ⟨0 + k.val, by have := k.isLt; omega⟩)) r q := by
  unfold k1_pay14
  exact (shapeCast_abc_1abc_apply _ _ u p r q).trans (core1 W A p r q)

/-- Group 1: the block stored in the second result is the plane minus that sum. -/
theorem high1 (W : Vec Ideal S1x1x1x36 .f32) (A : Vec Ideal S1x16x128x128 .f32) (u : Fin 1) (p : Fin 16) (r q : Fin 128) :
    k1_pay15 (F := Ideal) (iota .tc S16x128x128 32 [2] iota_S16x128x128_d2_w32) (k1_pay5 A) (k1_pay6 W) (k1_pay10 (iota .tc S16x128x128 32 [1] iota_S16x128x128_d1_w32) (k1_pay5 A)) (k1_pay11 (iota .tc S16x128x128 32 [1] iota_S16x128x128_d1_w32) (iota .tc S16x128x128 32 [2] iota_S16x128x128_d2_w32) (k1_pay5 A) (k1_pay6 W) (k1_pay8 W A) (k1_pay9 W A)) (k1_pay12 (k1_pay6 W)) (ix4 u p r q)
      = A (ix4 (0 : Fin 1) p r q) - low9 (fun r' q' => A (ix4 (0 : Fin 1) p r' q')) (fun k => W (ix4 (0 : Fin 1) (0 : Fin 1) (0 : Fin 1) ⟨0 + k.val, by have := k.isLt; omega⟩)) r q := by
  unfold k1_pay15
  refine (shapeCast_abc_1abc_apply _ _ u p r q).trans ?_
  refine (subf_apply _ _ _).trans ?_
  refine congrArg₂ (· - ·) ?_ (core1 W A p r q)
  unfold k1_pay5
  exact shapeCast_1abc_abc_apply _ _ p r q

/-- Group 2: the sum of the nine products at channel p, row r, lane q. -/
theorem core2 (W : Vec Ideal S1x1x1x36 .f32) (A : Vec Ideal S1x16x128x128 .f32) (p : Fin 16) (r q : Fin 128) :
    k1_pay24 (F := Ideal) (iota .tc S16x128x128 32 [1] iota_S16x128x128_d1_w32) (iota .tc S16x128x128 32 [2] iota_S16x128x128_d2_w32) (k1_pay17 (k1_pay4 W)) (k1_pay21 (iota .tc S16x128x128 32 [2] iota_S16x128x128_d2_w32) (k1_pay16 A) (k1_pay17 (k1_pay4 W)) (k1_pay18 (F := Ideal)) (k1_pay19 (iota .tc S16x128x128 32 [1] iota_S16x128x128_d1_w32) A) (k1_pay20 (iota .tc S16x128x128 32 [1] iota_S16x128x128_d1_w32) (iota .tc S16x128x128 32 [2] iota_S16x128x128_d2_w32) A)) (k1_pay22 (k1_pay16 A)) (k1_pay23 (k1_pay16 A)) (ix3 p r q)
      = low9 (fun r' q' => A (ix4 (0 : Fin 1) p r' q')) (fun k => W (ix4 (0 : Fin 1) (0 : Fin 1) (0 : Fin 1) ⟨9 + k.val, by have := k.isLt; omega⟩)) r q := by
  unfold k1_pay24 k1_pay23 k1_pay22 k1_pay21 k1_pay20 k1_pay19 k1_pay18 k1_pay17 k1_pay16 k1_pay4
  nine_taps

/-- Group 2: the block stored in the first result is that sum. -/
theorem low2 (W : Vec Ideal S1x1x1x36 .f32) (A : Vec Ideal S1x16x128x128 .f32) (u : Fin 1) (p : Fin 16) (r q : Fin 128) :
    k1_pay25 (F := Ideal) (iota .tc S16x128x128 32 [1] iota_S16x128x128_d1_w32) (iota .tc S16x128x128 32 [2] iota_S16x128x128_d2_w32) (k1_pay17 (k1_pay4 W)) (k1_pay21 (iota .tc S16x128x128 32 [2] iota_S16x128x128_d2_w32) (k1_pay16 A) (k1_pay17 (k1_pay4 W)) (k1_pay18 (F := Ideal)) (k1_pay19 (iota .tc S16x128x128 32 [1] iota_S16x128x128_d1_w32) A) (k1_pay20 (iota .tc S16x128x128 32 [1] iota_S16x128x128_d1_w32) (iota .tc S16x128x128 32 [2] iota_S16x128x128_d2_w32) A)) (k1_pay22 (k1_pay16 A)) (k1_pay23 (k1_pay16 A)) (ix4 u p r q)
      = low9 (fun r' q' => A (ix4 (0 : Fin 1) p r' q')) (fun k => W (ix4 (0 : Fin 1) (0 : Fin 1) (0 : Fin 1) ⟨9 + k.val, by have := k.isLt; omega⟩)) r q := by
  unfold k1_pay25
  exact (shapeCast_abc_1abc_apply _ _ u p r q).trans (core2 W A p r q)

/-- Group 2: the block stored in the second result is the plane minus that sum. -/
theorem high2 (W : Vec Ideal S1x1x1x36 .f32) (A : Vec Ideal S1x16x128x128 .f32) (u : Fin 1) (p : Fin 16) (r q : Fin 128) :
    k1_pay26 (F := Ideal) (iota .tc S16x128x128 32 [1] iota_S16x128x128_d1_w32) (iota .tc S16x128x128 32 [2] iota_S16x128x128_d2_w32) (k1_pay16 A) (k1_pay17 (k1_pay4 W)) (k1_pay21 (iota .tc S16x128x128 32 [2] iota_S16x128x128_d2_w32) (k1_pay16 A) (k1_pay17 (k1_pay4 W)) (k1_pay18 (F := Ideal)) (k1_pay19 (iota .tc S16x128x128 32 [1] iota_S16x128x128_d1_w32) A) (k1_pay20 (iota .tc S16x128x128 32 [1] iota_S16x128x128_d1_w32) (iota .tc S16x128x128 32 [2] iota_S16x128x128_d2_w32) A)) (k1_pay22 (k1_pay16 A)) (k1_pay23 (k1_pay16 A)) (ix4 u p r q)
      = A (ix4 (0 : Fin 1) p r q) - low9 (fun r' q' => A (ix4 (0 : Fin 1) p r' q')) (fun k => W (ix4 (0 : Fin 1) (0 : Fin 1) (0 : Fin 1) ⟨9 + k.val, by have := k.isLt; omega⟩)) r q := by
  unfold k1_pay26
  refine (shapeCast_abc_1abc_apply _ _ u p r q).trans ?_
  refine (subf_apply _ _ _).trans ?_
  refine congrArg₂ (· - ·) ?_ (core2 W A p r q)
  unfold k1_pay16
  exact shapeCast_1abc_abc_apply _ _ p r q

/-- Group 3: the sum of the nine products at channel p, row r, lane q. -/
theorem core3 (W : Vec Ideal S1x1x1x36 .f32) (A : Vec Ideal S1x16x128x128 .f32) (p : Fin 16) (r q : Fin 128) :
    k1_pay35 (F := Ideal) (k1_pay32 (iota .tc S16x128x128 32 [1] iota_S16x128x128_d1_w32) (iota .tc S16x128x128 32 [2] iota_S16x128x128_d2_w32) (k1_pay27 A) (k1_pay28 (k1_pay4 W)) (k1_pay29 (iota .tc S16x128x128 32 [1] iota_S16x128x128_d1_w32) (iota .tc S16x128x128 32 [2] iota_S16x128x128_d2_w32) (k1_pay4 W) A) (k1_pay30 (iota .tc S16x128x128 32 [2] iota_S16x128x128_d2_w32) (k1_pay4 W) A)) (k1_pay33 (iota .tc S16x128x128 32 [1] iota_S16x128x128_d1_w32) (iota .tc S16x128x128 32 [2] iota_S16x128x128_d2_w32) (k1_pay27 A)) (k1_pay34 (k1_pay28 (k1_pay4 W))) (ix3 p r q)
      = low9 (fun r' q' => A (ix4 (0 : Fin 1) p r' q')) (fun k => W (ix4 (0 : Fin 1) (0 : Fin 1) (0 : Fin 1) ⟨18 + k.val, by have := k.isLt; omega⟩)) r q := by
  unfold k1_pay35 k1_pay34 k1_pay33 k1_pay32 k1_pay31 k1_pay30 k1_pay29 k1_pay28 k1_pay27 k1_pay4
  nine_taps

/-- Group 3: the block stored in the first result is that sum. -/
theorem low3 (W : Vec Ideal S1x1x1x36 .f32) (A : Vec Ideal S1x16x128x128 .f32) (u : Fin 1) (p : Fin 16) (r q : Fin 128) :
    k1_pay36 (F := Ideal) (k1_pay32 (iota .tc S16x128x128 32 [1] iota_S16x128x128_d1_w32) (iota .tc S16x128x128 32 [2] iota_S16x128x128_d2_w32) (k1_pay27 A) (k1_pay28 (k1_pay4 W)) (k1_pay29 (iota .tc S16x128x128 32 [1] iota_S16x128x128_d1_w32) (iota .tc S16x128x128 32 [2] iota_S16x128x128_d2_w32) (k1_pay4 W) A) (k1_pay30 (iota .tc S16x128x128 32 [2] iota_S16x128x128_d2_w32) (k1_pay4 W) A)) (k1_pay33 (iota .tc S16x128x128 32 [1] iota_S16x128x128_d1_w32) (iota .tc S16x128x128 32 [2] iota_S16x128x128_d2_w32) (k1_pay27 A)) (k1_pay34 (k1_pay28 (k1_pay4 W))) (ix4 u p r q)
      = low9 (fun r' q' => A (ix4 (0 : Fin 1) p r' q')) (fun k => W (ix4 (0 : Fin 1) (0 : Fin 1) (0 : Fin 1) ⟨18 + k.val, by have := k.isLt; omega⟩)) r q := by
  unfold k1_pay36
  exact (shapeCast_abc_1abc_apply _ _ u p r q).trans (core3 W A p r q)

/-- Group 3: the block stored in the second result is the plane minus that sum. -/
theorem high3 (W : Vec Ideal S1x1x1x36 .f32) (A : Vec Ideal S1x16x128x128 .f32) (u : Fin 1) (p : Fin 16) (r q : Fin 128) :
    k1_pay37 (F := Ideal) (k1_pay27 A) (k1_pay32 (iota .tc S16x128x128 32 [1] iota_S16x128x128_d1_w32) (iota .tc S16x128x128 32 [2] iota_S16x128x128_d2_w32) (k1_pay27 A) (k1_pay28 (k1_pay4 W)) (k1_pay29 (iota .tc S16x128x128 32 [1] iota_S16x128x128_d1_w32) (iota .tc S16x128x128 32 [2] iota_S16x128x128_d2_w32) (k1_pay4 W) A) (k1_pay30 (iota .tc S16x128x128 32 [2] iota_S16x128x128_d2_w32) (k1_pay4 W) A)) (k1_pay33 (iota .tc S16x128x128 32 [1] iota_S16x128x128_d1_w32) (iota .tc S16x128x128 32 [2] iota_S16x128x128_d2_w32) (k1_pay27 A)) (k1_pay34 (k1_pay28 (k1_pay4 W))) (ix4 u p r q)
      = A (ix4 (0 : Fin 1) p r q) - low9 (fun r' q' => A (ix4 (0 : Fin 1) p r' q')) (fun k => W (ix4 (0 : Fin 1) (0 : Fin 1) (0 : Fin 1) ⟨18 + k.val, by have := k.isLt; omega⟩)) r q := by
  unfold k1_pay37
  refine (shapeCast_abc_1abc_apply _ _ u p r q).trans ?_
  refine (subf_apply _ _ _).trans ?_
  refine congrArg₂ (· - ·) ?_ (core3 W A p r q)
  unfold k1_pay27
  exact shapeCast_1abc_abc_apply _ _ p r q

/-- Group 4: the sum of the nine products at channel p, row r, lane q. -/
theorem core4 (W : Vec Ideal S1x1x1x36 .f32) (A : Vec Ideal S1x16x128x128 .f32) (p : Fin 16) (r q : Fin 128) :
    k1_pay1 (F := Ideal) (iota .tc S16x128x128 32 [2] iota_S16x128x128_d2_w32) (k1_pay39 (k1_pay4 W)) (k1_pay44 (iota .tc S16x128x128 32 [2] iota_S16x128x128_d2_w32) (k1_pay38 A) (k1_pay39 (k1_pay4 W)) (k1_pay41 (iota .tc S16x128x128 32 [1] iota_S16x128x128_d1_w32) (iota .tc S16x128x128 32 [2] iota_S16x128x128_d2_w32) (k1_pay4 W) A) (k1_pay42 (iota .tc S16x128x128 32 [1] iota_S16x128x128_d1_w32) A) (k1_pay43 (iota .tc S16x128x128 32 [1] iota_S16x128x128_d1_w32) A)) (k1_pay45 (iota .tc S16x128x128 32 [1] iota_S16x128x128_d1_w32) (k1_pay38 A)) (k1_pay46 (iota .tc S16x128x128 32 [1] iota_S16x128x128_d1_w32) (k1_pay38 A)) (k1_pay47 (iota .tc S16x128x128 32 [1] iota_S16x128x128_d1_w32) (k1_pay38 A)) (k1_pay48 (iota .tc S16x128x128 32 [2] iota_S16x128x128_d2_w32)) (ix3 p r q)
      = low9 (fun r' q' => A (ix4 (0 : Fin 1) p r' q')) (fun k => W (ix4 (0 : Fin 1) (0 : Fin 1) (0 : Fin 1) ⟨27 + k.val, by have := k.isLt; omega⟩)) r q := by
  unfold k1_pay1 k1_pay48 k1_pay47 k1_pay46 k1_pay45 k1_pay44 k1_pay43 k1_pay42 k1_pay41 k1_pay40 k1_pay39 k1_pay38 k1_pay4
  nine_taps

/-- Group 4: the block stored in the first result is that sum. -/
theorem low4 (W : Vec Ideal S1x1x1x36 .f32) (A : Vec Ideal S1x16x128x128 .f32) (u : Fin 1) (p : Fin 16) (r q : Fin 128) :
    k1_pay2 (F := Ideal) (iota .tc S16x128x128 32 [2] iota_S16x128x128_d2_w32) (k1_pay39 (k1_pay4 W)) (k1_pay44 (iota .tc S16x128x128 32 [2] iota_S16x128x128_d2_w32) (k1_pay38 A) (k1_pay39 (k1_pay4 W)) (k1_pay41 (iota .tc S16x128x128 32 [1] iota_S16x128x128_d1_w32) (iota .tc S16x128x128 32 [2] iota_S16x128x128_d2_w32) (k1_pay4 W) A) (k1_pay42 (iota .tc S16x128x128 32 [1] iota_S16x128x128_d1_w32) A) (k1_pay43 (iota .tc S16x128x128 32 [1] iota_S16x128x128_d1_w32) A)) (k1_pay45 (iota .tc S16x128x128 32 [1] iota_S16x128x128_d1_w32) (k1_pay38 A)) (k1_pay46 (iota .tc S16x128x128 32 [1] iota_S16x128x128_d1_w32) (k1_pay38 A)) (k1_pay47 (iota .tc S16x128x128 32 [1] iota_S16x128x128_d1_w32) (k1_pay38 A)) (k1_pay48 (iota .tc S16x128x128 32 [2] iota_S16x128x128_d2_w32)) (ix4 u p r q)
      = low9 (fun r' q' => A (ix4 (0 : Fin 1) p r' q')) (fun k => W (ix4 (0 : Fin 1) (0 : Fin 1) (0 : Fin 1) ⟨27 + k.val, by have := k.isLt; omega⟩)) r q := by
  unfold k1_pay2
  exact (shapeCast_abc_1abc_apply _ _ u p r q).trans (core4 W A p r q)

/-- Group 4: the block stored in the second result is the plane minus that sum. -/
theorem high4 (W : Vec Ideal S1x1x1x36 .f32) (A : Vec Ideal S1x16x128x128 .f32) (u : Fin 1) (p : Fin 16) (r q : Fin 128) :
    k1_pay3 (F := Ideal) (iota .tc S16x128x128 32 [2] iota_S16x128x128_d2_w32) (k1_pay38 A) (k1_pay39 (k1_pay4 W)) (k1_pay44 (iota .tc S16x128x128 32 [2] iota_S16x128x128_d2_w32) (k1_pay38 A) (k1_pay39 (k1_pay4 W)) (k1_pay41 (iota .tc S16x128x128 32 [1] iota_S16x128x128_d1_w32) (iota .tc S16x128x128 32 [2] iota_S16x128x128_d2_w32) (k1_pay4 W) A) (k1_pay42 (iota .tc S16x128x128 32 [1] iota_S16x128x128_d1_w32) A) (k1_pay43 (iota .tc S16x128x128 32 [1] iota_S16x128x128_d1_w32) A)) (k1_pay45 (iota .tc S16x128x128 32 [1] iota_S16x128x128_d1_w32) (k1_pay38 A)) (k1_pay46 (iota .tc S16x128x128 32 [1] iota_S16x128x128_d1_w32) (k1_pay38 A)) (k1_pay47 (iota .tc S16x128x128 32 [1] iota_S16x128x128_d1_w32) (k1_pay38 A)) (k1_pay48 (iota .tc S16x128x128 32 [2] iota_S16x128x128_d2_w32)) (ix4 u p r q)
      = A (ix4 (0 : Fin 1) p r q) - low9 (fun r' q' => A (ix4 (0 : Fin 1) p r' q')) (fun k => W (ix4 (0 : Fin 1) (0 : Fin 1) (0 : Fin 1) ⟨27 + k.val, by have := k.isLt; omega⟩)) r q := by
  unfold k1_pay3
  refine (shapeCast_abc_1abc_apply _ _ u p r q).trans ?_
  refine (subf_apply _ _ _).trans ?_
  refine congrArg₂ (· - ·) ?_ (core4 W A p r q)
  unfold k1_pay38
  exact shapeCast_1abc_abc_apply _ _ p r q

/-! ## From a group's blocks to the two input blocks -/

/-- The first result at channel cc, row r, lane q, from the block of sixty-four channels and the block of weights. -/
def lowAt (x0 : Vec Ideal S1x64x128x128 .f32) (x1 : Vec Ideal S1x1x1x36 .f32) (cc : Fin 64) (r q : Fin 128) : EReal :=
  low9 (fun r' q' => x0 (ix4 (0 : Fin 1) cc r' q'))
    (fun k => x1 (ix4 (0 : Fin 1) (0 : Fin 1) (0 : Fin 1) ⟨(cc.val / 16) * 9 + k.val, by have := cc.isLt; have := k.isLt; omega⟩)) r q

/-- The first result as a function of the block's index. -/
def lowFn (x0 : Vec Ideal S1x64x128x128 .f32) (x1 : Vec Ideal S1x1x1x36 .f32) : Vec Ideal S1x64x128x128 .f32 :=
  fun y => lowAt x0 x1 (y 1) (y 2) (y 3)

/-- The second result as a function of the block's index. -/
def highFn (x0 : Vec Ideal S1x64x128x128 .f32) (x1 : Vec Ideal S1x1x1x36 .f32) : Vec Ideal S1x64x128x128 .f32 :=
  fun y => x0 (ix4 (0 : Fin 1) (y 1) (y 2) (y 3)) - lowAt x0 x1 (y 1) (y 2) (y 3)

/-- The first result's function at an index written by its coordinates. -/
theorem lowFn_ix4 (x0 : Vec Ideal S1x64x128x128 .f32) (x1 : Vec Ideal S1x1x1x36 .f32) (cc : Fin 64) (r q : Fin 128) :
    lowFn x0 x1 (ix4 (0 : Fin 1) cc r q) = lowAt x0 x1 cc r q := by
  unfold lowFn
  rfl

/-- Channel p of the group that starts at channel o sits at channel o + p of the block. -/
theorem emb_channels (o : Nat) (ho : o + 16 ≤ 64)
    (inb : ∀ b, (![0, o, 0, 0] : Fin 4 → Nat) b + S1x16x128x128.size b ≤ S1x64x128x128.size b)
    (u : Fin 1) (p : Fin 16) (r q : Fin 128) :
    (Rect.unit (s := S1x64x128x128) ![0, o, 0, 0] S1x16x128x128.size inb).emb (ix4 u p r q)
      = ix4 (0 : Fin 1) ⟨o + p.val, by have := p.isLt; omega⟩ r q := by
  funext b
  refine Fin.ext ?_
  have hu : u.val = 0 := by omega
  match b with
  | ⟨0, _⟩ => show 0 + 1 * u.val = 0; omega
  | ⟨1, _⟩ => show o + 1 * p.val = o + p.val; omega
  | ⟨2, _⟩ => show 0 + 1 * r.val = r.val; omega
  | ⟨3, _⟩ => show 0 + 1 * q.val = q.val; omega

/-- low9 of group g's loaded planes and loaded weights is the first result at channel 16 g + p. -/
theorem low9_loaded (x0 : Vec Ideal S1x64x128x128 .f32) (x1 : Vec Ideal S1x1x1x36 .f32) (g o o9 : Nat) (hg : g < 4)
    (ho : o = 16 * g) (ho9 : o9 = 9 * g)
    (inb : ∀ b, (![0, o, 0, 0] : Fin 4 → Nat) b + S1x16x128x128.size b ≤ S1x64x128x128.size b)
    (inb0 : ∀ b, (![0, 0, 0, 0] : Fin 4 → Nat) b + S1x1x1x36.size b ≤ S1x1x1x36.size b)
    (p : Fin 16) (r q : Fin 128) :
    low9 (fun r' q' => View.ld x0 (Rect.unit (s := S1x64x128x128) ![0, o, 0, 0] S1x16x128x128.size inb) (ix4 (0 : Fin 1) p r' q'))
        (fun k => View.ld x1 (Rect.unit (s := S1x1x1x36) ![0, 0, 0, 0] S1x1x1x36.size inb0)
          (ix4 (0 : Fin 1) (0 : Fin 1) (0 : Fin 1) ⟨o9 + k.val, by have := k.isLt; omega⟩)) r q
      = lowAt x0 x1 ⟨o + p.val, by have := p.isLt; omega⟩ r q := by
  unfold lowAt
  refine congrArg₂ (fun X f => low9 X f r q) ?_ ?_
  · funext r' q'
    exact ld_channels_apply x0 o (by omega) inb 0 p r' q'
  · funext k
    show x1 _ = x1 _
    refine congrArg x1 (funext fun b => Fin.ext ?_)
    have hp := p.isLt
    have hk := k.isLt
    match b with
    | ⟨0, _⟩ => show 0 + 1 * 0 = 0; omega
    | ⟨1, _⟩ => show 0 + 1 * 0 = 0; omega
    | ⟨2, _⟩ => show 0 + 1 * 0 = 0; omega
    | ⟨3, _⟩ => show 0 + 1 * (o9 + k.val) = (o + p.val) / 16 * 9 + k.val; omega

/-! ## The pieces of the two results -/

/-- The store of group 1 into the first result holds the first result at the channels under it. -/
theorem piece_low1 (x0 : Vec Ideal S1x64x128x128 .f32) (x1 : Vec Ideal S1x1x1x36 .f32) (x : S1x16x128x128.Idx) :
    k1_pay14 (F := Ideal) (iota .tc S16x128x128 32 [2] iota_S16x128x128_d2_w32) (k1_pay6 (View.ld x1 r1_0)) (k1_pay10 (iota .tc S16x128x128 32 [1] iota_S16x128x128_d1_w32) (k1_pay5 (View.ld x0 r1_1))) (k1_pay11 (iota .tc S16x128x128 32 [1] iota_S16x128x128_d1_w32) (iota .tc S16x128x128 32 [2] iota_S16x128x128_d2_w32) (k1_pay5 (View.ld x0 r1_1)) (k1_pay6 (View.ld x1 r1_0)) (k1_pay8 (View.ld x1 r1_0) (View.ld x0 r1_1)) (k1_pay9 (View.ld x1 r1_0) (View.ld x0 r1_1))) (k1_pay12 (k1_pay6 (View.ld x1 r1_0))) x
      = lowFn x0 x1 (r1_1.emb x) := by
  obtain ⟨u, p, r, q, rfl⟩ : ∃ (u : Fin 1) (p : Fin 16) (r q : Fin 128), x = ix4 u p r q := ⟨x 0, x 1, x 2, x 3, eq_ix4 x⟩
  refine (low1 _ _ u p r q).trans ?_
  refine (low9_loaded x0 x1 0 0 0 (by omega) (by omega) (by omega) _ _ p r q).trans ?_
  refine (lowFn_ix4 x0 x1 _ r q).symm.trans ?_
  exact congrArg (lowFn x0 x1) (emb_channels 0 (by omega) _ u p r q).symm

/-- The store of group 1 into the second result holds the second result at the channels under it. -/
theorem piece_high1 (x0 : Vec Ideal S1x64x128x128 .f32) (x1 : Vec Ideal S1x1x1x36 .f32) (x : S1x16x128x128.Idx) :
    k1_pay15 (F := Ideal) (iota .tc S16x128x128 32 [2] iota_S16x128x128_d2_w32) (k1_pay5 (View.ld x0 r1_1)) (k1_pay6 (View.ld x1 r1_0)) (k1_pay10 (iota .tc S16x128x128 32 [1] iota_S16x128x128_d1_w32) (k1_pay5 (View.ld x0 r1_1))) (k1_pay11 (iota .tc S16x128x128 32 [1] iota_S16x128x128_d1_w32) (iota .tc S16x128x128 32 [2] iota_S16x128x128_d2_w32) (k1_pay5 (View.ld x0 r1_1)) (k1_pay6 (View.ld x1 r1_0)) (k1_pay8 (View.ld x1 r1_0) (View.ld x0 r1_1)) (k1_pay9 (View.ld x1 r1_0) (View.ld x0 r1_1))) (k1_pay12 (k1_pay6 (View.ld x1 r1_0))) x
      = highFn x0 x1 (r1_1.emb x) := by
  obtain ⟨u, p, r, q, rfl⟩ : ∃ (u : Fin 1) (p : Fin 16) (r q : Fin 128), x = ix4 u p r q := ⟨x 0, x 1, x 2, x 3, eq_ix4 x⟩
  refine (high1 _ _ u p r q).trans ?_
  refine (congrArg₂ (· - ·) (ld_channels_apply x0 0 (by omega) _ 0 p r q)
    (low9_loaded x0 x1 0 0 0 (by omega) (by omega) (by omega) _ _ p r q)).trans ?_
  exact congrArg (highFn x0 x1) (emb_channels 0 (by omega) _ u p r q).symm

/-- The store of group 2 into the first result holds the first result at the channels under it. -/
theorem piece_low2 (x0 : Vec Ideal S1x64x128x128 .f32) (x1 : Vec Ideal S1x1x1x36 .f32) (x : S1x16x128x128.Idx) :
    k1_pay25 (F := Ideal) (iota .tc S16x128x128 32 [1] iota_S16x128x128_d1_w32) (iota .tc S16x128x128 32 [2] iota_S16x128x128_d2_w32) (k1_pay17 (k1_pay4 (View.ld x1 r1_0))) (k1_pay21 (iota .tc S16x128x128 32 [2] iota_S16x128x128_d2_w32) (k1_pay16 (View.ld x0 r1_2)) (k1_pay17 (k1_pay4 (View.ld x1 r1_0))) (k1_pay18 (F := Ideal)) (k1_pay19 (iota .tc S16x128x128 32 [1] iota_S16x128x128_d1_w32) (View.ld x0 r1_2)) (k1_pay20 (iota .tc S16x128x128 32 [1] iota_S16x128x128_d1_w32) (iota .tc S16x128x128 32 [2] iota_S16x128x128_d2_w32) (View.ld x0 r1_2))) (k1_pay22 (k1_pay16 (View.ld x0 r1_2))) (k1_pay23 (k1_pay16 (View.ld x0 r1_2))) x
      = lowFn x0 x1 (r1_2.emb x) := by
  obtain ⟨u, p, r, q, rfl⟩ : ∃ (u : Fin 1) (p : Fin 16) (r q : Fin 128), x = ix4 u p r q := ⟨x 0, x 1, x 2, x 3, eq_ix4 x⟩
  refine (low2 _ _ u p r q).trans ?_
  refine (low9_loaded x0 x1 1 16 9 (by omega) (by omega) (by omega) _ _ p r q).trans ?_
  refine (lowFn_ix4 x0 x1 _ r q).symm.trans ?_
  exact congrArg (lowFn x0 x1) (emb_channels 16 (by omega) _ u p r q).symm

/-- The store of group 2 into the second result holds the second result at the channels under it. -/
theorem piece_high2 (x0 : Vec Ideal S1x64x128x128 .f32) (x1 : Vec Ideal S1x1x1x36 .f32) (x : S1x16x128x128.Idx) :
    k1_pay26 (F := Ideal) (iota .tc S16x128x128 32 [1] iota_S16x128x128_d1_w32) (iota .tc S16x128x128 32 [2] iota_S16x128x128_d2_w32) (k1_pay16 (View.ld x0 r1_2)) (k1_pay17 (k1_pay4 (View.ld x1 r1_0))) (k1_pay21 (iota .tc S16x128x128 32 [2] iota_S16x128x128_d2_w32) (k1_pay16 (View.ld x0 r1_2)) (k1_pay17 (k1_pay4 (View.ld x1 r1_0))) (k1_pay18 (F := Ideal)) (k1_pay19 (iota .tc S16x128x128 32 [1] iota_S16x128x128_d1_w32) (View.ld x0 r1_2)) (k1_pay20 (iota .tc S16x128x128 32 [1] iota_S16x128x128_d1_w32) (iota .tc S16x128x128 32 [2] iota_S16x128x128_d2_w32) (View.ld x0 r1_2))) (k1_pay22 (k1_pay16 (View.ld x0 r1_2))) (k1_pay23 (k1_pay16 (View.ld x0 r1_2))) x
      = highFn x0 x1 (r1_2.emb x) := by
  obtain ⟨u, p, r, q, rfl⟩ : ∃ (u : Fin 1) (p : Fin 16) (r q : Fin 128), x = ix4 u p r q := ⟨x 0, x 1, x 2, x 3, eq_ix4 x⟩
  refine (high2 _ _ u p r q).trans ?_
  refine (congrArg₂ (· - ·) (ld_channels_apply x0 16 (by omega) _ 0 p r q)
    (low9_loaded x0 x1 1 16 9 (by omega) (by omega) (by omega) _ _ p r q)).trans ?_
  exact congrArg (highFn x0 x1) (emb_channels 16 (by omega) _ u p r q).symm

/-- The store of group 3 into the first result holds the first result at the channels under it. -/
theorem piece_low3 (x0 : Vec Ideal S1x64x128x128 .f32) (x1 : Vec Ideal S1x1x1x36 .f32) (x : S1x16x128x128.Idx) :
    k1_pay36 (F := Ideal) (k1_pay32 (iota .tc S16x128x128 32 [1] iota_S16x128x128_d1_w32) (iota .tc S16x128x128 32 [2] iota_S16x128x128_d2_w32) (k1_pay27 (View.ld x0 r1_3)) (k1_pay28 (k1_pay4 (View.ld x1 r1_0))) (k1_pay29 (iota .tc S16x128x128 32 [1] iota_S16x128x128_d1_w32) (iota .tc S16x128x128 32 [2] iota_S16x128x128_d2_w32) (k1_pay4 (View.ld x1 r1_0)) (View.ld x0 r1_3)) (k1_pay30 (iota .tc S16x128x128 32 [2] iota_S16x128x128_d2_w32) (k1_pay4 (View.ld x1 r1_0)) (View.ld x0 r1_3))) (k1_pay33 (iota .tc S16x128x128 32 [1] iota_S16x128x128_d1_w32) (iota .tc S16x128x128 32 [2] iota_S16x128x128_d2_w32) (k1_pay27 (View.ld x0 r1_3))) (k1_pay34 (k1_pay28 (k1_pay4 (View.ld x1 r1_0)))) x
      = lowFn x0 x1 (r1_3.emb x) := by
  obtain ⟨u, p, r, q, rfl⟩ : ∃ (u : Fin 1) (p : Fin 16) (r q : Fin 128), x = ix4 u p r q := ⟨x 0, x 1, x 2, x 3, eq_ix4 x⟩
  refine (low3 _ _ u p r q).trans ?_
  refine (low9_loaded x0 x1 2 32 18 (by omega) (by omega) (by omega) _ _ p r q).trans ?_
  refine (lowFn_ix4 x0 x1 _ r q).symm.trans ?_
  exact congrArg (lowFn x0 x1) (emb_channels 32 (by omega) _ u p r q).symm

/-- The store of group 3 into the second result holds the second result at the channels under it. -/
theorem piece_high3 (x0 : Vec Ideal S1x64x128x128 .f32) (x1 : Vec Ideal S1x1x1x36 .f32) (x : S1x16x128x128.Idx) :
    k1_pay37 (F := Ideal) (k1_pay27 (View.ld x0 r1_3)) (k1_pay32 (iota .tc S16x128x128 32 [1] iota_S16x128x128_d1_w32) (iota .tc S16x128x128 32 [2] iota_S16x128x128_d2_w32) (k1_pay27 (View.ld x0 r1_3)) (k1_pay28 (k1_pay4 (View.ld x1 r1_0))) (k1_pay29 (iota .tc S16x128x128 32 [1] iota_S16x128x128_d1_w32) (iota .tc S16x128x128 32 [2] iota_S16x128x128_d2_w32) (k1_pay4 (View.ld x1 r1_0)) (View.ld x0 r1_3)) (k1_pay30 (iota .tc S16x128x128 32 [2] iota_S16x128x128_d2_w32) (k1_pay4 (View.ld x1 r1_0)) (View.ld x0 r1_3))) (k1_pay33 (iota .tc S16x128x128 32 [1] iota_S16x128x128_d1_w32) (iota .tc S16x128x128 32 [2] iota_S16x128x128_d2_w32) (k1_pay27 (View.ld x0 r1_3))) (k1_pay34 (k1_pay28 (k1_pay4 (View.ld x1 r1_0)))) x
      = highFn x0 x1 (r1_3.emb x) := by
  obtain ⟨u, p, r, q, rfl⟩ : ∃ (u : Fin 1) (p : Fin 16) (r q : Fin 128), x = ix4 u p r q := ⟨x 0, x 1, x 2, x 3, eq_ix4 x⟩
  refine (high3 _ _ u p r q).trans ?_
  refine (congrArg₂ (· - ·) (ld_channels_apply x0 32 (by omega) _ 0 p r q)
    (low9_loaded x0 x1 2 32 18 (by omega) (by omega) (by omega) _ _ p r q)).trans ?_
  exact congrArg (highFn x0 x1) (emb_channels 32 (by omega) _ u p r q).symm

/-- The store of group 4 into the first result holds the first result at the channels under it. -/
theorem piece_low4 (x0 : Vec Ideal S1x64x128x128 .f32) (x1 : Vec Ideal S1x1x1x36 .f32) (x : S1x16x128x128.Idx) :
    k1_pay2 (F := Ideal) (iota .tc S16x128x128 32 [2] iota_S16x128x128_d2_w32) (k1_pay39 (k1_pay4 (View.ld x1 r1_0))) (k1_pay44 (iota .tc S16x128x128 32 [2] iota_S16x128x128_d2_w32) (k1_pay38 (View.ld x0 r1_4)) (k1_pay39 (k1_pay4 (View.ld x1 r1_0))) (k1_pay41 (iota .tc S16x128x128 32 [1] iota_S16x128x128_d1_w32) (iota .tc S16x128x128 32 [2] iota_S16x128x128_d2_w32) (k1_pay4 (View.ld x1 r1_0)) (View.ld x0 r1_4)) (k1_pay42 (iota .tc S16x128x128 32 [1] iota_S16x128x128_d1_w32) (View.ld x0 r1_4)) (k1_pay43 (iota .tc S16x128x128 32 [1] iota_S16x128x128_d1_w32) (View.ld x0 r1_4))) (k1_pay45 (iota .tc S16x128x128 32 [1] iota_S16x128x128_d1_w32) (k1_pay38 (View.ld x0 r1_4))) (k1_pay46 (iota .tc S16x128x128 32 [1] iota_S16x128x128_d1_w32) (k1_pay38 (View.ld x0 r1_4))) (k1_pay47 (iota .tc S16x128x128 32 [1] iota_S16x128x128_d1_w32) (k1_pay38 (View.ld x0 r1_4))) (k1_pay48 (iota .tc S16x128x128 32 [2] iota_S16x128x128_d2_w32)) x
      = lowFn x0 x1 (r1_4.emb x) := by
  obtain ⟨u, p, r, q, rfl⟩ : ∃ (u : Fin 1) (p : Fin 16) (r q : Fin 128), x = ix4 u p r q := ⟨x 0, x 1, x 2, x 3, eq_ix4 x⟩
  refine (low4 _ _ u p r q).trans ?_
  refine (low9_loaded x0 x1 3 48 27 (by omega) (by omega) (by omega) _ _ p r q).trans ?_
  refine (lowFn_ix4 x0 x1 _ r q).symm.trans ?_
  exact congrArg (lowFn x0 x1) (emb_channels 48 (by omega) _ u p r q).symm

/-- The store of group 4 into the second result holds the second result at the channels under it. -/
theorem piece_high4 (x0 : Vec Ideal S1x64x128x128 .f32) (x1 : Vec Ideal S1x1x1x36 .f32) (x : S1x16x128x128.Idx) :
    k1_pay3 (F := Ideal) (iota .tc S16x128x128 32 [2] iota_S16x128x128_d2_w32) (k1_pay38 (View.ld x0 r1_4)) (k1_pay39 (k1_pay4 (View.ld x1 r1_0))) (k1_pay44 (iota .tc S16x128x128 32 [2] iota_S16x128x128_d2_w32) (k1_pay38 (View.ld x0 r1_4)) (k1_pay39 (k1_pay4 (View.ld x1 r1_0))) (k1_pay41 (iota .tc S16x128x128 32 [1] iota_S16x128x128_d1_w32) (iota .tc S16x128x128 32 [2] iota_S16x128x128_d2_w32) (k1_pay4 (View.ld x1 r1_0)) (View.ld x0 r1_4)) (k1_pay42 (iota .tc S16x128x128 32 [1] iota_S16x128x128_d1_w32) (View.ld x0 r1_4)) (k1_pay43 (iota .tc S16x128x128 32 [1] iota_S16x128x128_d1_w32) (View.ld x0 r1_4))) (k1_pay45 (iota .tc S16x128x128 32 [1] iota_S16x128x128_d1_w32) (k1_pay38 (View.ld x0 r1_4))) (k1_pay46 (iota .tc S16x128x128 32 [1] iota_S16x128x128_d1_w32) (k1_pay38 (View.ld x0 r1_4))) (k1_pay47 (iota .tc S16x128x128 32 [1] iota_S16x128x128_d1_w32) (k1_pay38 (View.ld x0 r1_4))) (k1_pay48 (iota .tc S16x128x128 32 [2] iota_S16x128x128_d2_w32)) x
      = highFn x0 x1 (r1_4.emb x) := by
  obtain ⟨u, p, r, q, rfl⟩ : ∃ (u : Fin 1) (p : Fin 16) (r q : Fin 128), x = ix4 u p r q := ⟨x 0, x 1, x 2, x 3, eq_ix4 x⟩
  refine (high4 _ _ u p r q).trans ?_
  refine (congrArg₂ (· - ·) (ld_channels_apply x0 48 (by omega) _ 0 p r q)
    (low9_loaded x0 x1 3 48 27 (by omega) (by omega) (by omega) _ _ p r q)).trans ?_
  exact congrArg (highFn x0 x1) (emb_channels 48 (by omega) _ u p r q).symm

/-! ## The two results -/

/-- What the body leaves in the first result's buffer, at every index. -/
theorem out1_2_eq (x0 : Vec Ideal S1x64x128x128 .f32) (x1 : Vec Ideal S1x1x1x36 .f32) (y : S1x64x128x128.Idx) :
    out1_2 (F := Ideal) x0 x1 y = lowFn x0 x1 y := by
  unfold out1_2
  refine View.canon_apply_of_pieces (lowFn x0 x1) _ ?_ y (cover1_2 _ _ _ _ y)
  intro pc hpc x
  rcases List.mem_cons.mp hpc with rfl | hpc
  · exact piece_low4 x0 x1 x
  rcases List.mem_cons.mp hpc with rfl | hpc
  · exact piece_low3 x0 x1 x
  rcases List.mem_cons.mp hpc with rfl | hpc
  · exact piece_low2 x0 x1 x
  rcases List.mem_cons.mp hpc with rfl | hpc
  · exact piece_low1 x0 x1 x
  nomatch hpc

/-- What the body leaves in the second result's buffer, at every index. -/
theorem out1_3_eq (x0 : Vec Ideal S1x64x128x128 .f32) (x1 : Vec Ideal S1x1x1x36 .f32) (y : S1x64x128x128.Idx) :
    out1_3 (F := Ideal) x0 x1 y = highFn x0 x1 y := by
  unfold out1_3
  refine View.canon_apply_of_pieces (highFn x0 x1) _ ?_ y (cover1_3 _ _ _ _ y)
  intro pc hpc x
  rcases List.mem_cons.mp hpc with rfl | hpc
  · exact piece_high4 x0 x1 x
  rcases List.mem_cons.mp hpc with rfl | hpc
  · exact piece_high3 x0 x1 x
  rcases List.mem_cons.mp hpc with rfl | hpc
  · exact piece_high2 x0 x1 x
  rcases List.mem_cons.mp hpc with rfl | hpc
  · exact piece_high1 x0 x1 x
  nomatch hpc

/-- The first result at channel cc, row r, lane q: the plane of channel cc filtered with the nine weights of its
    group cc / 16. -/
theorem out1_2_apply (x0 : Vec Ideal S1x64x128x128 .f32) (x1 : Vec Ideal S1x1x1x36 .f32) (cc : Fin 64) (r q : Fin 128) :
    Cert.KernelIdeal.Gen.out1_2 (F := Ideal) x0 x1 (ix4 (0 : Fin 1) cc r q)
      = Cert.Spec.low9 (fun r' q' => x0 (ix4 (0 : Fin 1) cc r' q'))
          (fun k => x1 (ix4 (0 : Fin 1) (0 : Fin 1) (0 : Fin 1) ⟨(cc.val / 16) * 9 + k.val, by have := cc.isLt; have := k.isLt; omega⟩)) r q :=
  (out1_2_eq x0 x1 (ix4 (0 : Fin 1) cc r q)).trans (lowFn_ix4 x0 x1 cc r q)

/-- The second result at channel cc, row r, lane q: the input there minus the first result there. -/
theorem out1_3_apply (x0 : Vec Ideal S1x64x128x128 .f32) (x1 : Vec Ideal S1x1x1x36 .f32) (cc : Fin 64) (r q : Fin 128) :
    Cert.KernelIdeal.Gen.out1_3 (F := Ideal) x0 x1 (ix4 (0 : Fin 1) cc r q)
      = x0 (ix4 (0 : Fin 1) cc r q) - Cert.Spec.low9 (fun r' q' => x0 (ix4 (0 : Fin 1) cc r' q'))
          (fun k => x1 (ix4 (0 : Fin 1) (0 : Fin 1) (0 : Fin 1) ⟨(cc.val / 16) * 9 + k.val, by have := cc.isLt; have := k.isLt; omega⟩)) r q :=
  out1_3_eq x0 x1 (ix4 (0 : Fin 1) cc r q)

end Cert.KerConv

end
-- ==== Proof.RefDefs.lean ====
/-
  The reference program's values, named: the mean over each plane, the filter weights computed from it,
  the reflect-padded input, one tap's product, the nine taps accumulated, and the two results. Each is the
  composition of the program's own operations, in the program's order, at the ideal values.
-/
import proofs.«121505_j26018911879615_2_alg».proof.ReferenceIdeal
import Idealize.ShloMosaic.PureOps.Ideal

noncomputable section

namespace Cert.RefSide

open Cert.ReferenceIdeal Cert.ReferenceIdeal.Facts₀ Idealize.ShloMosaic

variable [Cert.ReferenceIdeal.Facts]

/-- The mean of every 128×128 plane: the sum over the last two axes, divided by 16384. -/
def mean (x : FVec Ideal S8x128x128x128 .f32) : FVec Ideal S8x128 .f32 :=
  Host.divf (F := Ideal) (Host.reduceAdd (F := Ideal) x (constant (F := Ideal) S_ .f32 0x00000000#32) reducesTo_S8x128x128x128_S8x128_d2_3 h_S_) (broadcastInDim
    S8x128 ![] bcast_S_S8x128 (constant (F := Ideal) S_ .f32 0x46800000#32))

/-- The filter weights from the plane means: a linear map, a sigmoid gate through a second linear map, the
    normalisation by the four per-feature vectors, and a softmax over each group's nine entries. -/
def filt (P : FVec Ideal S8x128 .f32) (a1 : FVec Ideal S72x128 .f32) (a2 : FVec Ideal S72x72 .f32)
    (a3 a4 a5 a6 : FVec Ideal S72 .f32) : FVec Ideal S8x8x9 .f32 :=
  Host.divf (F := Ideal) (Host.exp (F := Ideal) (subf (F := Ideal) (shapeCast S8x8x9 (addf (F := Ideal) (mulf (F := Ideal) (mulf (F := Ideal) (subf (F := Ideal)
    (mulf (F := Ideal) (Host.dotGeneral (F := Ideal) dot_S8x128_S72x128_S8x72_1_1_0_0_n_n none P a1) (Host.divf (F := Ideal) (broadcastInDim S8x72 ![]
    bcast_S_S8x72 (constant (F := Ideal) S_ .f32 0x3F800000#32)) (addf (F := Ideal) (broadcastInDim S8x72 ![] bcast_S_S8x72 (constant (F := Ideal) S_ .f32
    0x3F800000#32)) (Host.exp (F := Ideal) (Host.negf (F := Ideal) (Host.dotGeneral (F := Ideal) dot_S8x72_S72x72_S8x72_1_1_0_0_n_n none (Host.dotGeneral (F :=
    Ideal) dot_S8x128_S72x128_S8x72_1_1_0_0_n_n none P a1) a2)))))) (broadcastInDim S8x72 ![0, 1] bcast_S1x72_S8x72_0_1 (broadcastInDim S1x72 ![1]
    bcast_S72_S1x72_1 a5))) (broadcastInDim S8x72 ![0, 1] bcast_S1x72_S8x72_0_1 (broadcastInDim S1x72 ![1] bcast_S72_S1x72_1 (Host.rsqrt (F := Ideal) (addf (F
    := Ideal) a6 (broadcastInDim S72 ![] bcast_S_S72 (constant (F := Ideal) S_ .f32 0x3727C5AC#32))))))) (broadcastInDim S8x72 ![0, 1] bcast_S1x72_S8x72_0_1
    (broadcastInDim S1x72 ![1] bcast_S72_S1x72_1 a3))) (broadcastInDim S8x72 ![0, 1] bcast_S1x72_S8x72_0_1 (broadcastInDim S1x72 ![1] bcast_S72_S1x72_1 a4)))
    shapeCasts_S8x72_S8x8x9) (broadcastInDim S8x8x9 ![0, 1, 2] bcast_S8x8x1_S8x8x9_0_1_2 (broadcastInDim S8x8x1 ![0, 1] bcast_S8x8_S8x8x1_0_1 (maximumf (F :=
    Ideal) (broadcastInDim S8x8 ![] bcast_S_S8x8 (constant (F := Ideal) S_ .f32 0xFF800000#32)) (Host.reduce (FloatOps.maximumf (F := Ideal)) (shapeCast S8x8x9
    (addf (F := Ideal) (mulf (F := Ideal) (mulf (F := Ideal) (subf (F := Ideal) (mulf (F := Ideal) (Host.dotGeneral (F := Ideal)
    dot_S8x128_S72x128_S8x72_1_1_0_0_n_n none P a1) (Host.divf (F := Ideal) (broadcastInDim S8x72 ![] bcast_S_S8x72 (constant (F := Ideal) S_ .f32
    0x3F800000#32)) (addf (F := Ideal) (broadcastInDim S8x72 ![] bcast_S_S8x72 (constant (F := Ideal) S_ .f32 0x3F800000#32)) (Host.exp (F := Ideal) (Host.negf
    (F := Ideal) (Host.dotGeneral (F := Ideal) dot_S8x72_S72x72_S8x72_1_1_0_0_n_n none (Host.dotGeneral (F := Ideal) dot_S8x128_S72x128_S8x72_1_1_0_0_n_n none P
    a1) a2)))))) (broadcastInDim S8x72 ![0, 1] bcast_S1x72_S8x72_0_1 (broadcastInDim S1x72 ![1] bcast_S72_S1x72_1 a5))) (broadcastInDim S8x72 ![0, 1]
    bcast_S1x72_S8x72_0_1 (broadcastInDim S1x72 ![1] bcast_S72_S1x72_1 (Host.rsqrt (F := Ideal) (addf (F := Ideal) a6 (broadcastInDim S72 ![] bcast_S_S72
    (constant (F := Ideal) S_ .f32 0x3727C5AC#32))))))) (broadcastInDim S8x72 ![0, 1] bcast_S1x72_S8x72_0_1 (broadcastInDim S1x72 ![1] bcast_S72_S1x72_1 a3)))
    (broadcastInDim S8x72 ![0, 1] bcast_S1x72_S8x72_0_1 (broadcastInDim S1x72 ![1] bcast_S72_S1x72_1 a4))) shapeCasts_S8x72_S8x8x9) (constant (F := Ideal) S_
    .f32 0xFF800000#32) reducesTo_S8x8x9_S8x8_d2 h_S_)))))) (broadcastInDim S8x8x9 ![0, 1, 2] bcast_S8x8x1_S8x8x9_0_1_2 (broadcastInDim S8x8x1 ![0, 1]
    bcast_S8x8_S8x8x1_0_1 (Host.reduceAdd (F := Ideal) (Host.exp (F := Ideal) (subf (F := Ideal) (shapeCast S8x8x9 (addf (F := Ideal) (mulf (F := Ideal) (mulf
    (F := Ideal) (subf (F := Ideal) (mulf (F := Ideal) (Host.dotGeneral (F := Ideal) dot_S8x128_S72x128_S8x72_1_1_0_0_n_n none P a1) (Host.divf (F := Ideal)
    (broadcastInDim S8x72 ![] bcast_S_S8x72 (constant (F := Ideal) S_ .f32 0x3F800000#32)) (addf (F := Ideal) (broadcastInDim S8x72 ![] bcast_S_S8x72 (constant
    (F := Ideal) S_ .f32 0x3F800000#32)) (Host.exp (F := Ideal) (Host.negf (F := Ideal) (Host.dotGeneral (F := Ideal) dot_S8x72_S72x72_S8x72_1_1_0_0_n_n none
    (Host.dotGeneral (F := Ideal) dot_S8x128_S72x128_S8x72_1_1_0_0_n_n none P a1) a2)))))) (broadcastInDim S8x72 ![0, 1] bcast_S1x72_S8x72_0_1 (broadcastInDim
    S1x72 ![1] bcast_S72_S1x72_1 a5))) (broadcastInDim S8x72 ![0, 1] bcast_S1x72_S8x72_0_1 (broadcastInDim S1x72 ![1] bcast_S72_S1x72_1 (Host.rsqrt (F := Ideal)
    (addf (F := Ideal) a6 (broadcastInDim S72 ![] bcast_S_S72 (constant (F := Ideal) S_ .f32 0x3727C5AC#32))))))) (broadcastInDim S8x72 ![0, 1]
    bcast_S1x72_S8x72_0_1 (broadcastInDim S1x72 ![1] bcast_S72_S1x72_1 a3))) (broadcastInDim S8x72 ![0, 1] bcast_S1x72_S8x72_0_1 (broadcastInDim S1x72 ![1]
    bcast_S72_S1x72_1 a4))) shapeCasts_S8x72_S8x8x9) (broadcastInDim S8x8x9 ![0, 1, 2] bcast_S8x8x1_S8x8x9_0_1_2 (broadcastInDim S8x8x1 ![0, 1]
    bcast_S8x8_S8x8x1_0_1 (maximumf (F := Ideal) (broadcastInDim S8x8 ![] bcast_S_S8x8 (constant (F := Ideal) S_ .f32 0xFF800000#32)) (Host.reduce
    (FloatOps.maximumf (F := Ideal)) (shapeCast S8x8x9 (addf (F := Ideal) (mulf (F := Ideal) (mulf (F := Ideal) (subf (F := Ideal) (mulf (F := Ideal)
    (Host.dotGeneral (F := Ideal) dot_S8x128_S72x128_S8x72_1_1_0_0_n_n none P a1) (Host.divf (F := Ideal) (broadcastInDim S8x72 ![] bcast_S_S8x72 (constant (F
    := Ideal) S_ .f32 0x3F800000#32)) (addf (F := Ideal) (broadcastInDim S8x72 ![] bcast_S_S8x72 (constant (F := Ideal) S_ .f32 0x3F800000#32)) (Host.exp (F :=
    Ideal) (Host.negf (F := Ideal) (Host.dotGeneral (F := Ideal) dot_S8x72_S72x72_S8x72_1_1_0_0_n_n none (Host.dotGeneral (F := Ideal)
    dot_S8x128_S72x128_S8x72_1_1_0_0_n_n none P a1) a2)))))) (broadcastInDim S8x72 ![0, 1] bcast_S1x72_S8x72_0_1 (broadcastInDim S1x72 ![1] bcast_S72_S1x72_1
    a5))) (broadcastInDim S8x72 ![0, 1] bcast_S1x72_S8x72_0_1 (broadcastInDim S1x72 ![1] bcast_S72_S1x72_1 (Host.rsqrt (F := Ideal) (addf (F := Ideal) a6
    (broadcastInDim S72 ![] bcast_S_S72 (constant (F := Ideal) S_ .f32 0x3727C5AC#32))))))) (broadcastInDim S8x72 ![0, 1] bcast_S1x72_S8x72_0_1 (broadcastInDim
    S1x72 ![1] bcast_S72_S1x72_1 a3))) (broadcastInDim S8x72 ![0, 1] bcast_S1x72_S8x72_0_1 (broadcastInDim S1x72 ![1] bcast_S72_S1x72_1 a4)))
    shapeCasts_S8x72_S8x8x9) (constant (F := Ideal) S_ .f32 0xFF800000#32) reducesTo_S8x8x9_S8x8_d2 h_S_)))))) (constant (F := Ideal) S_ .f32 0x00000000#32)
    reducesTo_S8x8x9_S8x8_d2 h_S_)))

/-- Row 1 put in front of the 128 rows. -/
def rows129 (x : FVec Ideal S8x128x128x128 .f32) : FVec Ideal S8x128x129x128 .f32 :=
  concatenate S8x128x129x128 2
    [⟨S8x128x1x128, Host.reverse [2] (extractStridedSlice S8x128x1x128 ![0, 0, 1, 0] x slices_S8x128x128x128_S8x128x1x128_0_0_1_0)⟩,
     ⟨S8x128x128x128, x⟩] concatenates_S8x128x1x128_S8x128x128x128_S8x128x129x128_d2

/-- The rows reflect-padded: row 1, the 128 rows, row 126. -/
def padRows (x : FVec Ideal S8x128x128x128 .f32) : FVec Ideal S8x128x130x128 .f32 :=
  concatenate S8x128x130x128 2
    [⟨S8x128x129x128, rows129 x⟩,
     ⟨S8x128x1x128, Host.reverse [2] (extractStridedSlice S8x128x1x128 ![0, 0, 127, 0] (rows129 x) slices_S8x128x129x128_S8x128x1x128_0_0_127_0)⟩]
    concatenates_S8x128x129x128_S8x128x1x128_S8x128x130x128_d2

/-- Column 1 put in front of the 128 columns. -/
def cols129 (y : FVec Ideal S8x128x130x128 .f32) : FVec Ideal S8x128x130x129 .f32 :=
  concatenate S8x128x130x129 3
    [⟨S8x128x130x1, Host.reverse [3] (extractStridedSlice S8x128x130x1 ![0, 0, 0, 1] y slices_S8x128x130x128_S8x128x130x1_0_0_0_1)⟩,
     ⟨S8x128x130x128, y⟩] concatenates_S8x128x130x1_S8x128x130x128_S8x128x130x129_d3

/-- The columns reflect-padded: column 1, the 128 columns, column 126. -/
def padCols (y : FVec Ideal S8x128x130x128 .f32) : FVec Ideal S8x128x130x130 .f32 :=
  concatenate S8x128x130x130 3
    [⟨S8x128x130x129, cols129 y⟩,
     ⟨S8x128x130x1, Host.reverse [3] (extractStridedSlice S8x128x130x1 ![0, 0, 0, 127] (cols129 y) slices_S8x128x130x129_S8x128x130x1_0_0_0_127)⟩]
    concatenates_S8x128x130x129_S8x128x130x1_S8x128x130x130_d3

/-- The input reflect-padded by one place on each side of its last two axes. -/
def pad (x : FVec Ideal S8x128x128x128 .f32) : FVec Ideal S8x128x130x130 .f32 := padCols (padRows x)

/-- One tap: the 128×128 window of the padded input at a row and column offset, with the channels split into
    eight groups of sixteen, times that tap's weight of each group, broadcast over the group's channels and the plane. -/
def tap (off : Fin 4 → Nat) (hs : S8x128x130x130.Slices off S8x128x128x128) (k : Fin 3 → Nat) (hk : S8x8x9.Slices k S8x8x1)
    (xp : FVec Ideal S8x128x130x130 .f32) (f : FVec Ideal S8x8x9 .f32) : FVec Ideal S8x8x16x128x128 .f32 :=
  mulf (F := Ideal)
    (shapeCast S8x8x16x128x128 (extractStridedSlice S8x128x128x128 off xp hs) shapeCasts_S8x128x128x128_S8x8x16x128x128)
    (broadcastInDim S8x8x16x128x128 ![0, 1, 2, 3, 4] bcast_S8x8x1x1x1_S8x8x16x128x128_0_1_2_3_4
      (broadcastInDim S8x8x1x1x1 ![0, 1] bcast_S8x8_S8x8x1x1x1_0_1
        (shapeCast S8x8 (extractStridedSlice S8x8x1 k f hk) shapeCasts_S8x8x1_S8x8)))

/-- Zero plus the nine taps, added in the order of the taps. -/
def acc (xp : FVec Ideal S8x128x130x130 .f32) (f : FVec Ideal S8x8x9 .f32) : FVec Ideal S8x8x16x128x128 .f32 :=
  (addf (F := Ideal) (addf (F := Ideal) (addf (F := Ideal) (addf (F := Ideal) (addf (F := Ideal) (addf (F := Ideal) (addf (F := Ideal) (addf (F := Ideal) (addf (F := Ideal) (broadcastInDim S8x8x16x128x128 ![] bcast_S_S8x8x16x128x128 (constant (F := Ideal) S_ .f32 0x00000000#32))
    (tap ![0, 0, 0, 0] slices_S8x128x130x130_S8x128x128x128_0_0_0_0 ![0, 0, 0] slices_S8x8x9_S8x8x1_0_0_0 xp f))
    (tap ![0, 0, 0, 1] slices_S8x128x130x130_S8x128x128x128_0_0_0_1 ![0, 0, 1] slices_S8x8x9_S8x8x1_0_0_1 xp f))
    (tap ![0, 0, 0, 2] slices_S8x128x130x130_S8x128x128x128_0_0_0_2 ![0, 0, 2] slices_S8x8x9_S8x8x1_0_0_2 xp f))
    (tap ![0, 0, 1, 0] slices_S8x128x130x130_S8x128x128x128_0_0_1_0 ![0, 0, 3] slices_S8x8x9_S8x8x1_0_0_3 xp f))
    (tap ![0, 0, 1, 1] slices_S8x128x130x130_S8x128x128x128_0_0_1_1 ![0, 0, 4] slices_S8x8x9_S8x8x1_0_0_4 xp f))
    (tap ![0, 0, 1, 2] slices_S8x128x130x130_S8x128x128x128_0_0_1_2 ![0, 0, 5] slices_S8x8x9_S8x8x1_0_0_5 xp f))
    (tap ![0, 0, 2, 0] slices_S8x128x130x130_S8x128x128x128_0_0_2_0 ![0, 0, 6] slices_S8x8x9_S8x8x1_0_0_6 xp f))
    (tap ![0, 0, 2, 1] slices_S8x128x130x130_S8x128x128x128_0_0_2_1 ![0, 0, 7] slices_S8x8x9_S8x8x1_0_0_7 xp f))
    (tap ![0, 0, 2, 2] slices_S8x128x130x130_S8x128x128x128_0_0_2_2 ![0, 0, 8] slices_S8x8x9_S8x8x1_0_0_8 xp f))

/-- The first result: the accumulated taps with the channel groups merged back into one axis. -/
def lowT (xp : FVec Ideal S8x128x130x130 .f32) (f : FVec Ideal S8x8x9 .f32) : FVec Ideal S8x128x128x128 .f32 :=
  shapeCast S8x128x128x128 (acc xp f) shapeCasts_S8x8x16x128x128_S8x128x128x128

/-- The second result: the input minus the first result. -/
def highT (x : FVec Ideal S8x128x128x128 .f32) (xp : FVec Ideal S8x128x130x130 .f32) (f : FVec Ideal S8x8x9 .f32) :
    FVec Ideal S8x128x128x128 .f32 :=
  subf (F := Ideal) x (lowT xp f)

end Cert.RefSide

end
-- ==== Proof.RefPad.lean ====
/-
  The reference's reflect padding read at an index.

  The 128 rows of every plane get row 1 in front and row 126 behind, then the 128 columns get column 1 in
  front and column 126 behind: place a ∈ {0, …, 129} of a padded axis holds place 1 at a = 0, place a − 1 for
  1 ≤ a ≤ 128, and place 126 at a = 129.
-/
import proofs.«121505_j26018911879615_2_alg».proof.Proof.RefDefs
import Idealize.ShloMosaic.Lib.ValueIdx
import Idealize.ShloMosaic.Lib.Pipeline.Value

noncomputable section

namespace Cert.RefSide

open Cert.ReferenceIdeal Cert.ReferenceIdeal.Facts₀ Idealize.ShloMosaic Idealize.ShloMosaic.ValueIdx

variable [Cert.ReferenceIdeal.Facts]

/-- The place of the unpadded axis that place a of the front-padded axis (129 places) holds. -/
def frontI (a : Fin 129) : Fin 128 := ⟨if a.val = 0 then 1 else a.val - 1, by have := a.isLt; split_ifs <;> omega⟩

/-- The place of the unpadded axis that place a of the padded axis (130 places) holds. -/
def padI (a : Fin 130) : Fin 128 :=
  ⟨if a.val = 0 then 1 else if a.val = 129 then 126 else a.val - 1, by have := a.isLt; split_ifs <;> omega⟩

/-- Row 1 of the array, cut out as one row and reversed along that one-place axis. -/
theorem row_one (y : FVec Ideal S8x128x128x128 .f32) (n : Fin 8) (C : Fin 128) (z : Fin 1) (q : Fin 128) :
    Host.reverse [2] (extractStridedSlice S8x128x1x128 ![0, 0, 1, 0] y slices_S8x128x128x128_S8x128x1x128_0_0_1_0) (ix4 n C z q)
      = y (ix4 n C (1 : Fin 128) q) := by
  unfold Host.reverse
  refine extractStridedSlice_apply _ y _ _ (ix4 n C (1 : Fin 128) q) ?_
  intro a
  have hz : z.val = 0 := by have := z.isLt; omega
  match a with
  | ⟨0, _⟩ => show n.val = 0 + n.val; omega
  | ⟨1, _⟩ => show C.val = 0 + C.val; omega
  | ⟨2, _⟩ => show 1 = 1 + (1 - (z.val + 1)); omega
  | ⟨3, _⟩ => show q.val = 0 + q.val; omega

/-- The rows with row 1 put in front, at place a. -/
theorem rows129_apply (x : FVec Ideal S8x128x128x128 .f32) (n : Fin 8) (C : Fin 128) (a : Fin 129) (q : Fin 128) :
    rows129 x (ix4 n C a q) = x (ix4 n C (frontI a) q) := by
  unfold rows129
  by_cases ha : a.val = 0
  · refine (concatenate_pair_apply_left 2 _ _ concatenates_S8x128x1x128_S8x128x128x128_S8x128x129x128_d2 (ix4 n C a q) rfl
      (ix4 n C (0 : Fin 1) q) ?_).trans ((row_one x n C 0 q).trans (congrArg x ?_))
    · intro b
      match b with
      | ⟨0, _⟩ => rfl
      | ⟨1, _⟩ => rfl
      | ⟨2, _⟩ => exact ha.symm
      | ⟨3, _⟩ => rfl
    · funext b; apply Fin.ext
      match b with
      | ⟨0, _⟩ => rfl
      | ⟨1, _⟩ => rfl
      | ⟨2, _⟩ => show 1 = if a.val = 0 then 1 else a.val - 1; rw [if_pos ha]
      | ⟨3, _⟩ => rfl
  · refine (concatenate_pair_apply_right 2 _ _ concatenates_S8x128x1x128_S8x128x128x128_S8x128x129x128_d2 (ix4 n C a q) rfl rfl
      (ix4 n C (frontI a) q) ?_ ?_)
    · intro b hb
      match b with
      | ⟨0, _⟩ => rfl
      | ⟨1, _⟩ => rfl
      | ⟨2, _⟩ => exact absurd rfl hb
      | ⟨3, _⟩ => rfl
    · show (if a.val = 0 then 1 else a.val - 1) + 1 = a.val
      rw [if_neg ha]; omega

/-- Row 127 of the front-padded rows (which is row 126), cut out and reversed along its one-place axis. -/
theorem row_last (y : FVec Ideal S8x128x129x128 .f32) (n : Fin 8) (C : Fin 128) (z : Fin 1) (q : Fin 128) :
    Host.reverse [2] (extractStridedSlice S8x128x1x128 ![0, 0, 127, 0] y slices_S8x128x129x128_S8x128x1x128_0_0_127_0) (ix4 n C z q)
      = y (ix4 n C (127 : Fin 129) q) := by
  unfold Host.reverse
  refine extractStridedSlice_apply _ y _ _ (ix4 n C (127 : Fin 129) q) ?_
  intro a
  have hz : z.val = 0 := by have := z.isLt; omega
  match a with
  | ⟨0, _⟩ => show n.val = 0 + n.val; omega
  | ⟨1, _⟩ => show C.val = 0 + C.val; omega
  | ⟨2, _⟩ => show 127 = 127 + (1 - (z.val + 1)); omega
  | ⟨3, _⟩ => show q.val = 0 + q.val; omega

/-- The reflect-padded rows at place a. -/
theorem padRows_apply (x : FVec Ideal S8x128x128x128 .f32) (n : Fin 8) (C : Fin 128) (a : Fin 130) (q : Fin 128) :
    padRows x (ix4 n C a q) = x (ix4 n C (padI a) q) := by
  unfold padRows
  by_cases ha : a.val = 129
  · refine (concatenate_pair_apply_right 2 _ _ concatenates_S8x128x129x128_S8x128x1x128_S8x128x130x128_d2 (ix4 n C a q) rfl rfl
      (ix4 n C (0 : Fin 1) q) ?_ ?_).trans ((row_last (rows129 x) n C 0 q).trans ((rows129_apply x n C 127 q).trans (congrArg x ?_)))
    · intro b hb
      match b with
      | ⟨0, _⟩ => rfl
      | ⟨1, _⟩ => rfl
      | ⟨2, _⟩ => exact absurd rfl hb
      | ⟨3, _⟩ => rfl
    · show 0 + 129 = a.val; omega
    · funext b; apply Fin.ext
      match b with
      | ⟨0, _⟩ => rfl
      | ⟨1, _⟩ => rfl
      | ⟨2, _⟩ =>
        show (if (127 : Fin 129).val = 0 then 1 else (127 : Fin 129).val - 1) = if a.val = 0 then 1 else if a.val = 129 then 126 else a.val - 1
        have h0 : ¬ a.val = 0 := by omega
        rw [if_neg h0, if_pos ha]; rfl
      | ⟨3, _⟩ => rfl
  · have hlt : a.val < 129 := by have := a.isLt; omega
    refine (concatenate_pair_apply_left 2 _ _ concatenates_S8x128x129x128_S8x128x1x128_S8x128x130x128_d2 (ix4 n C a q) rfl
      (ix4 n C (⟨a.val, hlt⟩ : Fin 129) q) ?_).trans ((rows129_apply x n C ⟨a.val, hlt⟩ q).trans (congrArg x ?_))
    · intro b
      match b with
      | ⟨0, _⟩ => rfl
      | ⟨1, _⟩ => rfl
      | ⟨2, _⟩ => rfl
      | ⟨3, _⟩ => rfl
    · funext b; apply Fin.ext
      match b with
      | ⟨0, _⟩ => rfl
      | ⟨1, _⟩ => rfl
      | ⟨2, _⟩ =>
        show (if a.val = 0 then 1 else a.val - 1) = if a.val = 0 then 1 else if a.val = 129 then 126 else a.val - 1
        rw [if_neg ha]
      | ⟨3, _⟩ => rfl

/-- Column 1 of the array, cut out as one column and reversed along that one-place axis. -/
theorem col_one (y : FVec Ideal S8x128x130x128 .f32) (n : Fin 8) (C : Fin 128) (a : Fin 130) (z : Fin 1) :
    Host.reverse [3] (extractStridedSlice S8x128x130x1 ![0, 0, 0, 1] y slices_S8x128x130x128_S8x128x130x1_0_0_0_1) (ix4 n C a z)
      = y (ix4 n C a (1 : Fin 128)) := by
  unfold Host.reverse
  refine extractStridedSlice_apply _ y _ _ (ix4 n C a (1 : Fin 128)) ?_
  intro b
  have hz : z.val = 0 := by have := z.isLt; omega
  match b with
  | ⟨0, _⟩ => show n.val = 0 + n.val; omega
  | ⟨1, _⟩ => show C.val = 0 + C.val; omega
  | ⟨2, _⟩ => show a.val = 0 + a.val; omega
  | ⟨3, _⟩ => show 1 = 1 + (1 - (z.val + 1)); omega

/-- The columns with column 1 put in front, at place b. -/
theorem cols129_apply (y : FVec Ideal S8x128x130x128 .f32) (n : Fin 8) (C : Fin 128) (a : Fin 130) (b : Fin 129) :
    cols129 y (ix4 n C a b) = y (ix4 n C a (frontI b)) := by
  unfold cols129
  by_cases hb : b.val = 0
  · refine (concatenate_pair_apply_left 3 _ _ concatenates_S8x128x130x1_S8x128x130x128_S8x128x130x129_d3 (ix4 n C a b) rfl
      (ix4 n C a (0 : Fin 1)) ?_).trans ((col_one y n C a 0).trans (congrArg y ?_))
    · intro d
      match d with
      | ⟨0, _⟩ => rfl
      | ⟨1, _⟩ => rfl
      | ⟨2, _⟩ => rfl
      | ⟨3, _⟩ => exact hb.symm
    · funext d; apply Fin.ext
      match d with
      | ⟨0, _⟩ => rfl
      | ⟨1, _⟩ => rfl
      | ⟨2, _⟩ => rfl
      | ⟨3, _⟩ => show 1 = if b.val = 0 then 1 else b.val - 1; rw [if_pos hb]
  · refine (concatenate_pair_apply_right 3 _ _ concatenates_S8x128x130x1_S8x128x130x128_S8x128x130x129_d3 (ix4 n C a b) rfl rfl
      (ix4 n C a (frontI b)) ?_ ?_)
    · intro d hd
      match d with
      | ⟨0, _⟩ => rfl
      | ⟨1, _⟩ => rfl
      | ⟨2, _⟩ => rfl
      | ⟨3, _⟩ => exact absurd rfl hd
    · show (if b.val = 0 then 1 else b.val - 1) + 1 = b.val
      rw [if_neg hb]; omega

/-- Column 127 of the front-padded columns (which is column 126), cut out and reversed along its one-place axis. -/
theorem col_last (y : FVec Ideal S8x128x130x129 .f32) (n : Fin 8) (C : Fin 128) (a : Fin 130) (z : Fin 1) :
    Host.reverse [3] (extractStridedSlice S8x128x130x1 ![0, 0, 0, 127] y slices_S8x128x130x129_S8x128x130x1_0_0_0_127) (ix4 n C a z)
      = y (ix4 n C a (127 : Fin 129)) := by
  unfold Host.reverse
  refine extractStridedSlice_apply _ y _ _ (ix4 n C a (127 : Fin 129)) ?_
  intro b
  have hz : z.val = 0 := by have := z.isLt; omega
  match b with
  | ⟨0, _⟩ => show n.val = 0 + n.val; omega
  | ⟨1, _⟩ => show C.val = 0 + C.val; omega
  | ⟨2, _⟩ => show a.val = 0 + a.val; omega
  | ⟨3, _⟩ => show 127 = 127 + (1 - (z.val + 1)); omega

/-- The reflect-padded columns at place b. -/
theorem padCols_apply (y : FVec Ideal S8x128x130x128 .f32) (n : Fin 8) (C : Fin 128) (a : Fin 130) (b : Fin 130) :
    padCols y (ix4 n C a b) = y (ix4 n C a (padI b)) := by
  unfold padCols
  by_cases hb : b.val = 129
  · refine (concatenate_pair_apply_right 3 _ _ concatenates_S8x128x130x129_S8x128x130x1_S8x128x130x130_d3 (ix4 n C a b) rfl rfl
      (ix4 n C a (0 : Fin 1)) ?_ ?_).trans ((col_last (cols129 y) n C a 0).trans ((cols129_apply y n C a 127).trans (congrArg y ?_)))
    · intro d hd
      match d with
      | ⟨0, _⟩ => rfl
      | ⟨1, _⟩ => rfl
      | ⟨2, _⟩ => rfl
      | ⟨3, _⟩ => exact absurd rfl hd
    · show 0 + 129 = b.val; omega
    · funext d; apply Fin.ext
      match d with
      | ⟨0, _⟩ => rfl
      | ⟨1, _⟩ => rfl
      | ⟨2, _⟩ => rfl
      | ⟨3, _⟩ =>
        show (if (127 : Fin 129).val = 0 then 1 else (127 : Fin 129).val - 1) = if b.val = 0 then 1 else if b.val = 129 then 126 else b.val - 1
        have h0 : ¬ b.val = 0 := by omega
        rw [if_neg h0, if_pos hb]; rfl
  · have hlt : b.val < 129 := by have := b.isLt; omega
    refine (concatenate_pair_apply_left 3 _ _ concatenates_S8x128x130x129_S8x128x130x1_S8x128x130x130_d3 (ix4 n C a b) rfl
      (ix4 n C a (⟨b.val, hlt⟩ : Fin 129)) ?_).trans ((cols129_apply y n C a ⟨b.val, hlt⟩).trans (congrArg y ?_))
    · intro d
      match d with
      | ⟨0, _⟩ => rfl
      | ⟨1, _⟩ => rfl
      | ⟨2, _⟩ => rfl
      | ⟨3, _⟩ => rfl
    · funext d; apply Fin.ext
      match d with
      | ⟨0, _⟩ => rfl
      | ⟨1, _⟩ => rfl
      | ⟨2, _⟩ => rfl
      | ⟨3, _⟩ =>
        show (if b.val = 0 then 1 else b.val - 1) = if b.val = 0 then 1 else if b.val = 129 then 126 else b.val - 1
        rw [if_neg hb]

/-- The padded array at (n, C, a, b) is the input at the reflected places. -/
theorem pad_apply (x : FVec Ideal S8x128x128x128 .f32) (n : Fin 8) (C : Fin 128) (a b : Fin 130) :
    pad x (ix4 n C a b) = x (ix4 n C (padI a) (padI b)) := by
  unfold pad
  rw [padCols_apply, padRows_apply]

end Cert.RefSide

end
-- ==== Proof.RefTaps.lean ====
/-
  The reference's nine taps read at an index, and its two results as the specification.

  Tap (i, j) multiplies the padded input's 128×128 window at row offset i and column offset j, its 128
  channels regrouped as 8 groups of 16, by weight 3·i + j of each group: at (n, C, r, q) it is the padded
  input at (n, C, r + i, q + j) times weight (n, C / 16, 3·i + j). The padded input at place r + i of an axis is
  the input at the reflected place `nb i r`. Adding the nine taps to zero in order gives the specification's
  filtered plane; the second result subtracts it from the input.
-/
import proofs.«121505_j26018911879615_2_alg».proof.Proof.RefPad
import proofs.«121505_j26018911879615_2_alg».proof.Proof.Spec
import Idealize.ShloMosaic.Lib.IdealHost

noncomputable section

namespace Cert.RefSide

open Cert.ReferenceIdeal Cert.ReferenceIdeal.Facts₀ Idealize.ShloMosaic Idealize.ShloMosaic.ValueIdx
open Cert.Spec

variable [Cert.ReferenceIdeal.Facts]

/-- Place r + i of a padded axis holds the place the specification's tap i reads. -/
theorem padI_add (iF : Fin 3) (i : Nat) (hiF : iF.val = i) (r : Fin 128) (h : r.val + i < 130) :
    padI ⟨r.val + i, h⟩ = nb iF r := by
  apply Fin.ext
  show (if r.val + i = 0 then 1 else if r.val + i = 129 then 126 else r.val + i - 1) = nbv iF.val r.val
  rw [hiF]
  unfold nbv
  have hr := r.isLt
  have hi : i ≤ 2 := by have := iF.isLt; omega
  rcases (by omega : i = 0 ∨ i = 1 ∨ i = 2) with rfl | rfl | rfl
  · by_cases h0 : r.val = 0
    · rw [if_pos (by omega), if_pos rfl, if_pos h0]
    · rw [if_neg (by omega), if_neg (by omega), if_pos rfl, if_neg h0]; omega
  · rw [if_neg (by omega), if_neg (by omega), if_neg (by omega), if_pos rfl]; omega
  · by_cases h0 : r.val = 127
    · rw [if_neg (by omega), if_pos (by omega), if_neg (by omega), if_neg (by omega), if_pos h0]
    · rw [if_neg (by omega), if_neg (by omega), if_neg (by omega), if_neg (by omega), if_neg h0]; omega

/-- One tap at (n, C / 16, C mod 16, r, q): the padded input at the window's offsets times the group's weight. -/
theorem tap_apply (off : Fin 4 → Nat) (hs : S8x128x130x130.Slices off S8x128x128x128) (k : Fin 3 → Nat) (hk : S8x8x9.Slices k S8x8x1)
    (xp : FVec Ideal S8x128x130x130 .f32) (f : FVec Ideal S8x8x9 .f32)
    (i j : Nat) (h0 : off 0 = 0) (h1 : off 1 = 0) (h2 : off 2 = i) (h3 : off 3 = j) (hi : i ≤ 2) (hj : j ≤ 2)
    (k0 : k 0 = 0) (k1 : k 1 = 0) (kF : Fin 9) (k2 : k 2 = kF.val)
    (n : Fin 8) (C : Fin 128) (r q : Fin 128) :
    tap off hs k hk xp f (ix5 n (grp C) (⟨C.val % 16, by omega⟩ : Fin 16) r q)
      = xp (ix4 n C (⟨r.val + i, by have := r.isLt; omega⟩ : Fin 130) (⟨q.val + j, by have := q.isLt; omega⟩ : Fin 130))
        * f (ix3 n (grp C) kF) := by
  unfold tap
  rw [mulf_apply]
  have hC := C.isLt; have hr := r.isLt; have hq := q.isLt; have hn := n.isLt
  have e1 : shapeCast S8x8x16x128x128 (extractStridedSlice S8x128x128x128 off xp hs) shapeCasts_S8x128x128x128_S8x8x16x128x128
      (ix5 n (grp C) (⟨C.val % 16, by omega⟩ : Fin 16) r q)
      = xp (ix4 n C (⟨r.val + i, by omega⟩ : Fin 130) (⟨q.val + j, by omega⟩ : Fin 130)) := by
    refine (shapeCast_apply _ _ _ (ix4 n C r q) ?_).trans ?_
    · rw [Shape.rowMajor_val_four, Shape.rowMajor_val_five]
      show ((n.val * 128 + C.val) * 128 + r.val) * 128 + q.val = (((n.val * 8 + C.val / 16) * 16 + C.val % 16) * 128 + r.val) * 128 + q.val
      omega
    · refine extractStridedSlice_apply off xp hs _ _ ?_
      intro a
      match a with
      | ⟨0, _⟩ => show n.val = off 0 + n.val; omega
      | ⟨1, _⟩ => show C.val = off 1 + C.val; omega
      | ⟨2, _⟩ => show r.val + i = off 2 + r.val; omega
      | ⟨3, _⟩ => show q.val + j = off 3 + q.val; omega
  have e2 : broadcastInDim S8x8x16x128x128 ![0, 1, 2, 3, 4] bcast_S8x8x1x1x1_S8x8x16x128x128_0_1_2_3_4
      (broadcastInDim S8x8x1x1x1 ![0, 1] bcast_S8x8_S8x8x1x1x1_0_1
        (shapeCast S8x8 (extractStridedSlice S8x8x1 k f hk) shapeCasts_S8x8x1_S8x8))
      (ix5 n (grp C) (⟨C.val % 16, by omega⟩ : Fin 16) r q)
      = f (ix3 n (grp C) kF) := by
    refine (broadcastInDim_apply (s := S8x8x1x1x1) (t := S8x8x16x128x128) ![0, 1, 2, 3, 4] _ _ _ (ix5 n (grp C) (0 : Fin 1) (0 : Fin 1) (0 : Fin 1)) ?_).trans ?_
    · intro a
      match a with
      | ⟨0, _⟩ => rfl
      | ⟨1, _⟩ => rfl
      | ⟨2, _⟩ => rfl
      | ⟨3, _⟩ => rfl
      | ⟨4, _⟩ => rfl
    refine (broadcastInDim_apply (s := S8x8) (t := S8x8x1x1x1) ![0, 1] _ _ _ (ix2 n (grp C)) ?_).trans ?_
    · intro a
      match a with
      | ⟨0, _⟩ => rfl
      | ⟨1, _⟩ => rfl
    refine (shapeCast_apply _ _ _ (ix3 n (grp C) (0 : Fin 1)) ?_).trans ?_
    · rw [Shape.rowMajor_val_three, Shape.rowMajor_val_two]
      show (n.val * 8 + C.val / 16) * 1 + 0 = n.val * 8 + C.val / 16
      omega
    · refine extractStridedSlice_apply k f hk _ _ ?_
      intro a
      match a with
      | ⟨0, _⟩ => show n.val = k 0 + n.val; omega
      | ⟨1, _⟩ => show C.val / 16 = k 1 + C.val / 16; omega
      | ⟨2, _⟩ => show kF.val = k 2 + 0; omega
  rw [e1, e2]

/-- One tap of the padded input: the input at the reflected places times the group's weight. -/
theorem tap_pad (off : Fin 4 → Nat) (hs : S8x128x130x130.Slices off S8x128x128x128) (k : Fin 3 → Nat) (hk : S8x8x9.Slices k S8x8x1)
    (x : FVec Ideal S8x128x128x128 .f32) (f : FVec Ideal S8x8x9 .f32) (iF jF : Fin 3)
    (h0 : off 0 = 0) (h1 : off 1 = 0) (h2 : off 2 = iF.val) (h3 : off 3 = jF.val)
    (k0 : k 0 = 0) (k1 : k 1 = 0) (kF : Fin 9) (k2 : k 2 = kF.val) (n : Fin 8) (C r q : Fin 128) :
    tap off hs k hk (pad x) f (ix5 n (grp C) (⟨C.val % 16, by omega⟩ : Fin 16) r q)
      = x (ix4 n C (nb iF r) (nb jF q)) * f (ix3 n (grp C) kF) := by
  have hi := iF.isLt; have hj := jF.isLt; have hr := r.isLt; have hq := q.isLt
  rw [tap_apply off hs k hk (pad x) f iF.val jF.val h0 h1 h2 h3 (by omega) (by omega) k0 k1 kF k2 n C r q, pad_apply,
    padI_add iF iF.val rfl r (by omega), padI_add jF jF.val rfl q (by omega)]

/-- Ten extended reals added from the left, term by term. -/
theorem add10 {a0 a1 a2 a3 a4 a5 a6 a7 a8 a9 b0 b1 b2 b3 b4 b5 b6 b7 b8 b9 : EReal}
    (h0 : a0 = b0) (h1 : a1 = b1) (h2 : a2 = b2) (h3 : a3 = b3) (h4 : a4 = b4) (h5 : a5 = b5) (h6 : a6 = b6)
    (h7 : a7 = b7) (h8 : a8 = b8) (h9 : a9 = b9) :
    a0 + a1 + a2 + a3 + a4 + a5 + a6 + a7 + a8 + a9 = b0 + b1 + b2 + b3 + b4 + b5 + b6 + b7 + b8 + b9 := by
  subst h0 h1 h2 h3 h4 h5 h6 h7 h8 h9; rfl

/-- The accumulated taps at an index: the zero splat's entry plus the nine taps' entries, from the left. -/
theorem acc_apply (xp : FVec Ideal S8x128x130x130 .f32) (f : FVec Ideal S8x8x9 .f32) (i : S8x8x16x128x128.Idx) :
    acc xp f i
      = broadcastInDim S8x8x16x128x128 ![] bcast_S_S8x8x16x128x128 (constant (F := Ideal) S_ .f32 0x00000000#32) i
        + tap ![0, 0, 0, 0] slices_S8x128x130x130_S8x128x128x128_0_0_0_0 ![0, 0, 0] slices_S8x8x9_S8x8x1_0_0_0 xp f i
        + tap ![0, 0, 0, 1] slices_S8x128x130x130_S8x128x128x128_0_0_0_1 ![0, 0, 1] slices_S8x8x9_S8x8x1_0_0_1 xp f i
        + tap ![0, 0, 0, 2] slices_S8x128x130x130_S8x128x128x128_0_0_0_2 ![0, 0, 2] slices_S8x8x9_S8x8x1_0_0_2 xp f i
        + tap ![0, 0, 1, 0] slices_S8x128x130x130_S8x128x128x128_0_0_1_0 ![0, 0, 3] slices_S8x8x9_S8x8x1_0_0_3 xp f i
        + tap ![0, 0, 1, 1] slices_S8x128x130x130_S8x128x128x128_0_0_1_1 ![0, 0, 4] slices_S8x8x9_S8x8x1_0_0_4 xp f i
        + tap ![0, 0, 1, 2] slices_S8x128x130x130_S8x128x128x128_0_0_1_2 ![0, 0, 5] slices_S8x8x9_S8x8x1_0_0_5 xp f i
        + tap ![0, 0, 2, 0] slices_S8x128x130x130_S8x128x128x128_0_0_2_0 ![0, 0, 6] slices_S8x8x9_S8x8x1_0_0_6 xp f i
        + tap ![0, 0, 2, 1] slices_S8x128x130x130_S8x128x128x128_0_0_2_1 ![0, 0, 7] slices_S8x8x9_S8x8x1_0_0_7 xp f i
        + tap ![0, 0, 2, 2] slices_S8x128x130x130_S8x128x128x128_0_0_2_2 ![0, 0, 8] slices_S8x8x9_S8x8x1_0_0_8 xp f i := rfl

/-- The specification's filtered plane, written out. -/
theorem low_apply (x : FVec Ideal S8x128x128x128 .f32) (f : FVec Ideal S8x8x9 .f32) (n : Fin 8) (C r q : Fin 128) :
    low (fn4 x) (fn3 f) n C r q
      = 0 + x (ix4 n C (nb 0 r) (nb 0 q)) * f (ix3 n (grp C) 0)
        + x (ix4 n C (nb 0 r) (nb 1 q)) * f (ix3 n (grp C) 1)
        + x (ix4 n C (nb 0 r) (nb 2 q)) * f (ix3 n (grp C) 2)
        + x (ix4 n C (nb 1 r) (nb 0 q)) * f (ix3 n (grp C) 3)
        + x (ix4 n C (nb 1 r) (nb 1 q)) * f (ix3 n (grp C) 4)
        + x (ix4 n C (nb 1 r) (nb 2 q)) * f (ix3 n (grp C) 5)
        + x (ix4 n C (nb 2 r) (nb 0 q)) * f (ix3 n (grp C) 6)
        + x (ix4 n C (nb 2 r) (nb 1 q)) * f (ix3 n (grp C) 7)
        + x (ix4 n C (nb 2 r) (nb 2 q)) * f (ix3 n (grp C) 8) := rfl

/-- The first result of the padded input at (n, C, r, q): the specification's filtered plane. -/
theorem lowT_pad_apply (x : FVec Ideal S8x128x128x128 .f32) (f : FVec Ideal S8x8x9 .f32) (n : Fin 8) (C r q : Fin 128) :
    lowT (pad x) f (ix4 n C r q) = low (fn4 x) (fn3 f) n C r q := by
  have hC := C.isLt; have hr := r.isLt; have hq := q.isLt
  unfold lowT
  refine (shapeCast_apply _ _ _ (ix5 n (grp C) (⟨C.val % 16, by omega⟩ : Fin 16) r q) ?_).trans ?_
  · rw [Shape.rowMajor_val_four, Shape.rowMajor_val_five]
    show (((n.val * 8 + C.val / 16) * 16 + C.val % 16) * 128 + r.val) * 128 + q.val = ((n.val * 128 + C.val) * 128 + r.val) * 128 + q.val
    omega
  refine (acc_apply (pad x) f _).trans ((add10 ?_ (tap_pad ![0, 0, 0, 0] slices_S8x128x130x130_S8x128x128x128_0_0_0_0 ![0, 0, 0] slices_S8x8x9_S8x8x1_0_0_0 x f (0 : Fin 3) (0 : Fin 3) rfl rfl rfl rfl rfl rfl (0 : Fin 9) rfl n C r q)
    (tap_pad ![0, 0, 0, 1] slices_S8x128x130x130_S8x128x128x128_0_0_0_1 ![0, 0, 1] slices_S8x8x9_S8x8x1_0_0_1 x f (0 : Fin 3) (1 : Fin 3) rfl rfl rfl rfl rfl rfl (1 : Fin 9) rfl n C r q)
    (tap_pad ![0, 0, 0, 2] slices_S8x128x130x130_S8x128x128x128_0_0_0_2 ![0, 0, 2] slices_S8x8x9_S8x8x1_0_0_2 x f (0 : Fin 3) (2 : Fin 3) rfl rfl rfl rfl rfl rfl (2 : Fin 9) rfl n C r q)
    (tap_pad ![0, 0, 1, 0] slices_S8x128x130x130_S8x128x128x128_0_0_1_0 ![0, 0, 3] slices_S8x8x9_S8x8x1_0_0_3 x f (1 : Fin 3) (0 : Fin 3) rfl rfl rfl rfl rfl rfl (3 : Fin 9) rfl n C r q)
    (tap_pad ![0, 0, 1, 1] slices_S8x128x130x130_S8x128x128x128_0_0_1_1 ![0, 0, 4] slices_S8x8x9_S8x8x1_0_0_4 x f (1 : Fin 3) (1 : Fin 3) rfl rfl rfl rfl rfl rfl (4 : Fin 9) rfl n C r q)
    (tap_pad ![0, 0, 1, 2] slices_S8x128x130x130_S8x128x128x128_0_0_1_2 ![0, 0, 5] slices_S8x8x9_S8x8x1_0_0_5 x f (1 : Fin 3) (2 : Fin 3) rfl rfl rfl rfl rfl rfl (5 : Fin 9) rfl n C r q)
    (tap_pad ![0, 0, 2, 0] slices_S8x128x130x130_S8x128x128x128_0_0_2_0 ![0, 0, 6] slices_S8x8x9_S8x8x1_0_0_6 x f (2 : Fin 3) (0 : Fin 3) rfl rfl rfl rfl rfl rfl (6 : Fin 9) rfl n C r q)
    (tap_pad ![0, 0, 2, 1] slices_S8x128x130x130_S8x128x128x128_0_0_2_1 ![0, 0, 7] slices_S8x8x9_S8x8x1_0_0_7 x f (2 : Fin 3) (1 : Fin 3) rfl rfl rfl rfl rfl rfl (7 : Fin 9) rfl n C r q)
    (tap_pad ![0, 0, 2, 2] slices_S8x128x130x130_S8x128x128x128_0_0_2_2 ![0, 0, 8] slices_S8x8x9_S8x8x1_0_0_8 x f (2 : Fin 3) (2 : Fin 3) rfl rfl rfl rfl rfl rfl (8 : Fin 9) rfl n C r q)).trans (low_apply x f n C r q).symm)
  rw [broadcastInDim_scalar_apply, constant_apply, Ideal.ofBits_zero_f32]

/-- The first result is the specification's. -/
theorem lowT_pad (x : FVec Ideal S8x128x128x128 .f32) (f : FVec Ideal S8x8x9 .f32) :
    lowT (pad x) f = arr4 (low (fn4 x) (fn3 f)) := by
  funext i
  obtain ⟨n, C, r, q, rfl⟩ : ∃ (n : Fin 8) (C r q : Fin 128), i = ix4 n C r q := ⟨i 0, i 1, i 2, i 3, eq_ix4 i⟩
  rw [lowT_pad_apply, arr4_ix4]

/-- The second result is the specification's. -/
theorem highT_pad (x : FVec Ideal S8x128x128x128 .f32) (f : FVec Ideal S8x8x9 .f32) :
    highT x (pad x) f = arr4 (high (fn4 x) (fn3 f)) := by
  funext i
  obtain ⟨n, C, r, q, rfl⟩ : ∃ (n : Fin 8) (C r q : Fin 128), i = ix4 n C r q := ⟨i 0, i 1, i 2, i 3, eq_ix4 i⟩
  unfold highT
  rw [subf_apply, lowT_pad_apply, arr4_ix4]
  rfl

end Cert.RefSide

end
-- ==== Proof.RefOps.lean ====
/-
  The reference program's @main as a list of its 140 host operations, in order, the padding function's sixteen
  operations (with its two reversals of one row and two of one column) listed where it is called, over the
  call's buffers; and the program read back as that list run in order.
-/
import proofs.«121505_j26018911879615_2_alg».proof.ReferenceIdeal
import Idealize.ShloMosaic.Lib.StableHlo.Run

noncomputable section

namespace Cert.RefSide

open Cert.ReferenceIdeal Cert.ReferenceIdeal.Facts₀ Idealize.ShloMosaic Idealize.ShloMosaic.TcCoe Idealize.SL.Sem Idealize.ShloMosaic.StableHlo

variable [Cert.ReferenceIdeal.Facts]
variable {F : FTy → Type} [FloatOps F]

/-- The plane means: operations 1 … 5. -/
abbrev opsA : List (HloOp τ sig (Elt F)) :=
  [ nullary main_cst (constant S_ .f32 0x00000000#32),
    binary main_arg0 main_cst main_v0 ((fun x v => Host.reduceAdd x v reducesTo_S8x128x128x128_S8x128_d2_3 h_S_) : (⟨S8x128x128x128, .f32⟩ : BufTy).Contents (Elt F) → (⟨S_, .f32⟩ : BufTy).Contents (Elt F) → (⟨S8x128, .f32⟩ : BufTy).Contents (Elt F)),
    nullary main_cst_0 (constant S_ .f32 0x46800000#32),
    unary main_cst_0 main_v1 (broadcastInDim S8x128 ![] bcast_S_S8x128 : (⟨S_, .f32⟩ : BufTy).Contents (Elt F) → (⟨S8x128, .f32⟩ : BufTy).Contents (Elt F)),
    binary main_v0 main_v1 main_v2 (Host.divf : (⟨S8x128, .f32⟩ : BufTy).Contents (Elt F) → (⟨S8x128, .f32⟩ : BufTy).Contents (Elt F) → (⟨S8x128, .f32⟩ : BufTy).Contents (Elt F)) ]

/-- The filter weights from the means: operations 6 … 47. -/
abbrev opsB : List (HloOp τ sig (Elt F)) :=
  [ binary main_v2 main_arg1 main_v3 ((fun l r => Host.dotGeneral dot_S8x128_S72x128_S8x72_1_1_0_0_n_n none l r) : (⟨S8x128, .f32⟩ : BufTy).Contents (Elt F) → (⟨S72x128, .f32⟩ : BufTy).Contents (Elt F) → (⟨S8x72, .f32⟩ : BufTy).Contents (Elt F)),
    binary main_v3 main_arg2 main_v4 ((fun l r => Host.dotGeneral dot_S8x72_S72x72_S8x72_1_1_0_0_n_n none l r) : (⟨S8x72, .f32⟩ : BufTy).Contents (Elt F) → (⟨S72x72, .f32⟩ : BufTy).Contents (Elt F) → (⟨S8x72, .f32⟩ : BufTy).Contents (Elt F)),
    unary main_v4 main_v5 (Host.negf : (⟨S8x72, .f32⟩ : BufTy).Contents (Elt F) → (⟨S8x72, .f32⟩ : BufTy).Contents (Elt F)),
    unary main_v5 main_v6 (Host.exp : (⟨S8x72, .f32⟩ : BufTy).Contents (Elt F) → (⟨S8x72, .f32⟩ : BufTy).Contents (Elt F)),
    nullary main_cst_1 (constant S_ .f32 0x3F800000#32),
    unary main_cst_1 main_v7 (broadcastInDim S8x72 ![] bcast_S_S8x72 : (⟨S_, .f32⟩ : BufTy).Contents (Elt F) → (⟨S8x72, .f32⟩ : BufTy).Contents (Elt F)),
    binary main_v7 main_v6 main_v8 (addf : (⟨S8x72, .f32⟩ : BufTy).Contents (Elt F) → (⟨S8x72, .f32⟩ : BufTy).Contents (Elt F) → (⟨S8x72, .f32⟩ : BufTy).Contents (Elt F)),
    nullary main_cst_2 (constant S_ .f32 0x3F800000#32),
    unary main_cst_2 main_v9 (broadcastInDim S8x72 ![] bcast_S_S8x72 : (⟨S_, .f32⟩ : BufTy).Contents (Elt F) → (⟨S8x72, .f32⟩ : BufTy).Contents (Elt F)),
    binary main_v9 main_v8 main_v10 (Host.divf : (⟨S8x72, .f32⟩ : BufTy).Contents (Elt F) → (⟨S8x72, .f32⟩ : BufTy).Contents (Elt F) → (⟨S8x72, .f32⟩ : BufTy).Contents (Elt F)),
    binary main_v3 main_v10 main_v11 (mulf : (⟨S8x72, .f32⟩ : BufTy).Contents (Elt F) → (⟨S8x72, .f32⟩ : BufTy).Contents (Elt F) → (⟨S8x72, .f32⟩ : BufTy).Contents (Elt F)),
    unary main_arg5 main_v12 (broadcastInDim S1x72 ![1] bcast_S72_S1x72_1 : (⟨S72, .f32⟩ : BufTy).Contents (Elt F) → (⟨S1x72, .f32⟩ : BufTy).Contents (Elt F)),
    unary main_v12 main_v13 (broadcastInDim S8x72 ![0, 1] bcast_S1x72_S8x72_0_1 : (⟨S1x72, .f32⟩ : BufTy).Contents (Elt F) → (⟨S8x72, .f32⟩ : BufTy).Contents (Elt F)),
    binary main_v11 main_v13 main_v14 (subf : (⟨S8x72, .f32⟩ : BufTy).Contents (Elt F) → (⟨S8x72, .f32⟩ : BufTy).Contents (Elt F) → (⟨S8x72, .f32⟩ : BufTy).Contents (Elt F)),
    nullary main_cst_3 (constant S_ .f32 0x3727C5AC#32),
    unary main_cst_3 main_v15 (broadcastInDim S72 ![] bcast_S_S72 : (⟨S_, .f32⟩ : BufTy).Contents (Elt F) → (⟨S72, .f32⟩ : BufTy).Contents (Elt F)),
    binary main_arg6 main_v15 main_v16 (addf : (⟨S72, .f32⟩ : BufTy).Contents (Elt F) → (⟨S72, .f32⟩ : BufTy).Contents (Elt F) → (⟨S72, .f32⟩ : BufTy).Contents (Elt F)),
    unary main_v16 main_v17 (Host.rsqrt : (⟨S72, .f32⟩ : BufTy).Contents (Elt F) → (⟨S72, .f32⟩ : BufTy).Contents (Elt F)),
    unary main_v17 main_v18 (broadcastInDim S1x72 ![1] bcast_S72_S1x72_1 : (⟨S72, .f32⟩ : BufTy).Contents (Elt F) → (⟨S1x72, .f32⟩ : BufTy).Contents (Elt F)),
    unary main_v18 main_v19 (broadcastInDim S8x72 ![0, 1] bcast_S1x72_S8x72_0_1 : (⟨S1x72, .f32⟩ : BufTy).Contents (Elt F) → (⟨S8x72, .f32⟩ : BufTy).Contents (Elt F)),
    binary main_v14 main_v19 main_v20 (mulf : (⟨S8x72, .f32⟩ : BufTy).Contents (Elt F) → (⟨S8x72, .f32⟩ : BufTy).Contents (Elt F) → (⟨S8x72, .f32⟩ : BufTy).Contents (Elt F)),
    unary main_arg3 main_v21 (broadcastInDim S1x72 ![1] bcast_S72_S1x72_1 : (⟨S72, .f32⟩ : BufTy).Contents (Elt F) → (⟨S1x72, .f32⟩ : BufTy).Contents (Elt F)),
    unary main_v21 main_v22 (broadcastInDim S8x72 ![0, 1] bcast_S1x72_S8x72_0_1 : (⟨S1x72, .f32⟩ : BufTy).Contents (Elt F) → (⟨S8x72, .f32⟩ : BufTy).Contents (Elt F)),
    binary main_v20 main_v22 main_v23 (mulf : (⟨S8x72, .f32⟩ : BufTy).Contents (Elt F) → (⟨S8x72, .f32⟩ : BufTy).Contents (Elt F) → (⟨S8x72, .f32⟩ : BufTy).Contents (Elt F)),
    unary main_arg4 main_v24 (broadcastInDim S1x72 ![1] bcast_S72_S1x72_1 : (⟨S72, .f32⟩ : BufTy).Contents (Elt F) → (⟨S1x72, .f32⟩ : BufTy).Contents (Elt F)),
    unary main_v24 main_v25 (broadcastInDim S8x72 ![0, 1] bcast_S1x72_S8x72_0_1 : (⟨S1x72, .f32⟩ : BufTy).Contents (Elt F) → (⟨S8x72, .f32⟩ : BufTy).Contents (Elt F)),
    binary main_v23 main_v25 main_v26 (addf : (⟨S8x72, .f32⟩ : BufTy).Contents (Elt F) → (⟨S8x72, .f32⟩ : BufTy).Contents (Elt F) → (⟨S8x72, .f32⟩ : BufTy).Contents (Elt F)),
    reshape main_v26 main_v27 rfl shapeCasts_S8x72_S8x8x9,
    nullary main_cst_4 (constant S_ .f32 0xFF800000#32),
    binary main_v27 main_cst_4 main_v28 ((fun x v => Host.reduce FloatOps.maximumf x v reducesTo_S8x8x9_S8x8_d2 h_S_) : (⟨S8x8x9, .f32⟩ : BufTy).Contents (Elt F) → (⟨S_, .f32⟩ : BufTy).Contents (Elt F) → (⟨S8x8, .f32⟩ : BufTy).Contents (Elt F)),
    nullary main_cst_5 (constant S_ .f32 0xFF800000#32),
    unary main_cst_5 main_v29 (broadcastInDim S8x8 ![] bcast_S_S8x8 : (⟨S_, .f32⟩ : BufTy).Contents (Elt F) → (⟨S8x8, .f32⟩ : BufTy).Contents (Elt F)),
    binary main_v29 main_v28 main_v30 (maximumf : (⟨S8x8, .f32⟩ : BufTy).Contents (Elt F) → (⟨S8x8, .f32⟩ : BufTy).Contents (Elt F) → (⟨S8x8, .f32⟩ : BufTy).Contents (Elt F)),
    unary main_v30 main_v31 (broadcastInDim S8x8x1 ![0, 1] bcast_S8x8_S8x8x1_0_1 : (⟨S8x8, .f32⟩ : BufTy).Contents (Elt F) → (⟨S8x8x1, .f32⟩ : BufTy).Contents (Elt F)),
    unary main_v31 main_v32 (broadcastInDim S8x8x9 ![0, 1, 2] bcast_S8x8x1_S8x8x9_0_1_2 : (⟨S8x8x1, .f32⟩ : BufTy).Contents (Elt F) → (⟨S8x8x9, .f32⟩ : BufTy).Contents (Elt F)),
    binary main_v27 main_v32 main_v33 (subf : (⟨S8x8x9, .f32⟩ : BufTy).Contents (Elt F) → (⟨S8x8x9, .f32⟩ : BufTy).Contents (Elt F) → (⟨S8x8x9, .f32⟩ : BufTy).Contents (Elt F)),
    unary main_v33 main_v34 (Host.exp : (⟨S8x8x9, .f32⟩ : BufTy).Contents (Elt F) → (⟨S8x8x9, .f32⟩ : BufTy).Contents (Elt F)),
    nullary main_cst_6 (constant S_ .f32 0x00000000#32),
    binary main_v34 main_cst_6 main_v35 ((fun x v => Host.reduceAdd x v reducesTo_S8x8x9_S8x8_d2 h_S_) : (⟨S8x8x9, .f32⟩ : BufTy).Contents (Elt F) → (⟨S_, .f32⟩ : BufTy).Contents (Elt F) → (⟨S8x8, .f32⟩ : BufTy).Contents (Elt F)),
    unary main_v35 main_v36 (broadcastInDim S8x8x1 ![0, 1] bcast_S8x8_S8x8x1_0_1 : (⟨S8x8, .f32⟩ : BufTy).Contents (Elt F) → (⟨S8x8x1, .f32⟩ : BufTy).Contents (Elt F)),
    unary main_v36 main_v37 (broadcastInDim S8x8x9 ![0, 1, 2] bcast_S8x8x1_S8x8x9_0_1_2 : (⟨S8x8x1, .f32⟩ : BufTy).Contents (Elt F) → (⟨S8x8x9, .f32⟩ : BufTy).Contents (Elt F)),
    binary main_v34 main_v37 main_v38 (Host.divf : (⟨S8x8x9, .f32⟩ : BufTy).Contents (Elt F) → (⟨S8x8x9, .f32⟩ : BufTy).Contents (Elt F) → (⟨S8x8x9, .f32⟩ : BufTy).Contents (Elt F)) ]

/-- The reflect pad: the scalar the call passes, then the called function's operations over the call's buffers:
    operations 48 … 64. -/
abbrev opsC : List (HloOp τ sig (Elt F)) :=
  [ nullary main_c (constantI S_ 32 0#32),
    TRef.unary (TRef.of main_arg0 : TRef sig ⟨S8x128x128x128, .f32⟩) main_call0.v0 (extractStridedSlice S8x128x1x128 ![0, 0, 0, 0] · slices_S8x128x128x128_S8x128x1x128_0_0_0_0),
    TRef.unary (TRef.of main_arg0 : TRef sig ⟨S8x128x128x128, .f32⟩) main_call0.v1 (extractStridedSlice S8x128x1x128 ![0, 0, 1, 0] · slices_S8x128x128x128_S8x128x1x128_0_0_1_0),
    TRef.unary main_call0.v1 main_call0.call0.v0 (Host.reverse [2]),
    TRef.binary main_call0.call0.v0 (TRef.of main_arg0 : TRef sig ⟨S8x128x128x128, .f32⟩) main_call0.v3 (fun a b => concatenate S8x128x129x128 2 [⟨S8x128x1x128, a⟩, ⟨S8x128x128x128, b⟩] concatenates_S8x128x1x128_S8x128x128x128_S8x128x129x128_d2),
    TRef.unary main_call0.v3 main_call0.v4 (extractStridedSlice S8x128x1x128 ![0, 0, 128, 0] · slices_S8x128x129x128_S8x128x1x128_0_0_128_0),
    TRef.unary main_call0.v3 main_call0.v5 (extractStridedSlice S8x128x1x128 ![0, 0, 127, 0] · slices_S8x128x129x128_S8x128x1x128_0_0_127_0),
    TRef.unary main_call0.v5 main_call0.call1.v0 (Host.reverse [2]),
    TRef.binary main_call0.v3 main_call0.call1.v0 main_call0.v7 (fun a b => concatenate S8x128x130x128 2 [⟨S8x128x129x128, a⟩, ⟨S8x128x1x128, b⟩] concatenates_S8x128x129x128_S8x128x1x128_S8x128x130x128_d2),
    TRef.unary main_call0.v7 main_call0.v8 (extractStridedSlice S8x128x130x1 ![0, 0, 0, 0] · slices_S8x128x130x128_S8x128x130x1_0_0_0_0),
    TRef.unary main_call0.v7 main_call0.v9 (extractStridedSlice S8x128x130x1 ![0, 0, 0, 1] · slices_S8x128x130x128_S8x128x130x1_0_0_0_1),
    TRef.unary main_call0.v9 main_call0.call2.v0 (Host.reverse [3]),
    TRef.binary main_call0.call2.v0 main_call0.v7 main_call0.v11 (fun a b => concatenate S8x128x130x129 3 [⟨S8x128x130x1, a⟩, ⟨S8x128x130x128, b⟩] concatenates_S8x128x130x1_S8x128x130x128_S8x128x130x129_d3),
    TRef.unary main_call0.v11 main_call0.v12 (extractStridedSlice S8x128x130x1 ![0, 0, 0, 128] · slices_S8x128x130x129_S8x128x130x1_0_0_0_128),
    TRef.unary main_call0.v11 main_call0.v13 (extractStridedSlice S8x128x130x1 ![0, 0, 0, 127] · slices_S8x128x130x129_S8x128x130x1_0_0_0_127),
    TRef.unary main_call0.v13 main_call0.call3.v0 (Host.reverse [3]),
    TRef.binary main_call0.v11 main_call0.call3.v0 main_call0.v15 (fun a b => concatenate S8x128x130x130 3 [⟨S8x128x130x129, a⟩, ⟨S8x128x130x1, b⟩] concatenates_S8x128x130x129_S8x128x130x1_S8x128x130x130_d3) ]

/-- The zero array, the first tap, and the second tap's window: operations 65 … 75. -/
abbrev opsD0 : List (HloOp τ sig (Elt F)) :=
  [ nullary main_cst_7 (constant S_ .f32 0x00000000#32),
    unary main_cst_7 main_v40 (broadcastInDim S8x8x16x128x128 ![] bcast_S_S8x8x16x128x128 : (⟨S_, .f32⟩ : BufTy).Contents (Elt F) → (⟨S8x8x16x128x128, .f32⟩ : BufTy).Contents (Elt F)),
    unary main_v39 main_v41 ((extractStridedSlice S8x128x128x128 ![0, 0, 0, 0] · slices_S8x128x130x130_S8x128x128x128_0_0_0_0) : (⟨S8x128x130x130, .f32⟩ : BufTy).Contents (Elt F) → (⟨S8x128x128x128, .f32⟩ : BufTy).Contents (Elt F)),
    reshape main_v41 main_v42 rfl shapeCasts_S8x128x128x128_S8x8x16x128x128,
    unary main_v38 main_v43 ((extractStridedSlice S8x8x1 ![0, 0, 0] · slices_S8x8x9_S8x8x1_0_0_0) : (⟨S8x8x9, .f32⟩ : BufTy).Contents (Elt F) → (⟨S8x8x1, .f32⟩ : BufTy).Contents (Elt F)),
    reshape main_v43 main_v44 rfl shapeCasts_S8x8x1_S8x8,
    unary main_v44 main_v45 (broadcastInDim S8x8x1x1x1 ![0, 1] bcast_S8x8_S8x8x1x1x1_0_1 : (⟨S8x8, .f32⟩ : BufTy).Contents (Elt F) → (⟨S8x8x1x1x1, .f32⟩ : BufTy).Contents (Elt F)),
    unary main_v45 main_v46 (broadcastInDim S8x8x16x128x128 ![0, 1, 2, 3, 4] bcast_S8x8x1x1x1_S8x8x16x128x128_0_1_2_3_4 : (⟨S8x8x1x1x1, .f32⟩ : BufTy).Contents (Elt F) → (⟨S8x8x16x128x128, .f32⟩ : BufTy).Contents (Elt F)),
    binary main_v42 main_v46 main_v47 (mulf : (⟨S8x8x16x128x128, .f32⟩ : BufTy).Contents (Elt F) → (⟨S8x8x16x128x128, .f32⟩ : BufTy).Contents (Elt F) → (⟨S8x8x16x128x128, .f32⟩ : BufTy).Contents (Elt F)),
    binary main_v40 main_v47 main_v48 (addf : (⟨S8x8x16x128x128, .f32⟩ : BufTy).Contents (Elt F) → (⟨S8x8x16x128x128, .f32⟩ : BufTy).Contents (Elt F) → (⟨S8x8x16x128x128, .f32⟩ : BufTy).Contents (Elt F)),
    unary main_v39 main_v49 ((extractStridedSlice S8x128x128x128 ![0, 0, 0, 1] · slices_S8x128x130x130_S8x128x128x128_0_0_0_1) : (⟨S8x128x130x130, .f32⟩ : BufTy).Contents (Elt F) → (⟨S8x128x128x128, .f32⟩ : BufTy).Contents (Elt F)) ]

/-- The second to eighth taps and the start of the ninth: operations 76 … 135. -/
abbrev opsD1 : List (HloOp τ sig (Elt F)) :=
  [ reshape main_v49 main_v50 rfl shapeCasts_S8x128x128x128_S8x8x16x128x128,
    unary main_v38 main_v51 ((extractStridedSlice S8x8x1 ![0, 0, 1] · slices_S8x8x9_S8x8x1_0_0_1) : (⟨S8x8x9, .f32⟩ : BufTy).Contents (Elt F) → (⟨S8x8x1, .f32⟩ : BufTy).Contents (Elt F)),
    reshape main_v51 main_v52 rfl shapeCasts_S8x8x1_S8x8,
    unary main_v52 main_v53 (broadcastInDim S8x8x1x1x1 ![0, 1] bcast_S8x8_S8x8x1x1x1_0_1 : (⟨S8x8, .f32⟩ : BufTy).Contents (Elt F) → (⟨S8x8x1x1x1, .f32⟩ : BufTy).Contents (Elt F)),
    unary main_v53 main_v54 (broadcastInDim S8x8x16x128x128 ![0, 1, 2, 3, 4] bcast_S8x8x1x1x1_S8x8x16x128x128_0_1_2_3_4 : (⟨S8x8x1x1x1, .f32⟩ : BufTy).Contents (Elt F) → (⟨S8x8x16x128x128, .f32⟩ : BufTy).Contents (Elt F)),
    binary main_v50 main_v54 main_v55 (mulf : (⟨S8x8x16x128x128, .f32⟩ : BufTy).Contents (Elt F) → (⟨S8x8x16x128x128, .f32⟩ : BufTy).Contents (Elt F) → (⟨S8x8x16x128x128, .f32⟩ : BufTy).Contents (Elt F)),
    binary main_v48 main_v55 main_v56 (addf : (⟨S8x8x16x128x128, .f32⟩ : BufTy).Contents (Elt F) → (⟨S8x8x16x128x128, .f32⟩ : BufTy).Contents (Elt F) → (⟨S8x8x16x128x128, .f32⟩ : BufTy).Contents (Elt F)),
    unary main_v39 main_v57 ((extractStridedSlice S8x128x128x128 ![0, 0, 0, 2] · slices_S8x128x130x130_S8x128x128x128_0_0_0_2) : (⟨S8x128x130x130, .f32⟩ : BufTy).Contents (Elt F) → (⟨S8x128x128x128, .f32⟩ : BufTy).Contents (Elt F)),
    reshape main_v57 main_v58 rfl shapeCasts_S8x128x128x128_S8x8x16x128x128,
    unary main_v38 main_v59 ((extractStridedSlice S8x8x1 ![0, 0, 2] · slices_S8x8x9_S8x8x1_0_0_2) : (⟨S8x8x9, .f32⟩ : BufTy).Contents (Elt F) → (⟨S8x8x1, .f32⟩ : BufTy).Contents (Elt F)),
    reshape main_v59 main_v60 rfl shapeCasts_S8x8x1_S8x8,
    unary main_v60 main_v61 (broadcastInDim S8x8x1x1x1 ![0, 1] bcast_S8x8_S8x8x1x1x1_0_1 : (⟨S8x8, .f32⟩ : BufTy).Contents (Elt F) → (⟨S8x8x1x1x1, .f32⟩ : BufTy).Contents (Elt F)),
    unary main_v61 main_v62 (broadcastInDim S8x8x16x128x128 ![0, 1, 2, 3, 4] bcast_S8x8x1x1x1_S8x8x16x128x128_0_1_2_3_4 : (⟨S8x8x1x1x1, .f32⟩ : BufTy).Contents (Elt F) → (⟨S8x8x16x128x128, .f32⟩ : BufTy).Contents (Elt F)),
    binary main_v58 main_v62 main_v63 (mulf : (⟨S8x8x16x128x128, .f32⟩ : BufTy).Contents (Elt F) → (⟨S8x8x16x128x128, .f32⟩ : BufTy).Contents (Elt F) → (⟨S8x8x16x128x128, .f32⟩ : BufTy).Contents (Elt F)),
    binary main_v56 main_v63 main_v64 (addf : (⟨S8x8x16x128x128, .f32⟩ : BufTy).Contents (Elt F) → (⟨S8x8x16x128x128, .f32⟩ : BufTy).Contents (Elt F) → (⟨S8x8x16x128x128, .f32⟩ : BufTy).Contents (Elt F)),
    unary main_v39 main_v65 ((extractStridedSlice S8x128x128x128 ![0, 0, 1, 0] · slices_S8x128x130x130_S8x128x128x128_0_0_1_0) : (⟨S8x128x130x130, .f32⟩ : BufTy).Contents (Elt F) → (⟨S8x128x128x128, .f32⟩ : BufTy).Contents (Elt F)),
    reshape main_v65 main_v66 rfl shapeCasts_S8x128x128x128_S8x8x16x128x128,
    unary main_v38 main_v67 ((extractStridedSlice S8x8x1 ![0, 0, 3] · slices_S8x8x9_S8x8x1_0_0_3) : (⟨S8x8x9, .f32⟩ : BufTy).Contents (Elt F) → (⟨S8x8x1, .f32⟩ : BufTy).Contents (Elt F)),
    reshape main_v67 main_v68 rfl shapeCasts_S8x8x1_S8x8,
    unary main_v68 main_v69 (broadcastInDim S8x8x1x1x1 ![0, 1] bcast_S8x8_S8x8x1x1x1_0_1 : (⟨S8x8, .f32⟩ : BufTy).Contents (Elt F) → (⟨S8x8x1x1x1, .f32⟩ : BufTy).Contents (Elt F)),
    unary main_v69 main_v70 (broadcastInDim S8x8x16x128x128 ![0, 1, 2, 3, 4] bcast_S8x8x1x1x1_S8x8x16x128x128_0_1_2_3_4 : (⟨S8x8x1x1x1, .f32⟩ : BufTy).Contents (Elt F) → (⟨S8x8x16x128x128, .f32⟩ : BufTy).Contents (Elt F)),
    binary main_v66 main_v70 main_v71 (mulf : (⟨S8x8x16x128x128, .f32⟩ : BufTy).Contents (Elt F) → (⟨S8x8x16x128x128, .f32⟩ : BufTy).Contents (Elt F) → (⟨S8x8x16x128x128, .f32⟩ : BufTy).Contents (Elt F)),
    binary main_v64 main_v71 main_v72 (addf : (⟨S8x8x16x128x128, .f32⟩ : BufTy).Contents (Elt F) → (⟨S8x8x16x128x128, .f32⟩ : BufTy).Contents (Elt F) → (⟨S8x8x16x128x128, .f32⟩ : BufTy).Contents (Elt F)),
    unary main_v39 main_v73 ((extractStridedSlice S8x128x128x128 ![0, 0, 1, 1] · slices_S8x128x130x130_S8x128x128x128_0_0_1_1) : (⟨S8x128x130x130, .f32⟩ : BufTy).Contents (Elt F) → (⟨S8x128x128x128, .f32⟩ : BufTy).Contents (Elt F)),
    reshape main_v73 main_v74 rfl shapeCasts_S8x128x128x128_S8x8x16x128x128,
    unary main_v38 main_v75 ((extractStridedSlice S8x8x1 ![0, 0, 4] · slices_S8x8x9_S8x8x1_0_0_4) : (⟨S8x8x9, .f32⟩ : BufTy).Contents (Elt F) → (⟨S8x8x1, .f32⟩ : BufTy).Contents (Elt F)),
    reshape main_v75 main_v76 rfl shapeCasts_S8x8x1_S8x8,
    unary main_v76 main_v77 (broadcastInDim S8x8x1x1x1 ![0, 1] bcast_S8x8_S8x8x1x1x1_0_1 : (⟨S8x8, .f32⟩ : BufTy).Contents (Elt F) → (⟨S8x8x1x1x1, .f32⟩ : BufTy).Contents (Elt F)),
    unary main_v77 main_v78 (broadcastInDim S8x8x16x128x128 ![0, 1, 2, 3, 4] bcast_S8x8x1x1x1_S8x8x16x128x128_0_1_2_3_4 : (⟨S8x8x1x1x1, .f32⟩ : BufTy).Contents (Elt F) → (⟨S8x8x16x128x128, .f32⟩ : BufTy).Contents (Elt F)),
    binary main_v74 main_v78 main_v79 (mulf : (⟨S8x8x16x128x128, .f32⟩ : BufTy).Contents (Elt F) → (⟨S8x8x16x128x128, .f32⟩ : BufTy).Contents (Elt F) → (⟨S8x8x16x128x128, .f32⟩ : BufTy).Contents (Elt F)),
    binary main_v72 main_v79 main_v80 (addf : (⟨S8x8x16x128x128, .f32⟩ : BufTy).Contents (Elt F) → (⟨S8x8x16x128x128, .f32⟩ : BufTy).Contents (Elt F) → (⟨S8x8x16x128x128, .f32⟩ : BufTy).Contents (Elt F)),
    unary main_v39 main_v81 ((extractStridedSlice S8x128x128x128 ![0, 0, 1, 2] · slices_S8x128x130x130_S8x128x128x128_0_0_1_2) : (⟨S8x128x130x130, .f32⟩ : BufTy).Contents (Elt F) → (⟨S8x128x128x128, .f32⟩ : BufTy).Contents (Elt F)),
    reshape main_v81 main_v82 rfl shapeCasts_S8x128x128x128_S8x8x16x128x128,
    unary main_v38 main_v83 ((extractStridedSlice S8x8x1 ![0, 0, 5] · slices_S8x8x9_S8x8x1_0_0_5) : (⟨S8x8x9, .f32⟩ : BufTy).Contents (Elt F) → (⟨S8x8x1, .f32⟩ : BufTy).Contents (Elt F)),
    reshape main_v83 main_v84 rfl shapeCasts_S8x8x1_S8x8,
    unary main_v84 main_v85 (broadcastInDim S8x8x1x1x1 ![0, 1] bcast_S8x8_S8x8x1x1x1_0_1 : (⟨S8x8, .f32⟩ : BufTy).Contents (Elt F) → (⟨S8x8x1x1x1, .f32⟩ : BufTy).Contents (Elt F)),
    unary main_v85 main_v86 (broadcastInDim S8x8x16x128x128 ![0, 1, 2, 3, 4] bcast_S8x8x1x1x1_S8x8x16x128x128_0_1_2_3_4 : (⟨S8x8x1x1x1, .f32⟩ : BufTy).Contents (Elt F) → (⟨S8x8x16x128x128, .f32⟩ : BufTy).Contents (Elt F)),
    binary main_v82 main_v86 main_v87 (mulf : (⟨S8x8x16x128x128, .f32⟩ : BufTy).Contents (Elt F) → (⟨S8x8x16x128x128, .f32⟩ : BufTy).Contents (Elt F) → (⟨S8x8x16x128x128, .f32⟩ : BufTy).Contents (Elt F)),
    binary main_v80 main_v87 main_v88 (addf : (⟨S8x8x16x128x128, .f32⟩ : BufTy).Contents (Elt F) → (⟨S8x8x16x128x128, .f32⟩ : BufTy).Contents (Elt F) → (⟨S8x8x16x128x128, .f32⟩ : BufTy).Contents (Elt F)),
    unary main_v39 main_v89 ((extractStridedSlice S8x128x128x128 ![0, 0, 2, 0] · slices_S8x128x130x130_S8x128x128x128_0_0_2_0) : (⟨S8x128x130x130, .f32⟩ : BufTy).Contents (Elt F) → (⟨S8x128x128x128, .f32⟩ : BufTy).Contents (Elt F)),
    reshape main_v89 main_v90 rfl shapeCasts_S8x128x128x128_S8x8x16x128x128,
    unary main_v38 main_v91 ((extractStridedSlice S8x8x1 ![0, 0, 6] · slices_S8x8x9_S8x8x1_0_0_6) : (⟨S8x8x9, .f32⟩ : BufTy).Contents (Elt F) → (⟨S8x8x1, .f32⟩ : BufTy).Contents (Elt F)),
    reshape main_v91 main_v92 rfl shapeCasts_S8x8x1_S8x8,
    unary main_v92 main_v93 (broadcastInDim S8x8x1x1x1 ![0, 1] bcast_S8x8_S8x8x1x1x1_0_1 : (⟨S8x8, .f32⟩ : BufTy).Contents (Elt F) → (⟨S8x8x1x1x1, .f32⟩ : BufTy).Contents (Elt F)),
    unary main_v93 main_v94 (broadcastInDim S8x8x16x128x128 ![0, 1, 2, 3, 4] bcast_S8x8x1x1x1_S8x8x16x128x128_0_1_2_3_4 : (⟨S8x8x1x1x1, .f32⟩ : BufTy).Contents (Elt F) → (⟨S8x8x16x128x128, .f32⟩ : BufTy).Contents (Elt F)),
    binary main_v90 main_v94 main_v95 (mulf : (⟨S8x8x16x128x128, .f32⟩ : BufTy).Contents (Elt F) → (⟨S8x8x16x128x128, .f32⟩ : BufTy).Contents (Elt F) → (⟨S8x8x16x128x128, .f32⟩ : BufTy).Contents (Elt F)),
    binary main_v88 main_v95 main_v96 (addf : (⟨S8x8x16x128x128, .f32⟩ : BufTy).Contents (Elt F) → (⟨S8x8x16x128x128, .f32⟩ : BufTy).Contents (Elt F) → (⟨S8x8x16x128x128, .f32⟩ : BufTy).Contents (Elt F)),
    unary main_v39 main_v97 ((extractStridedSlice S8x128x128x128 ![0, 0, 2, 1] · slices_S8x128x130x130_S8x128x128x128_0_0_2_1) : (⟨S8x128x130x130, .f32⟩ : BufTy).Contents (Elt F) → (⟨S8x128x128x128, .f32⟩ : BufTy).Contents (Elt F)),
    reshape main_v97 main_v98 rfl shapeCasts_S8x128x128x128_S8x8x16x128x128,
    unary main_v38 main_v99 ((extractStridedSlice S8x8x1 ![0, 0, 7] · slices_S8x8x9_S8x8x1_0_0_7) : (⟨S8x8x9, .f32⟩ : BufTy).Contents (Elt F) → (⟨S8x8x1, .f32⟩ : BufTy).Contents (Elt F)),
    reshape main_v99 main_v100 rfl shapeCasts_S8x8x1_S8x8,
    unary main_v100 main_v101 (broadcastInDim S8x8x1x1x1 ![0, 1] bcast_S8x8_S8x8x1x1x1_0_1 : (⟨S8x8, .f32⟩ : BufTy).Contents (Elt F) → (⟨S8x8x1x1x1, .f32⟩ : BufTy).Contents (Elt F)),
    unary main_v101 main_v102 (broadcastInDim S8x8x16x128x128 ![0, 1, 2, 3, 4] bcast_S8x8x1x1x1_S8x8x16x128x128_0_1_2_3_4 : (⟨S8x8x1x1x1, .f32⟩ : BufTy).Contents (Elt F) → (⟨S8x8x16x128x128, .f32⟩ : BufTy).Contents (Elt F)),
    binary main_v98 main_v102 main_v103 (mulf : (⟨S8x8x16x128x128, .f32⟩ : BufTy).Contents (Elt F) → (⟨S8x8x16x128x128, .f32⟩ : BufTy).Contents (Elt F) → (⟨S8x8x16x128x128, .f32⟩ : BufTy).Contents (Elt F)),
    binary main_v96 main_v103 main_v104 (addf : (⟨S8x8x16x128x128, .f32⟩ : BufTy).Contents (Elt F) → (⟨S8x8x16x128x128, .f32⟩ : BufTy).Contents (Elt F) → (⟨S8x8x16x128x128, .f32⟩ : BufTy).Contents (Elt F)),
    unary main_v39 main_v105 ((extractStridedSlice S8x128x128x128 ![0, 0, 2, 2] · slices_S8x128x130x130_S8x128x128x128_0_0_2_2) : (⟨S8x128x130x130, .f32⟩ : BufTy).Contents (Elt F) → (⟨S8x128x128x128, .f32⟩ : BufTy).Contents (Elt F)),
    reshape main_v105 main_v106 rfl shapeCasts_S8x128x128x128_S8x8x16x128x128,
    unary main_v38 main_v107 ((extractStridedSlice S8x8x1 ![0, 0, 8] · slices_S8x8x9_S8x8x1_0_0_8) : (⟨S8x8x9, .f32⟩ : BufTy).Contents (Elt F) → (⟨S8x8x1, .f32⟩ : BufTy).Contents (Elt F)),
    reshape main_v107 main_v108 rfl shapeCasts_S8x8x1_S8x8,
    unary main_v108 main_v109 (broadcastInDim S8x8x1x1x1 ![0, 1] bcast_S8x8_S8x8x1x1x1_0_1 : (⟨S8x8, .f32⟩ : BufTy).Contents (Elt F) → (⟨S8x8x1x1x1, .f32⟩ : BufTy).Contents (Elt F)) ]

/-- The ninth tap, the merge of the channel groups, and the difference: operations 136 … 140. -/
abbrev opsD2 : List (HloOp τ sig (Elt F)) :=
  [ unary main_v109 main_v110 (broadcastInDim S8x8x16x128x128 ![0, 1, 2, 3, 4] bcast_S8x8x1x1x1_S8x8x16x128x128_0_1_2_3_4 : (⟨S8x8x1x1x1, .f32⟩ : BufTy).Contents (Elt F) → (⟨S8x8x16x128x128, .f32⟩ : BufTy).Contents (Elt F)),
    binary main_v106 main_v110 main_v111 (mulf : (⟨S8x8x16x128x128, .f32⟩ : BufTy).Contents (Elt F) → (⟨S8x8x16x128x128, .f32⟩ : BufTy).Contents (Elt F) → (⟨S8x8x16x128x128, .f32⟩ : BufTy).Contents (Elt F)),
    binary main_v104 main_v111 main_v112 (addf : (⟨S8x8x16x128x128, .f32⟩ : BufTy).Contents (Elt F) → (⟨S8x8x16x128x128, .f32⟩ : BufTy).Contents (Elt F) → (⟨S8x8x16x128x128, .f32⟩ : BufTy).Contents (Elt F)),
    reshape main_v112 main_v113 rfl shapeCasts_S8x8x16x128x128_S8x128x128x128,
    binary main_arg0 main_v113 main_v114 (subf : (⟨S8x128x128x128, .f32⟩ : BufTy).Contents (Elt F) → (⟨S8x128x128x128, .f32⟩ : BufTy).Contents (Elt F) → (⟨S8x128x128x128, .f32⟩ : BufTy).Contents (Elt F)) ]

/-- Operations 1 … 75, the first printed window of @main. -/
abbrev ops0 : List (HloOp τ sig (Elt F)) :=
  [ nullary main_cst (constant S_ .f32 0x00000000#32),
    binary main_arg0 main_cst main_v0 ((fun x v => Host.reduceAdd x v reducesTo_S8x128x128x128_S8x128_d2_3 h_S_) : (⟨S8x128x128x128, .f32⟩ : BufTy).Contents (Elt F) → (⟨S_, .f32⟩ : BufTy).Contents (Elt F) → (⟨S8x128, .f32⟩ : BufTy).Contents (Elt F)),
    nullary main_cst_0 (constant S_ .f32 0x46800000#32),
    unary main_cst_0 main_v1 (broadcastInDim S8x128 ![] bcast_S_S8x128 : (⟨S_, .f32⟩ : BufTy).Contents (Elt F) → (⟨S8x128, .f32⟩ : BufTy).Contents (Elt F)),
    binary main_v0 main_v1 main_v2 (Host.divf : (⟨S8x128, .f32⟩ : BufTy).Contents (Elt F) → (⟨S8x128, .f32⟩ : BufTy).Contents (Elt F) → (⟨S8x128, .f32⟩ : BufTy).Contents (Elt F)),
    binary main_v2 main_arg1 main_v3 ((fun l r => Host.dotGeneral dot_S8x128_S72x128_S8x72_1_1_0_0_n_n none l r) : (⟨S8x128, .f32⟩ : BufTy).Contents (Elt F) → (⟨S72x128, .f32⟩ : BufTy).Contents (Elt F) → (⟨S8x72, .f32⟩ : BufTy).Contents (Elt F)),
    binary main_v3 main_arg2 main_v4 ((fun l r => Host.dotGeneral dot_S8x72_S72x72_S8x72_1_1_0_0_n_n none l r) : (⟨S8x72, .f32⟩ : BufTy).Contents (Elt F) → (⟨S72x72, .f32⟩ : BufTy).Contents (Elt F) → (⟨S8x72, .f32⟩ : BufTy).Contents (Elt F)),
    unary main_v4 main_v5 (Host.negf : (⟨S8x72, .f32⟩ : BufTy).Contents (Elt F) → (⟨S8x72, .f32⟩ : BufTy).Contents (Elt F)),
    unary main_v5 main_v6 (Host.exp : (⟨S8x72, .f32⟩ : BufTy).Contents (Elt F) → (⟨S8x72, .f32⟩ : BufTy).Contents (Elt F)),
    nullary main_cst_1 (constant S_ .f32 0x3F800000#32),
    unary main_cst_1 main_v7 (broadcastInDim S8x72 ![] bcast_S_S8x72 : (⟨S_, .f32⟩ : BufTy).Contents (Elt F) → (⟨S8x72, .f32⟩ : BufTy).Contents (Elt F)),
    binary main_v7 main_v6 main_v8 (addf : (⟨S8x72, .f32⟩ : BufTy).Contents (Elt F) → (⟨S8x72, .f32⟩ : BufTy).Contents (Elt F) → (⟨S8x72, .f32⟩ : BufTy).Contents (Elt F)),
    nullary main_cst_2 (constant S_ .f32 0x3F800000#32),
    unary main_cst_2 main_v9 (broadcastInDim S8x72 ![] bcast_S_S8x72 : (⟨S_, .f32⟩ : BufTy).Contents (Elt F) → (⟨S8x72, .f32⟩ : BufTy).Contents (Elt F)),
    binary main_v9 main_v8 main_v10 (Host.divf : (⟨S8x72, .f32⟩ : BufTy).Contents (Elt F) → (⟨S8x72, .f32⟩ : BufTy).Contents (Elt F) → (⟨S8x72, .f32⟩ : BufTy).Contents (Elt F)),
    binary main_v3 main_v10 main_v11 (mulf : (⟨S8x72, .f32⟩ : BufTy).Contents (Elt F) → (⟨S8x72, .f32⟩ : BufTy).Contents (Elt F) → (⟨S8x72, .f32⟩ : BufTy).Contents (Elt F)),
    unary main_arg5 main_v12 (broadcastInDim S1x72 ![1] bcast_S72_S1x72_1 : (⟨S72, .f32⟩ : BufTy).Contents (Elt F) → (⟨S1x72, .f32⟩ : BufTy).Contents (Elt F)),
    unary main_v12 main_v13 (broadcastInDim S8x72 ![0, 1] bcast_S1x72_S8x72_0_1 : (⟨S1x72, .f32⟩ : BufTy).Contents (Elt F) → (⟨S8x72, .f32⟩ : BufTy).Contents (Elt F)),
    binary main_v11 main_v13 main_v14 (subf : (⟨S8x72, .f32⟩ : BufTy).Contents (Elt F) → (⟨S8x72, .f32⟩ : BufTy).Contents (Elt F) → (⟨S8x72, .f32⟩ : BufTy).Contents (Elt F)),
    nullary main_cst_3 (constant S_ .f32 0x3727C5AC#32),
    unary main_cst_3 main_v15 (broadcastInDim S72 ![] bcast_S_S72 : (⟨S_, .f32⟩ : BufTy).Contents (Elt F) → (⟨S72, .f32⟩ : BufTy).Contents (Elt F)),
    binary main_arg6 main_v15 main_v16 (addf : (⟨S72, .f32⟩ : BufTy).Contents (Elt F) → (⟨S72, .f32⟩ : BufTy).Contents (Elt F) → (⟨S72, .f32⟩ : BufTy).Contents (Elt F)),
    unary main_v16 main_v17 (Host.rsqrt : (⟨S72, .f32⟩ : BufTy).Contents (Elt F) → (⟨S72, .f32⟩ : BufTy).Contents (Elt F)),
    unary main_v17 main_v18 (broadcastInDim S1x72 ![1] bcast_S72_S1x72_1 : (⟨S72, .f32⟩ : BufTy).Contents (Elt F) → (⟨S1x72, .f32⟩ : BufTy).Contents (Elt F)),
    unary main_v18 main_v19 (broadcastInDim S8x72 ![0, 1] bcast_S1x72_S8x72_0_1 : (⟨S1x72, .f32⟩ : BufTy).Contents (Elt F) → (⟨S8x72, .f32⟩ : BufTy).Contents (Elt F)),
    binary main_v14 main_v19 main_v20 (mulf : (⟨S8x72, .f32⟩ : BufTy).Contents (Elt F) → (⟨S8x72, .f32⟩ : BufTy).Contents (Elt F) → (⟨S8x72, .f32⟩ : BufTy).Contents (Elt F)),
    unary main_arg3 main_v21 (broadcastInDim S1x72 ![1] bcast_S72_S1x72_1 : (⟨S72, .f32⟩ : BufTy).Contents (Elt F) → (⟨S1x72, .f32⟩ : BufTy).Contents (Elt F)),
    unary main_v21 main_v22 (broadcastInDim S8x72 ![0, 1] bcast_S1x72_S8x72_0_1 : (⟨S1x72, .f32⟩ : BufTy).Contents (Elt F) → (⟨S8x72, .f32⟩ : BufTy).Contents (Elt F)),
    binary main_v20 main_v22 main_v23 (mulf : (⟨S8x72, .f32⟩ : BufTy).Contents (Elt F) → (⟨S8x72, .f32⟩ : BufTy).Contents (Elt F) → (⟨S8x72, .f32⟩ : BufTy).Contents (Elt F)),
    unary main_arg4 main_v24 (broadcastInDim S1x72 ![1] bcast_S72_S1x72_1 : (⟨S72, .f32⟩ : BufTy).Contents (Elt F) → (⟨S1x72, .f32⟩ : BufTy).Contents (Elt F)),
    unary main_v24 main_v25 (broadcastInDim S8x72 ![0, 1] bcast_S1x72_S8x72_0_1 : (⟨S1x72, .f32⟩ : BufTy).Contents (Elt F) → (⟨S8x72, .f32⟩ : BufTy).Contents (Elt F)),
    binary main_v23 main_v25 main_v26 (addf : (⟨S8x72, .f32⟩ : BufTy).Contents (Elt F) → (⟨S8x72, .f32⟩ : BufTy).Contents (Elt F) → (⟨S8x72, .f32⟩ : BufTy).Contents (Elt F)),
    reshape main_v26 main_v27 rfl shapeCasts_S8x72_S8x8x9,
    nullary main_cst_4 (constant S_ .f32 0xFF800000#32),
    binary main_v27 main_cst_4 main_v28 ((fun x v => Host.reduce FloatOps.maximumf x v reducesTo_S8x8x9_S8x8_d2 h_S_) : (⟨S8x8x9, .f32⟩ : BufTy).Contents (Elt F) → (⟨S_, .f32⟩ : BufTy).Contents (Elt F) → (⟨S8x8, .f32⟩ : BufTy).Contents (Elt F)),
    nullary main_cst_5 (constant S_ .f32 0xFF800000#32),
    unary main_cst_5 main_v29 (broadcastInDim S8x8 ![] bcast_S_S8x8 : (⟨S_, .f32⟩ : BufTy).Contents (Elt F) → (⟨S8x8, .f32⟩ : BufTy).Contents (Elt F)),
    binary main_v29 main_v28 main_v30 (maximumf : (⟨S8x8, .f32⟩ : BufTy).Contents (Elt F) → (⟨S8x8, .f32⟩ : BufTy).Contents (Elt F) → (⟨S8x8, .f32⟩ : BufTy).Contents (Elt F)),
    unary main_v30 main_v31 (broadcastInDim S8x8x1 ![0, 1] bcast_S8x8_S8x8x1_0_1 : (⟨S8x8, .f32⟩ : BufTy).Contents (Elt F) → (⟨S8x8x1, .f32⟩ : BufTy).Contents (Elt F)),
    unary main_v31 main_v32 (broadcastInDim S8x8x9 ![0, 1, 2] bcast_S8x8x1_S8x8x9_0_1_2 : (⟨S8x8x1, .f32⟩ : BufTy).Contents (Elt F) → (⟨S8x8x9, .f32⟩ : BufTy).Contents (Elt F)),
    binary main_v27 main_v32 main_v33 (subf : (⟨S8x8x9, .f32⟩ : BufTy).Contents (Elt F) → (⟨S8x8x9, .f32⟩ : BufTy).Contents (Elt F) → (⟨S8x8x9, .f32⟩ : BufTy).Contents (Elt F)),
    unary main_v33 main_v34 (Host.exp : (⟨S8x8x9, .f32⟩ : BufTy).Contents (Elt F) → (⟨S8x8x9, .f32⟩ : BufTy).Contents (Elt F)),
    nullary main_cst_6 (constant S_ .f32 0x00000000#32),
    binary main_v34 main_cst_6 main_v35 ((fun x v => Host.reduceAdd x v reducesTo_S8x8x9_S8x8_d2 h_S_) : (⟨S8x8x9, .f32⟩ : BufTy).Contents (Elt F) → (⟨S_, .f32⟩ : BufTy).Contents (Elt F) → (⟨S8x8, .f32⟩ : BufTy).Contents (Elt F)),
    unary main_v35 main_v36 (broadcastInDim S8x8x1 ![0, 1] bcast_S8x8_S8x8x1_0_1 : (⟨S8x8, .f32⟩ : BufTy).Contents (Elt F) → (⟨S8x8x1, .f32⟩ : BufTy).Contents (Elt F)),
    unary main_v36 main_v37 (broadcastInDim S8x8x9 ![0, 1, 2] bcast_S8x8x1_S8x8x9_0_1_2 : (⟨S8x8x1, .f32⟩ : BufTy).Contents (Elt F) → (⟨S8x8x9, .f32⟩ : BufTy).Contents (Elt F)),
    binary main_v34 main_v37 main_v38 (Host.divf : (⟨S8x8x9, .f32⟩ : BufTy).Contents (Elt F) → (⟨S8x8x9, .f32⟩ : BufTy).Contents (Elt F) → (⟨S8x8x9, .f32⟩ : BufTy).Contents (Elt F)),
    nullary main_c (constantI S_ 32 0#32),
    TRef.unary (TRef.of main_arg0 : TRef sig ⟨S8x128x128x128, .f32⟩) main_call0.v0 (extractStridedSlice S8x128x1x128 ![0, 0, 0, 0] · slices_S8x128x128x128_S8x128x1x128_0_0_0_0),
    TRef.unary (TRef.of main_arg0 : TRef sig ⟨S8x128x128x128, .f32⟩) main_call0.v1 (extractStridedSlice S8x128x1x128 ![0, 0, 1, 0] · slices_S8x128x128x128_S8x128x1x128_0_0_1_0),
    TRef.unary main_call0.v1 main_call0.call0.v0 (Host.reverse [2]),
    TRef.binary main_call0.call0.v0 (TRef.of main_arg0 : TRef sig ⟨S8x128x128x128, .f32⟩) main_call0.v3 (fun a b => concatenate S8x128x129x128 2 [⟨S8x128x1x128, a⟩, ⟨S8x128x128x128, b⟩] concatenates_S8x128x1x128_S8x128x128x128_S8x128x129x128_d2),
    TRef.unary main_call0.v3 main_call0.v4 (extractStridedSlice S8x128x1x128 ![0, 0, 128, 0] · slices_S8x128x129x128_S8x128x1x128_0_0_128_0),
    TRef.unary main_call0.v3 main_call0.v5 (extractStridedSlice S8x128x1x128 ![0, 0, 127, 0] · slices_S8x128x129x128_S8x128x1x128_0_0_127_0),
    TRef.unary main_call0.v5 main_call0.call1.v0 (Host.reverse [2]),
    TRef.binary main_call0.v3 main_call0.call1.v0 main_call0.v7 (fun a b => concatenate S8x128x130x128 2 [⟨S8x128x129x128, a⟩, ⟨S8x128x1x128, b⟩] concatenates_S8x128x129x128_S8x128x1x128_S8x128x130x128_d2),
    TRef.unary main_call0.v7 main_call0.v8 (extractStridedSlice S8x128x130x1 ![0, 0, 0, 0] · slices_S8x128x130x128_S8x128x130x1_0_0_0_0),
    TRef.unary main_call0.v7 main_call0.v9 (extractStridedSlice S8x128x130x1 ![0, 0, 0, 1] · slices_S8x128x130x128_S8x128x130x1_0_0_0_1),
    TRef.unary main_call0.v9 main_call0.call2.v0 (Host.reverse [3]),
    TRef.binary main_call0.call2.v0 main_call0.v7 main_call0.v11 (fun a b => concatenate S8x128x130x129 3 [⟨S8x128x130x1, a⟩, ⟨S8x128x130x128, b⟩] concatenates_S8x128x130x1_S8x128x130x128_S8x128x130x129_d3),
    TRef.unary main_call0.v11 main_call0.v12 (extractStridedSlice S8x128x130x1 ![0, 0, 0, 128] · slices_S8x128x130x129_S8x128x130x1_0_0_0_128),
    TRef.unary main_call0.v11 main_call0.v13 (extractStridedSlice S8x128x130x1 ![0, 0, 0, 127] · slices_S8x128x130x129_S8x128x130x1_0_0_0_127),
    TRef.unary main_call0.v13 main_call0.call3.v0 (Host.reverse [3]),
    TRef.binary main_call0.v11 main_call0.call3.v0 main_call0.v15 (fun a b => concatenate S8x128x130x130 3 [⟨S8x128x130x129, a⟩, ⟨S8x128x130x1, b⟩] concatenates_S8x128x130x129_S8x128x130x1_S8x128x130x130_d3),
    nullary main_cst_7 (constant S_ .f32 0x00000000#32),
    unary main_cst_7 main_v40 (broadcastInDim S8x8x16x128x128 ![] bcast_S_S8x8x16x128x128 : (⟨S_, .f32⟩ : BufTy).Contents (Elt F) → (⟨S8x8x16x128x128, .f32⟩ : BufTy).Contents (Elt F)),
    unary main_v39 main_v41 ((extractStridedSlice S8x128x128x128 ![0, 0, 0, 0] · slices_S8x128x130x130_S8x128x128x128_0_0_0_0) : (⟨S8x128x130x130, .f32⟩ : BufTy).Contents (Elt F) → (⟨S8x128x128x128, .f32⟩ : BufTy).Contents (Elt F)),
    reshape main_v41 main_v42 rfl shapeCasts_S8x128x128x128_S8x8x16x128x128,
    unary main_v38 main_v43 ((extractStridedSlice S8x8x1 ![0, 0, 0] · slices_S8x8x9_S8x8x1_0_0_0) : (⟨S8x8x9, .f32⟩ : BufTy).Contents (Elt F) → (⟨S8x8x1, .f32⟩ : BufTy).Contents (Elt F)),
    reshape main_v43 main_v44 rfl shapeCasts_S8x8x1_S8x8,
    unary main_v44 main_v45 (broadcastInDim S8x8x1x1x1 ![0, 1] bcast_S8x8_S8x8x1x1x1_0_1 : (⟨S8x8, .f32⟩ : BufTy).Contents (Elt F) → (⟨S8x8x1x1x1, .f32⟩ : BufTy).Contents (Elt F)),
    unary main_v45 main_v46 (broadcastInDim S8x8x16x128x128 ![0, 1, 2, 3, 4] bcast_S8x8x1x1x1_S8x8x16x128x128_0_1_2_3_4 : (⟨S8x8x1x1x1, .f32⟩ : BufTy).Contents (Elt F) → (⟨S8x8x16x128x128, .f32⟩ : BufTy).Contents (Elt F)),
    binary main_v42 main_v46 main_v47 (mulf : (⟨S8x8x16x128x128, .f32⟩ : BufTy).Contents (Elt F) → (⟨S8x8x16x128x128, .f32⟩ : BufTy).Contents (Elt F) → (⟨S8x8x16x128x128, .f32⟩ : BufTy).Contents (Elt F)),
    binary main_v40 main_v47 main_v48 (addf : (⟨S8x8x16x128x128, .f32⟩ : BufTy).Contents (Elt F) → (⟨S8x8x16x128x128, .f32⟩ : BufTy).Contents (Elt F) → (⟨S8x8x16x128x128, .f32⟩ : BufTy).Contents (Elt F)),
    unary main_v39 main_v49 ((extractStridedSlice S8x128x128x128 ![0, 0, 0, 1] · slices_S8x128x130x130_S8x128x128x128_0_0_0_1) : (⟨S8x128x130x130, .f32⟩ : BufTy).Contents (Elt F) → (⟨S8x128x128x128, .f32⟩ : BufTy).Contents (Elt F)) ]

/-- @main's 140 operations, in order. -/
abbrev ops : List (HloOp τ sig (Elt F)) := ops0 ++ (opsD1 ++ opsD2)

theorem ops0_eq : (ops0 : List (HloOp τ sig (Elt F))) = opsA ++ (opsB ++ (opsC ++ opsD0)) := rfl

set_option maxRecDepth 8192 in
/-- The first window is its operations in order: the called functions unfolded at their calls and the call's
    record at its fields, sequencing reassociated. -/
theorem part0_eq (c : Dev nD) : main_part0 (F := F) c = seq ops0 := by
  simp only [main_part0, fn_pad.body, fn_flip.body, fn_flip_0.body, seq, bind_assoc, pure_bind]
  rfl

set_option maxRecDepth 8192 in
theorem part1_eq (c : Dev nD) : main_part1 (F := F) c = seq opsD1 := rfl

theorem part2_eq (c : Dev nD) : main_part2 (F := F) c = seq opsD2 := rfl

/-- @main is the three windows run in order, which is the whole list run in order. -/
theorem main_eq (c : Dev nD) : main (F := F) c = seq ops := by
  show (main_part0 c >>= fun _ => main_part1 c >>= fun _ => main_part2 c) = seq (ops0 ++ (opsD1 ++ opsD2))
  rw [seq_append, seq_append, part0_eq c, part1_eq c, part2_eq c]

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨nullary_bufs_sub .., binary_bufs_sub .., nullary_bufs_sub .., unary_bufs_sub .., binary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., reshape_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., nullary_bufs_sub .., unary_bufs_sub .., unary_bufs_sub .., reshape_bufs_sub .., unary_bufs_sub .., reshape_bufs_sub .., unary_bufs_sub .., unary_bufs_sub .., binary_bufs_sub .., binary_bufs_sub .., unary_bufs_sub ..⟩
theorem opsD1_sub : (opsD1 : List (HloOp τ sig (Elt F))).Forall fun op => op.bufs ⊆ tcRefs τ sig :=
  ⟨reshape_bufs_sub .., unary_bufs_sub .., reshape_bufs_sub .., unary_bufs_sub .., unary_bufs_sub .., binary_bufs_sub .., binary_bufs_sub .., unary_bufs_sub .., reshape_bufs_sub .., unary_bufs_sub .., reshape_bufs_sub .., unary_bufs_sub .., unary_bufs_sub .., binary_bufs_sub .., binary_bufs_sub .., unary_bufs_sub .., reshape_bufs_sub .., unary_bufs_sub .., reshape_bufs_sub .., unary_bufs_sub .., unary_bufs_sub .., binary_bufs_sub .., binary_bufs_sub .., unary_bufs_sub .., reshape_bufs_sub .., unary_bufs_sub .., reshape_bufs_sub .., unary_bufs_sub .., unary_bufs_sub .., binary_bufs_sub .., binary_bufs_sub .., unary_bufs_sub .., reshape_bufs_sub .., unary_bufs_sub .., reshape_bufs_sub .., unary_bufs_sub .., unary_bufs_sub .., binary_bufs_sub .., binary_bufs_sub .., unary_bufs_sub .., reshape_bufs_sub .., unary_bufs_sub .., reshape_bufs_sub .., unary_bufs_sub .., unary_bufs_sub .., binary_bufs_sub .., binary_bufs_sub .., unary_bufs_sub .., reshape_bufs_sub .., unary_bufs_sub .., reshape_bufs_sub .., unary_bufs_sub .., unary_bufs_sub .., binary_bufs_sub .., binary_bufs_sub .., unary_bufs_sub .., reshape_bufs_sub .., unary_bufs_sub .., reshape_bufs_sub .., unary_bufs_sub ..⟩
theorem opsD2_sub : (opsD2 : List (HloOp τ sig (Elt F))).Forall fun op => op.bufs ⊆ tcRefs τ sig :=
  ⟨unary_bufs_sub .., binary_bufs_sub .., binary_bufs_sub .., reshape_bufs_sub .., binary_bufs_sub ..⟩

theorem ops_sub : (ops : List (HloOp τ sig (Elt F))).Forall fun op => op.bufs ⊆ tcRefs τ sig := by
  rw [List.forall_iff_forall_mem]
  intro op h
  simp only [ops, List.mem_append] at h
  rcases h with h | h | h
  exacts [List.forall_iff_forall_mem.mp ops0_sub op h, List.forall_iff_forall_mem.mp opsD1_sub op h,
    List.forall_iff_forall_mem.mp opsD2_sub op h]

end Cert.RefSide

end
-- ==== Proof.RefRun.lean ====
/-
  The reference program's run: every weakly fair execution of @main terminates, the two results hold the
  composed terms of the arguments (the mean, the filter weights, the reflect pad, the nine accumulated taps, the
  difference), and the seven arguments are unchanged. The 140 operations are read in four stretches: the mean, the
  filter weights, the pad, the taps; each stretch's result is the named term of what the stretch reads, and a buffer
  a stretch does not write keeps its contents through it.
-/
import proofs.«121505_j26018911879615_2_alg».proof.Proof.RefOps
import proofs.«121505_j26018911879615_2_alg».proof.Proof.RefDefs

noncomputable section

namespace Cert.RefSide

open Cert.ReferenceIdeal Cert.ReferenceIdeal.Facts₀ Idealize.ShloMosaic Idealize.ShloMosaic.TcCoe Idealize.SL.Sem Idealize.ShloMosaic.StableHlo

variable [Cert.ReferenceIdeal.Facts]

/-- The taps' stretch: operations 65 … 140. -/
abbrev opsD : List (HloOp τ sig (Elt Ideal)) := opsD0 ++ (opsD1 ++ opsD2)

theorem after_append' (l₁ l₂ : List (HloOp τ sig (Elt Ideal))) (V : Valuation τ sig (Elt Ideal)) :
    after (l₁ ++ l₂) V = after l₂ (after l₁ V) := by
  induction l₁ generalizing V with
  | nil => rfl
  | cons op l ih => rw [List.cons_append, after_cons, after_cons, ih]

/-- The whole list read as the four stretches in turn. -/
theorem after_ops (V : Valuation τ sig (Elt Ideal)) :
    after (ops (F := Ideal)) V = after opsD (after opsC (after opsB (after opsA V))) := by
  have h : (ops (F := Ideal)) = opsA ++ (opsB ++ (opsC ++ opsD)) := by
    show ops0 ++ (opsD1 ++ opsD2) = _
    rw [ops0_eq]
    simp only [opsD, List.append_assoc]
  rw [h, after_append', after_append', after_append']

/-! ## What each stretch writes -/

abbrev opsA_W : List (Ref sig .tc) := [main_cst, main_v0, main_cst_0, main_v1, main_v2]
abbrev opsB_W : List (Ref sig .tc) := [main_v3, main_v4, main_v5, main_v6, main_cst_1, main_v7, main_v8, main_cst_2, main_v9, main_v10, main_v11, main_v12, main_v13, main_v14, main_cst_3, main_v15, main_v16, main_v17, main_v18, main_v19, main_v20, main_v21, main_v22, main_v23, main_v24, main_v25, main_v26, main_v27, main_cst_4, main_v28, main_cst_5, main_v29, main_v30, main_v31, main_v32, main_v33, main_v34, main_cst_6, main_v35, main_v36, main_v37, main_v38]
abbrev opsC_W : List (Ref sig .tc) := [main_c, main_call0_v0, main_call0_v1, main_call0_v2, main_call0_v3, main_call0_v4, main_call0_v5, main_call0_v6, main_call0_v7, main_call0_v8, main_call0_v9, main_call0_v10, main_call0_v11, main_call0_v12, main_call0_v13, main_call0_v14, main_v39]
abbrev opsD_W : List (Ref sig .tc) := [main_cst_7, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111, main_v112, main_v113, main_v114]

theorem opsA_writes : (opsA : List (HloOp τ sig (Elt Ideal))).Forall fun op =>
    op.writes ⊆ (opsA_W.map (Proc.devRef (τ := τ) .tc)).toFinset := by
  simp only [List.Forall]
  exact ⟨by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide)⟩

set_option maxRecDepth 8192 in
theorem opsB_writes : (opsB : List (HloOp τ sig (Elt Ideal))).Forall fun op =>
    op.writes ⊆ (opsB_W.map (Proc.devRef (τ := τ) .tc)).toFinset := by
  simp only [List.Forall]
  exact ⟨by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide)⟩

set_option maxRecDepth 8192 in
theorem opsC_writes : (opsC : List (HloOp τ sig (Elt Ideal))).Forall fun op =>
    op.writes ⊆ (opsC_W.map (Proc.devRef (τ := τ) .tc)).toFinset := by
  simp only [List.Forall]
  exact ⟨by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide)⟩

set_option maxRecDepth 8192 in
theorem opsD_writes : (opsD : List (HloOp τ sig (Elt Ideal))).Forall fun op =>
    op.writes ⊆ (opsD_W.map (Proc.devRef (τ := τ) .tc)).toFinset := by
  simp only [opsD, opsD0, opsD1, opsD2, List.cons_append, List.nil_append, List.Forall]
  exact ⟨by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide),
      by simp only [nullary_writes, unary_writes, binary_writes, reshape_writes, Finset.singleton_subset_iff, List.mem_toFinset]; exact List.mem_map_of_mem (by decide)⟩

theorem keepA (V : Valuation τ sig (Elt Ideal)) (r : Ref sig .tc) (h : r ∉ opsA_W) :
    after opsA V (Proc.devRef .tc r) = V (Proc.devRef .tc r) := after_of_writes_sub opsA _ opsA_writes h
theorem keepB (V : Valuation τ sig (Elt Ideal)) (r : Ref sig .tc) (h : r ∉ opsB_W) :
    after opsB V (Proc.devRef .tc r) = V (Proc.devRef .tc r) := after_of_writes_sub opsB _ opsB_writes h
theorem keepC (V : Valuation τ sig (Elt Ideal)) (r : Ref sig .tc) (h : r ∉ opsC_W) :
    after opsC V (Proc.devRef .tc r) = V (Proc.devRef .tc r) := after_of_writes_sub opsC _ opsC_writes h
theorem keepD (V : Valuation τ sig (Elt Ideal)) (r : Ref sig .tc) (h : r ∉ opsD_W) :
    after opsD V (Proc.devRef .tc r) = V (Proc.devRef .tc r) := after_of_writes_sub opsD _ opsD_writes h

/-- A buffer none of the four stretches writes keeps its contents through the whole list. -/
theorem keep_all (V : Valuation τ sig (Elt Ideal)) (r : Ref sig .tc) (hA : r ∉ opsA_W) (hB : r ∉ opsB_W) (hC : r ∉ opsC_W)
    (hD : r ∉ opsD_W) : after (ops (F := Ideal)) V (Proc.devRef .tc r) = V (Proc.devRef .tc r) := by
  rw [after_ops, keepD _ r hD, keepC _ r hC, keepB _ r hB, keepA _ r hA]

/-! ## What each stretch computes -/

theorem afterA_v2 (V : Valuation τ sig (Elt Ideal)) :
    after opsA V (Proc.devRef .tc main_v2) = mean (V (Proc.devRef .tc main_arg0)) := by
  simp only [opsA]
  after_results_simp
  rfl

set_option maxRecDepth 8192 in
set_option maxHeartbeats 2000000 in
theorem afterB_v38 (V : Valuation τ sig (Elt Ideal)) :
    after opsB V (Proc.devRef .tc main_v38)
      = filt (V (Proc.devRef .tc main_v2)) (V (Proc.devRef .tc main_arg1)) (V (Proc.devRef .tc main_arg2))
          (V (Proc.devRef .tc main_arg3)) (V (Proc.devRef .tc main_arg4)) (V (Proc.devRef .tc main_arg5))
          (V (Proc.devRef .tc main_arg6)) := by
  simp only [opsB]
  after_results_simp
  rfl

-- the slices, joins and reversals stay folded while the fold over the stretch's operations computes: each operation's
-- result decides by computation whether the buffer read is the one it writes
attribute [local irreducible] concatenate extractStridedSlice Host.reverse in
set_option maxRecDepth 8192 in
set_option maxHeartbeats 1000000 in
theorem afterC_v39 (V : Valuation τ sig (Elt Ideal)) :
    after opsC V (Proc.devRef .tc main_v39) = pad (V (Proc.devRef .tc main_arg0)) := by
  simp only [opsC, after_cons, after_nil]
  unfold pad padCols cols129 padRows rows129
  rfl

set_option maxRecDepth 8192 in
set_option maxHeartbeats 4000000 in
theorem afterD_v113 (V : Valuation τ sig (Elt Ideal)) :
    after opsD V (Proc.devRef .tc main_v113) = lowT (V (Proc.devRef .tc main_v39)) (V (Proc.devRef .tc main_v38)) := by
  simp only [opsD, opsD0, opsD1, opsD2, List.cons_append, List.nil_append]
  after_results_simp
  rfl

set_option maxRecDepth 8192 in
set_option maxHeartbeats 4000000 in
theorem afterD_v114 (V : Valuation τ sig (Elt Ideal)) :
    after opsD V (Proc.devRef .tc main_v114)
      = highT (V (Proc.devRef .tc main_arg0)) (V (Proc.devRef .tc main_v39)) (V (Proc.devRef .tc main_v38)) := by
  simp only [opsD, opsD0, opsD1, opsD2, List.cons_append, List.nil_append]
  after_results_simp
  rfl

/-! ## The results of the whole list -/

/-- The padded input after the first three stretches. -/
theorem val3_v39 (V : Valuation τ sig (Elt Ideal)) :
    after opsC (after opsB (after opsA V)) (Proc.devRef .tc main_v39) = pad (V (Proc.devRef .tc main_arg0)) := by
  rw [afterC_v39, keepB _ main_arg0 (by decide), keepA _ main_arg0 (by decide)]

/-- The filter weights after the first three stretches. -/
theorem val3_v38 (V : Valuation τ sig (Elt Ideal)) :
    after opsC (after opsB (after opsA V)) (Proc.devRef .tc main_v38)
      = filt (mean (V (Proc.devRef .tc main_arg0))) (V (Proc.devRef .tc main_arg1)) (V (Proc.devRef .tc main_arg2))
          (V (Proc.devRef .tc main_arg3)) (V (Proc.devRef .tc main_arg4)) (V (Proc.devRef .tc main_arg5))
          (V (Proc.devRef .tc main_arg6)) := by
  rw [keepC _ main_v38 (by decide), afterB_v38, afterA_v2, keepA _ main_arg1 (by decide), keepA _ main_arg2 (by decide),
    keepA _ main_arg3 (by decide), keepA _ main_arg4 (by decide), keepA _ main_arg5 (by decide), keepA _ main_arg6 (by decide)]

/-- The input after the first three stretches. -/
theorem val3_arg0 (V : Valuation τ sig (Elt Ideal)) :
    after opsC (after opsB (after opsA V)) (Proc.devRef .tc main_arg0) = V (Proc.devRef .tc main_arg0) := by
  rw [keepC _ main_arg0 (by decide), keepB _ main_arg0 (by decide), keepA _ main_arg0 (by decide)]

theorem ops_v113 (V : Valuation τ sig (Elt Ideal)) :
    after (ops (F := Ideal)) V (Proc.devRef .tc main_v113)
      = lowT (pad (V (Proc.devRef .tc main_arg0)))
          (filt (mean (V (Proc.devRef .tc main_arg0))) (V (Proc.devRef .tc main_arg1)) (V (Proc.devRef .tc main_arg2))
            (V (Proc.devRef .tc main_arg3)) (V (Proc.devRef .tc main_arg4)) (V (Proc.devRef .tc main_arg5))
            (V (Proc.devRef .tc main_arg6))) := by
  rw [after_ops, afterD_v113, val3_v39, val3_v38]

theorem ops_v114 (V : Valuation τ sig (Elt Ideal)) :
    after (ops (F := Ideal)) V (Proc.devRef .tc main_v114)
      = highT (V (Proc.devRef .tc main_arg0)) (pad (V (Proc.devRef .tc main_arg0)))
          (filt (mean (V (Proc.devRef .tc main_arg0))) (V (Proc.devRef .tc main_arg1)) (V (Proc.devRef .tc main_arg2))
            (V (Proc.devRef .tc main_arg3)) (V (Proc.devRef .tc main_arg4)) (V (Proc.devRef .tc main_arg5))
            (V (Proc.devRef .tc main_arg6))) := by
  rw [after_ops, afterD_v114, val3_v39, val3_v38, val3_arg0]

theorem ops_main_arg0 (V : Valuation τ sig (Elt Ideal)) :
    after (ops (F := Ideal)) V (Proc.devRef .tc main_arg0) = V (Proc.devRef .tc main_arg0) :=
  keep_all V main_arg0 (by decide) (by decide) (by decide) (by decide)
theorem ops_main_arg1 (V : Valuation τ sig (Elt Ideal)) :
    after (ops (F := Ideal)) V (Proc.devRef .tc main_arg1) = V (Proc.devRef .tc main_arg1) :=
  keep_all V main_arg1 (by decide) (by decide) (by decide) (by decide)
theorem ops_main_arg2 (V : Valuation τ sig (Elt Ideal)) :
    after (ops (F := Ideal)) V (Proc.devRef .tc main_arg2) = V (Proc.devRef .tc main_arg2) :=
  keep_all V main_arg2 (by decide) (by decide) (by decide) (by decide)
theorem ops_main_arg3 (V : Valuation τ sig (Elt Ideal)) :
    after (ops (F := Ideal)) V (Proc.devRef .tc main_arg3) = V (Proc.devRef .tc main_arg3) :=
  keep_all V main_arg3 (by decide) (by decide) (by decide) (by decide)
theorem ops_main_arg4 (V : Valuation τ sig (Elt Ideal)) :
    after (ops (F := Ideal)) V (Proc.devRef .tc main_arg4) = V (Proc.devRef .tc main_arg4) :=
  keep_all V main_arg4 (by decide) (by decide) (by decide) (by decide)
theorem ops_main_arg5 (V : Valuation τ sig (Elt Ideal)) :
    after (ops (F := Ideal)) V (Proc.devRef .tc main_arg5) = V (Proc.devRef .tc main_arg5) :=
  keep_all V main_arg5 (by decide) (by decide) (by decide) (by decide)
theorem ops_main_arg6 (V : Valuation τ sig (Elt Ideal)) :
    after (ops (F := Ideal)) V (Proc.devRef .tc main_arg6) = V (Proc.devRef .tc main_arg6) :=
  keep_all V main_arg6 (by decide) (by decide) (by decide) (by decide)

/-- From any memory with zero counters: every weakly fair execution of @main terminates; the first result is the nine
    accumulated taps of the reflect-padded input under the filter weights computed from the plane means, the second the
    input minus the first, and the seven arguments are unchanged. -/
theorem run (m : (ℓ : Loc nD τ sig) → Buf (Elt Ideal) ℓ) (g : Dev nD → PrngReg) :
    θ_run (Cert.ReferenceIdeal.defs (F := Ideal)) (onTc (τ := τ) (Cert.ReferenceIdeal.main (F := Ideal))) ⟨m, fun _ => 0, g⟩
      (fun r => ∀ c : Dev nD,
        r.2.mem ((c.tc : Thread nD τ).loc main_v113)
          = lowT (pad (m ((c.tc : Thread nD τ).loc main_arg0)))
              (filt (mean (m ((c.tc : Thread nD τ).loc main_arg0))) (m ((c.tc : Thread nD τ).loc main_arg1))
                (m ((c.tc : Thread nD τ).loc main_arg2)) (m ((c.tc : Thread nD τ).loc main_arg3))
                (m ((c.tc : Thread nD τ).loc main_arg4)) (m ((c.tc : Thread nD τ).loc main_arg5))
                (m ((c.tc : Thread nD τ).loc main_arg6)))
        ∧ r.2.mem ((c.tc : Thread nD τ).loc main_v114)
          = highT (m ((c.tc : Thread nD τ).loc main_arg0)) (pad (m ((c.tc : Thread nD τ).loc main_arg0)))
              (filt (mean (m ((c.tc : Thread nD τ).loc main_arg0))) (m ((c.tc : Thread nD τ).loc main_arg1))
                (m ((c.tc : Thread nD τ).loc main_arg2)) (m ((c.tc : Thread nD τ).loc main_arg3))
                (m ((c.tc : Thread nD τ).loc main_arg4)) (m ((c.tc : Thread nD τ).loc main_arg5))
                (m ((c.tc : Thread nD τ).loc main_arg6)))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)) :=
  (θ_run defs _ _).mono (fun _ h c => ⟨(h c main_v113).trans (ops_v113 (launchContents m c)),
      (h c main_v114).trans (ops_v114 (launchContents m c)),
      (h c main_arg0).trans (ops_main_arg0 (launchContents m c)),
      (h c main_arg1).trans (ops_main_arg1 (launchContents m c)),
      (h c main_arg2).trans (ops_main_arg2 (launchContents m c)),
      (h c main_arg3).trans (ops_main_arg3 (launchContents m c)),
      (h c main_arg4).trans (ops_main_arg4 (launchContents m c)),
      (h c main_arg5).trans (ops_main_arg5 (launchContents m c)),
      (h c main_arg6).trans (ops_main_arg6 (launchContents m c))⟩)
    (run_seq scopedRefs_eq scopedSems_eq defs main (fun _ => ops) main_eq (fun _ => ops_sub) m g)

end Cert.RefSide

end
-- ==== Proof.lean ====
/-
  The certificate's five claims, assembled.

  Both idealized programs compute, from the input x [8, 128, 128, 128] and six parameter arrays, the filter
  weights w [8, 8, 9] — a softmax over nine taps of a gated, normalised linear image of the mean of every
  128×128 plane of x — and then, for every plane, the 3×3 filter with REFLECT padding: zero plus the nine
  products x(nb i r, nb j q) · w(n, C / 16, 3·i + j) added in the order of the taps; the second result is x
  minus that. The kernel takes the plane means in one pipeline (lane sums, row sums, a product with 2⁻¹⁴),
  computes w on the host, and filters in a second pipeline with rotations patched at the boundary row and
  column; the reference divides the plane sums by 16384, pads x by slices, reversals and concatenations, and
  multiplies nine shifted windows by broadcast weights. The plane means agree because a finite sum of
  extended reals does not depend on its grouping and dividing by the real 16384 is multiplying by the real
  1/16384; from equal means the same host operations give equal weights; and each result entry is the same
  nine-term sum on both sides. No step uses that the inputs are finite.

  The three frames: the two kernel programs by their generated frame theorems, the reference by its run with
  the results dropped. The kernel's idealization rewrote nothing, so what it preserves is trivially true.
-/
import proofs.«121505_j26018911879615_2_alg».proof.Defs
import proofs.«121505_j26018911879615_2_alg».proof.Proof.Gen.Kernel
import proofs.«121505_j26018911879615_2_alg».proof.Proof.Gen.Kernel.Skeleton
import proofs.«121505_j26018911879615_2_alg».proof.Proof.Gen.Kernel.Launch
import proofs.«121505_j26018911879615_2_alg».proof.Proof.Gen.Kernel.Points
import proofs.«121505_j26018911879615_2_alg».proof.Proof.Gen.Kernel.Frame
import proofs.«121505_j26018911879615_2_alg».proof.Proof.Gen.KernelIdeal
import proofs.«121505_j26018911879615_2_alg».proof.Proof.Gen.KernelIdeal.Skeleton
import proofs.«121505_j26018911879615_2_alg».proof.Proof.Gen.KernelIdeal.Launch
import proofs.«121505_j26018911879615_2_alg».proof.Proof.Gen.KernelIdeal.Points
import proofs.«121505_j26018911879615_2_alg».proof.Proof.Gen.KernelIdeal.Frame
import proofs.«121505_j26018911879615_2_alg».proof.Proof.Gen.ReferenceIdeal
import proofs.«121505_j26018911879615_2_alg».proof.Proof.Gen.Pre_finite_inputs
import proofs.«121505_j26018911879615_2_alg».proof.Proof.KernelValue
import proofs.«121505_j26018911879615_2_alg».proof.Proof.MeanBridge
import proofs.«121505_j26018911879615_2_alg».proof.Proof.ConvBody
import proofs.«121505_j26018911879615_2_alg».proof.Proof.RefTaps
import proofs.«121505_j26018911879615_2_alg».proof.Proof.RefRun
import Idealize.ShloMosaic.Adequacy
import Idealize.ShloMosaic.Init

set_option maxRecDepth 16384

noncomputable section

namespace Cert.Proof

open Idealize.ShloMosaic Idealize.SL.Sem

/-- The body of the filtering kernel stores the filtered plane … -/
theorem bodyLow : Cert.KernelIdeal.ConvBlocks.BodyLow :=
  fun x0 x1 cc r q => Cert.KerConv.out1_2_apply x0 x1 cc r q

/-- … and the input minus the filtered plane. -/
theorem bodyHigh : Cert.KernelIdeal.ConvBlocks.BodyHigh :=
  fun x0 x1 cc r q => Cert.KerConv.out1_3_apply x0 x1 cc r q

/-- The same host operations applied to equal plane means: the kernel's weights are the reference's. -/
theorem weights_eq (m : (ℓ : Loc Cert.KernelIdeal.nD Cert.KernelIdeal.τ Cert.KernelIdeal.sig) → Buf (Elt Ideal) ℓ)
    (c : Dev Cert.KernelIdeal.nD) :
    Cert.KernelIdeal.Whole.weights m c
      = Cert.RefSide.filt (Cert.RefSide.mean (m ((c.tc : Thread Cert.KernelIdeal.nD Cert.KernelIdeal.τ).loc Cert.KernelIdeal.main_arg0)))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6)) := by
  unfold Cert.KernelIdeal.Whole.weights Cert.KernelIdeal.Whole.pooled
  rw [Cert.MeanBridge.pooled_eq]
  rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.RefSide.run m ρ)

theorem preserves : Cert.preserves_Kernel_KernelIdeal := trivial

theorem algebraic : Cert.algebraic_KernelIdeal_ReferenceIdeal := by
  intro m ρ m' ρ' _ hagree
  refine ⟨_, _, Cert.KernelIdeal.Whole.run m ρ bodyLow bodyHigh, ?_⟩
  refine (θ_run Cert.ReferenceIdeal.defs _ _).mono (fun r h c => ⟨(h c).1.trans ?_, (h c).2.1.trans ?_, (h c).2.2⟩)
    (Cert.RefSide.run m' ρ')
  · rw [Cert.RefSide.lowT_pad, (hagree c).1, (hagree c).2.1, (hagree c).2.2.1, (hagree c).2.2.2.1, (hagree c).2.2.2.2.1,
      (hagree c).2.2.2.2.2.1, (hagree c).2.2.2.2.2.2, ← weights_eq m c]
  · rw [Cert.RefSide.highT_pad, (hagree c).1, (hagree c).2.1, (hagree c).2.2.1, (hagree c).2.2.2.1, (hagree c).2.2.2.2.1,
      (hagree c).2.2.2.2.2.1, (hagree c).2.2.2.2.2.2, ← weights_eq m c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
